-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128 .f32) (main_arg12 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128x64 .f32) (main_arg8 : FVec F S64 .f32) (main_arg9 : FVec F S128 .f32) (main_arg10 : FVec F S128 .f32) (main_arg11 : FVec F S128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S128 .f32) (main_arg10 : FVec F S128 .f32) (main_arg11 : FVec F S128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 111
  | .vmem => 60
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .bf16⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .bf16⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x1, .f32⟩
  | .hbm, ⟨49, _⟩ => ⟨S1x128, .f32⟩
  | .hbm, ⟨50, _⟩ => ⟨S100000x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S100000x1, .f32⟩
  | .hbm, ⟨62, _⟩ => ⟨S100000x128, .f32⟩
  | .hbm, ⟨63, _⟩ => ⟨S100000x128, .bf16⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .bf16⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S100000x1, .f32⟩
  | .hbm, ⟨79, _⟩ => ⟨S1x128, .f32⟩
  | .hbm, ⟨80, _⟩ => ⟨S100000x128, .f32⟩
  | .hbm, ⟨81, _⟩ => ⟨S1x128, .f32⟩
  | .hbm, ⟨82, _⟩ => ⟨S_, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S_, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S100000x1, .f32⟩
  | .hbm, ⟨92, _⟩ => ⟨S100000x64, .f32⟩
  | .hbm, ⟨93, _⟩ => ⟨S100000x64, .bf16⟩
  | .hbm, ⟨94, _⟩ => ⟨S_, .i32⟩
  | .hbm, ⟨95, _⟩ => ⟨S1600000, .i32⟩
  | .hbm, ⟨96, _⟩ => ⟨S1600000, .i1⟩
  | .hbm, ⟨97, _⟩ => ⟨S_, .i32⟩
  | .hbm, ⟨98, _⟩ => ⟨S1600000, .i32⟩
  | .hbm, ⟨99, _⟩ => ⟨S1600000, .i32⟩
  | .hbm, ⟨100, _⟩ => ⟨S1600000, .i32⟩
  | .hbm, ⟨101, _⟩ => ⟨S1600000x1, .i32⟩
  | .hbm, ⟨102, _⟩ => ⟨S1600000x64, .bf16⟩
  | .hbm, ⟨103, _⟩ => ⟨S1600000x64, .f32⟩
  | .hbm, ⟨104, _⟩ => ⟨S_, .f32⟩
  | .hbm, ⟨105, _⟩ => ⟨S100000x64, .f32⟩
  | .hbm, ⟨106, _⟩ => ⟨S1600000x1, .i32⟩
  | .hbm, ⟨107, _⟩ => ⟨S100000x64, .f32⟩
  | .hbm, ⟨108, _⟩ => ⟨S100000x1, .f32⟩
  | .hbm, ⟨109, _⟩ => ⟨S1x64, .f32⟩
  | .hbm, ⟨110, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S5000x1, .f32⟩
  | .local _ .vmem, ⟨26, _⟩ => ⟨S5000x1, .f32⟩
  | .local _ .vmem, ⟨27, _⟩ => ⟨S128x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S5000x1, .f32⟩
  | .local _ .vmem, ⟨49, _⟩ => ⟨S5000x1, .f32⟩
  | .local _ .vmem, ⟨50, _⟩ => ⟨S128x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x1, .f32⟩
  | .local _ .vmem, ⟨56, _⟩ => ⟨S5000x1, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29_0 : Ref sig .tc := ⟨.hbm, 50, rfl⟩
abbrev main_v29_1 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53_0 : Ref sig .tc := ⟨.hbm, 80, rfl⟩
abbrev main_v53_1 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg5_1 : Ref sig .tc := ⟨.vmem, 26, rfl⟩
abbrev cc3_stg6_0 : Ref sig .tc := ⟨.vmem, 27, rfl⟩
abbrev cc3_stg7_0 : Ref sig .tc := ⟨.vmem, 28, rfl⟩
abbrev cc3_stg7_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg5_1 : Ref sig .tc := ⟨.vmem, 49, rfl⟩
abbrev cc6_stg6_0 : Ref sig .tc := ⟨.vmem, 50, rfl⟩
abbrev cc6_stg7_0 : Ref sig .tc := ⟨.vmem, 51, rfl⟩
abbrev cc6_stg7_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg3_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem5_1 : DmaSem sig := 26
abbrev cc3_sem6_0 : DmaSem sig := 27
abbrev cc3_sem7_0 : DmaSem sig := 28
abbrev cc3_sem7_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem3_1 : DmaSem sig := 36
abbrev cc4_sem4_0 : DmaSem sig := 37
abbrev cc5_sem0_0 : DmaSem sig := 38
abbrev cc5_sem0_1 : DmaSem sig := 39
abbrev cc5_sem1_0 : DmaSem sig := 40
abbrev cc5_sem2_0 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem5_1 : DmaSem sig := 49
abbrev cc6_sem6_0 : DmaSem sig := 50
abbrev cc6_sem7_0 : DmaSem sig := 51
abbrev cc6_sem7_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem3_0 : DmaSem sig := 58
abbrev cc7_sem3_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S128x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S100000x1.size a
  hwx3_5 : ∀ i : grid3.Coords, EltTy.bits .f32 = 32 ∨ (Rect.block (s := S100000x1) S5000x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x1.size a ≤ S100000x1.size a
  hwx6_5 : ∀ i : grid6.Coords, EltTy.bits .f32 = 32 ∨ (Rect.block (s := S100000x1) S5000x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128x64.size a ≤ S128x64.size a
  hwx6_6 : ∀ i : grid6.Coords, EltTy.bits .f32 = 32 ∨ (Rect.block (s := S128x64) S128x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x64.size a ≤ S100000x64.size a
  hwx6_7 : ∀ i : grid6.Coords, EltTy.bits .f32 = 32 ∨ (Rect.block (s := S100000x64) S5000x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S100000x64.size a
  hwx7_3 : ∀ i : grid7.Coords, EltTy.bits .f32 = 32 ∨ (Rect.block (s := S100000x64) S5000x64.size (cc7_transform_3 i) (hinb7_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29_1) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S5000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_arg5) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v38) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v50) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53_0) S5000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v53_1) S1x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v53_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v53_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v55) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v58) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v59) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v60) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v61) S5000x1.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_arg7) S128x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v62) S5000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v74) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v75) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v76) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v77) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 208
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S128, .f32⟩
  | 10 => ⟨S128, .f32⟩
  | 11 => ⟨S128, .f32⟩
  | 12 => ⟨S128, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S_, .f32⟩
  | 21 => ⟨S100000, .f32⟩
  | 22 => ⟨S100000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S_, .f32⟩
  | 29 => ⟨S100000, .f32⟩
  | 30 => ⟨S100000, .f32⟩
  | 31 => ⟨S100000, .f32⟩
  | 32 => ⟨S100000x1, .f32⟩
  | 33 => ⟨S100000x128, .f32⟩
  | 34 => ⟨S100000x128, .f32⟩
  | 35 => ⟨S100000x128, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x128, .f32⟩
  | 45 => ⟨S_, .f32⟩
  | 46 => ⟨S100000x128, .f32⟩
  | 47 => ⟨S1600000x1, .i32⟩
  | 48 => ⟨S100000x128, .f32⟩
  | 49 => ⟨S100000, .f32⟩
  | 50 => ⟨S100000x1, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S128, .f32⟩
  | 58 => ⟨S_, .f32⟩
  | 59 => ⟨S128, .f32⟩
  | 60 => ⟨S128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S128, .f32⟩
  | 67 => ⟨S_, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S_, .f32⟩
  | 74 => ⟨S128, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S_, .f32⟩
  | 90 => ⟨S1600000, .f32⟩
  | 91 => ⟨S_, .f32⟩
  | 92 => ⟨S100000, .f32⟩
  | 93 => ⟨S1600000x1, .i32⟩
  | 94 => ⟨S100000, .f32⟩
  | 95 => ⟨S_, .f32⟩
  | 96 => ⟨S_, .f32⟩
  | 97 => ⟨S100000, .f32⟩
  | 98 => ⟨S100000, .f32⟩
  | 99 => ⟨S_, .f32⟩
  | 100 => ⟨S100000, .f32⟩
  | 101 => ⟨S1600000x1, .i32⟩
  | 102 => ⟨S100000, .f32⟩
  | 103 => ⟨S_, .f32⟩
  | 104 => ⟨S_, .f32⟩
  | 105 => ⟨S100000, .f32⟩
  | 106 => ⟨S100000, .f32⟩
  | 107 => ⟨S100000, .f32⟩
  | 108 => ⟨S100000x1, .f32⟩
  | 109 => ⟨S100000x128, .f32⟩
  | 110 => ⟨S100000x128, .f32⟩
  | 111 => ⟨S100000x128, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S100000, .f32⟩
  | 126 => ⟨S100000x1, .f32⟩
  | 127 => ⟨S100000x128, .f32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S128, .f32⟩
  | 6 => ⟨S_, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S100000x128, .f32⟩
  | 13 => ⟨S_, .f32⟩
  | 14 => ⟨S128, .f32⟩
  | 15 => ⟨S_, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S_, .f32⟩
  | 22 => ⟨S128, .f32⟩
  | 23 => ⟨S128, .f32⟩
  | 24 => ⟨S128, .f32⟩
  | 25 => ⟨S1x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S_, .f32⟩
  | 38 => ⟨S1600000, .f32⟩
  | 39 => ⟨S_, .f32⟩
  | 40 => ⟨S100000, .f32⟩
  | 41 => ⟨S1600000x1, .i32⟩
  | 42 => ⟨S100000, .f32⟩
  | 43 => ⟨S_, .f32⟩
  | 44 => ⟨S_, .f32⟩
  | 45 => ⟨S100000, .f32⟩
  | 46 => ⟨S100000, .f32⟩
  | 47 => ⟨S_, .f32⟩
  | 48 => ⟨S100000, .f32⟩
  | 49 => ⟨S1600000x1, .i32⟩
  | 50 => ⟨S100000, .f32⟩
  | 51 => ⟨S_, .f32⟩
  | 52 => ⟨S_, .f32⟩
  | 53 => ⟨S100000, .f32⟩
  | 54 => ⟨S100000, .f32⟩
  | 55 => ⟨S100000, .f32⟩
  | 56 => ⟨S100000x1, .f32⟩
  | 57 => ⟨S100000x128, .f32⟩
  | 58 => ⟨S100000x128, .f32⟩
  | 59 => ⟨S100000x64, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x64, .f32⟩
  | 69 => ⟨S_, .f32⟩
  | 70 => ⟨S100000x64, .f32⟩
  | 71 => ⟨S1600000x1, .i32⟩
  | 72 => ⟨S100000x64, .f32⟩
  | 73 => ⟨S100000, .f32⟩
  | 74 => ⟨S100000x1, .f32⟩
  | 75 => ⟨S100000x64, .f32⟩
  | 76 => ⟨S100000x64, .f32⟩
  | 77 => ⟨S1x64, .f32⟩
  | 78 => ⟨S100000x64, .f32⟩
  | 79 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_cst_7 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_8 : Ref sig .tc := ⟨.hbm, 65, rfl⟩
abbrev main_v38 : Ref sig .tc := ⟨.hbm, 66, rfl⟩
abbrev main_cst_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_10 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call2_cst : Ref sig .tc := ⟨.hbm, 86, rfl⟩
abbrev main_call2_v0 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_13 : Ref sig .tc := ⟨.hbm, 95, rfl⟩
abbrev main_call3_v0 : Ref sig .tc := ⟨.hbm, 96, rfl⟩
abbrev main_call3_v1 : Ref sig .tc := ⟨.hbm, 97, rfl⟩
abbrev main_v61 : Ref sig .tc := ⟨.hbm, 98, rfl⟩
abbrev main_cst_14 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_15 : Ref sig .tc := ⟨.hbm, 103, rfl⟩
abbrev main_call4_v0 : Ref sig .tc := ⟨.hbm, 104, rfl⟩
abbrev main_call4_v1 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_16 : Ref sig .tc := ⟨.hbm, 112, rfl⟩
abbrev main_v71 : Ref sig .tc := ⟨.hbm, 113, rfl⟩
abbrev main_v72 : Ref sig .tc := ⟨.hbm, 114, rfl⟩
abbrev main_c_17 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_18 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_19 : Ref sig .tc := ⟨.hbm, 132, rfl⟩
abbrev main_v88 : Ref sig .tc := ⟨.hbm, 133, rfl⟩
abbrev main_cst_20 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_21 : Ref sig .tc := ⟨.hbm, 141, rfl⟩
abbrev main_v95 : Ref sig .tc := ⟨.hbm, 142, rfl⟩
abbrev main_cst_22 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_23 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_call5_cst : Ref sig .tc := ⟨.hbm, 162, rfl⟩
abbrev main_call5_v0 : Ref sig .tc := ⟨.hbm, 163, rfl⟩
abbrev main_v113 : Ref sig .tc := ⟨.hbm, 164, rfl⟩
abbrev main_cst_24 : Ref sig .tc := ⟨.hbm, 165, rfl⟩
abbrev main_v114 : Ref sig .tc := ⟨.hbm, 166, rfl⟩
abbrev main_cst_25 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_26 : Ref sig .tc := ⟨.hbm, 171, rfl⟩
abbrev main_call6_v0 : Ref sig .tc := ⟨.hbm, 172, rfl⟩
abbrev main_call6_v1 : Ref sig .tc := ⟨.hbm, 173, rfl⟩
abbrev main_v118 : Ref sig .tc := ⟨.hbm, 174, rfl⟩
abbrev main_cst_27 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_28 : Ref sig .tc := ⟨.hbm, 179, rfl⟩
abbrev main_call7_v0 : Ref sig .tc := ⟨.hbm, 180, rfl⟩
abbrev main_call7_v1 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_c_29 : Ref sig .tc := ⟨.hbm, 188, rfl⟩
abbrev main_v128 : Ref sig .tc := ⟨.hbm, 189, rfl⟩
abbrev main_v129 : Ref sig .tc := ⟨.hbm, 190, rfl⟩
abbrev main_c_30 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_cst_31 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The idealized kernel's run with its result array named: every weakly fair execution of @main terminates, nothing
  faulting, and the result buffer ends at the contents the chain of host stretches and regions leaves in it
  (the last boundary's valuation read at the result), the argument arrays unchanged.
-/
import proofs.«164148_j27101243638257_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the sixteen segments, its last thread state read at the result buffer and at each argument. -/
theorem run : θ_run defs (onTc (τ := τ) (main (F := F))) ⟨m, fun _ => 0, ρ⟩ (fun r => ∀ c : Dev nD,
      r.2.mem ((c.tc : Thread nD τ).loc main_v77) = W16 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v77 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c)⟩)

end Cert.KernelIdeal.Named

end
-- ==== Proof.Spec.lean ====
/-
  The layers of the graph network as functions of whole arrays over the extended reals, index by index.

  One graph convolution is, on n = 100000 nodes,
      agg = A (diag(s_out) · h · W),   out = diag(s_in) · agg + b,
  where A (the sparse adjacency sum: a gather along edge sources and a scatter-add along edge targets) is applied
  by host operations that both programs spell alike, and everything node-dense is a function below:
    scaleMatmul   (h · s_out) W         rows scaled, then the matrix product
    biasScale     agg · s_in + b        rows scaled, then the bias added
    colSum        the column sums over all n rows
    colSqDev      the column sums of squared deviations from a row vector
    overN         a row vector divided by n (the literal 1.0e5)
    bnRelu        max(((h - mean) · rsqrt(var + ε)) · γ + β, 0), the batch normalization followed by the rectifier
  Row vectors are carried as [1, d] arrays and the per-node scales as [n, 1] arrays, the shapes the kernel's windows have.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An [a, b] array of extended reals. -/
abbrev Arr (a b : Nat) : Type := (⟨2, ![a, b]⟩ : Shape).Idx → EReal

/-- The batch-normalization epsilon, the f32 nearest 1e-5, as both programs print it. -/
abbrev eps : EReal := Ideal.ofBits .f32 0x3727C5AC#32
/-- The node count 1.0e5 as an f32 literal, the divisor of both means. -/
abbrev nodes : EReal := Ideal.ofBits .f32 0x47C35000#32
/-- The zero word. -/
abbrev zero : EReal := Ideal.ofBits .f32 0x00000000#32

/-- Entry (r, j) of (h · s) W: row r of h scaled by s r, times column j of W. -/
def scaleMatmulAt {D : Nat} (h : Arr 100000 128) (s : Arr 100000 1) (W : Arr 128 D) (r : Fin 100000) (j : Fin D) : EReal :=
  ∑ k : Fin 128, (h (ix2 r k) * s (ix2 r (0 : Fin 1))) * W (ix2 k j)

/-- (h · s) W. -/
def scaleMatmul {D : Nat} (h : Arr 100000 128) (s : Arr 100000 1) (W : Arr 128 D) : Arr 100000 D :=
  fun i => scaleMatmulAt h s W (i 0) (i 1)

/-- Entry (r, j) of a · s + b. -/
def biasScaleAt {D : Nat} (a : Arr 100000 D) (s : Arr 100000 1) (b : Arr 1 D) (r : Fin 100000) (j : Fin D) : EReal :=
  a (ix2 r j) * s (ix2 r (0 : Fin 1)) + b (ix2 (0 : Fin 1) j)

/-- a · s + b: every row scaled by its node's factor, the bias row added. -/
def biasScale {D : Nat} (a : Arr 100000 D) (s : Arr 100000 1) (b : Arr 1 D) : Arr 100000 D :=
  fun i => biasScaleAt a s b (i 0) (i 1)

/-- Column j's sum over all rows. -/
def colSumAt (h : Arr 100000 128) (j : Fin 128) : EReal := ∑ r : Fin 100000, h (ix2 r j)

/-- The column sums, as a [1, 128] row. -/
def colSum (h : Arr 100000 128) : Arr 1 128 := fun i => colSumAt h (i 1)

/-- Column j's sum of squared deviations from μ j. -/
def colSqDevAt (h : Arr 100000 128) (μ : Arr 1 128) (j : Fin 128) : EReal :=
  ∑ r : Fin 100000, (h (ix2 r j) - μ (ix2 (0 : Fin 1) j)) * (h (ix2 r j) - μ (ix2 (0 : Fin 1) j))

/-- The column sums of squared deviations, as a [1, 128] row. -/
def colSqDev (h : Arr 100000 128) (μ : Arr 1 128) : Arr 1 128 := fun i => colSqDevAt h μ (i 1)

/-- A row divided by the node count. -/
def overN (v : Arr 1 128) : Arr 1 128 := fun i => Ideal.div (v i) nodes

/-- Entry (r, k) of the normalized, rectified features. -/
def bnReluAt (h : Arr 100000 128) (μ v γ β : Arr 1 128) (r : Fin 100000) (k : Fin 128) : EReal :=
  max ((h (ix2 r k) - μ (ix2 (0 : Fin 1) k)) * Ideal.rsqrt (v (ix2 (0 : Fin 1) k) + eps) * γ (ix2 (0 : Fin 1) k)
    + β (ix2 (0 : Fin 1) k)) zero

/-- max(((h - μ) · rsqrt(v + ε)) · γ + β, 0). -/
def bnRelu (h : Arr 100000 128) (μ v γ β : Arr 1 128) : Arr 100000 128 := fun i => bnReluAt h μ v γ β (i 0) (i 1)

theorem scaleMatmul_ix2 {D : Nat} (h : Arr 100000 128) (s : Arr 100000 1) (W : Arr 128 D) (r : Fin 100000) (j : Fin D) :
    scaleMatmul h s W (ix2 r j) = scaleMatmulAt h s W r j := rfl
theorem biasScale_ix2 {D : Nat} (a : Arr 100000 D) (s : Arr 100000 1) (b : Arr 1 D) (r : Fin 100000) (j : Fin D) :
    biasScale a s b (ix2 r j) = biasScaleAt a s b r j := rfl
theorem colSum_ix2 (h : Arr 100000 128) (z : Fin 1) (j : Fin 128) : colSum h (ix2 z j) = colSumAt h j := rfl
theorem colSqDev_ix2 (h : Arr 100000 128) (μ : Arr 1 128) (z : Fin 1) (j : Fin 128) :
    colSqDev h μ (ix2 z j) = colSqDevAt h μ j := rfl
theorem bnRelu_ix2 (h : Arr 100000 128) (μ v γ β : Arr 1 128) (r : Fin 100000) (k : Fin 128) :
    bnRelu h μ v γ β (ix2 r k) = bnReluAt h μ v γ β r k := rfl

/-! ## Regrouping a column sum: 20 blocks of 5000 rows, added block after block -/

/-- Row q of block t. -/
abbrev rowOf (t : Fin 20) (q : Fin 5000) : Fin 100000 := ⟨5000 * t.val + q.val, by have := t.isLt; have := q.isLt; omega⟩

/-- A sum over all 100000 rows is the sum over the 20 blocks of each block's 5000 rows. -/
theorem sum_blocks (g : Fin 100000 → EReal) : ∑ r : Fin 100000, g r = ∑ t : Fin 20, ∑ q : Fin 5000, g (rowOf t q) := by
  rw [← Equiv.sum_comp ((finProdFinEquiv (m := 20) (n := 5000)).trans (finCongr (by norm_num : 20 * 5000 = 100000))) g,
    Fintype.sum_prod_type]
  refine Finset.sum_congr rfl fun t _ => Finset.sum_congr rfl fun q _ => congrArg g (Fin.ext ?_)
  show q.val + 5000 * t.val = 5000 * t.val + q.val
  omega

/-- The running sum after block n: the first block added to the zero word, every later block added to what came before. -/
def runSum (f : ℕ → EReal) : ℕ → EReal
  | 0 => zero + f 0
  | n + 1 => runSum f n + f (n + 1)

theorem runSum_eq (f : ℕ → EReal) (n : ℕ) : runSum f n = ∑ t ∈ Finset.range (n + 1), f t := by
  induction n with
  | zero => simp [runSum, zero, Ideal.ofBits_zero_f32]
  | succ n ih => rw [runSum, ih, Finset.sum_range_succ _ (n + 1)]

/-- After the last of the 20 blocks the running sum is the sum over all blocks. -/
theorem runSum_last (f : ℕ → EReal) : runSum f 19 = ∑ t : Fin 20, f t.val := by
  rw [runSum_eq, Finset.sum_range]

end Cert.Spec

end
-- ==== Proof.Glue.lean ====
/-
  Small facts about host layout operations and pointwise operations over the extended reals, used to pass between
  the two programs' spellings of one array: a vector reshaped to a column (or a row) is the vector broadcast along
  the new unit axis; the maximum of two arrays does not depend on their order.
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.Glue

open Idealize.ShloMosaic Idealize.ShloMosaic.ValueIdx

/-- The pointwise maximum of two arrays of extended reals is symmetric. -/
theorem maximumf_comm {s : Shape} {φ : FTy} (a b : FVec Ideal s φ) : maximumf a b = maximumf b a :=
  funext fun i => max_comm (a i) (b i)

/-- A vector reshaped to a column reads, at (r, 0), the vector at r. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector reshaped to a column is the vector broadcast along a new trailing unit axis. -/
theorem reshape_col {α : Type} {a : ℕ} (x : (⟨1, ![a]⟩ : Shape).Idx → α)
    (h : (⟨1, ![a]⟩ : Shape).ShapeCasts ⟨2, ![a, 1]⟩)
    (dims : Fin 1 → Fin 2) (hd : dims = ![0]) (h' : (⟨1, ![a]⟩ : Shape).BroadcastsInDim ⟨2, ![a, 1]⟩ dims) :
    shapeCast ⟨2, ![a, 1]⟩ x h = broadcastInDim ⟨2, ![a, 1]⟩ dims h' x := by
  subst hd
  funext j
  obtain ⟨i, u, rfl⟩ : ∃ (i : Fin a) (u : Fin 1), j = ix2 i u := ⟨j 0, j 1, eq_ix2 j⟩
  rw [shapeCast_a_a1_apply]
  refine (broadcastInDim_apply _ h' x (ix2 i u) (ix1 i) fun d => ?_).symm
  match d with
  | ⟨0, _⟩ =>
    show i.val = if a = 1 then 0 else i.val
    split
    · have := i.isLt; omega
    · rfl

/-- A vector reshaped to a row is the vector broadcast along a new leading unit axis. -/
theorem reshape_row {α : Type} {a : ℕ} (x : (⟨1, ![a]⟩ : Shape).Idx → α)
    (h : (⟨1, ![a]⟩ : Shape).ShapeCasts ⟨2, ![1, a]⟩)
    (dims : Fin 1 → Fin 2) (hd : dims = ![1]) (h' : (⟨1, ![a]⟩ : Shape).BroadcastsInDim ⟨2, ![1, a]⟩ dims) :
    shapeCast ⟨2, ![1, a]⟩ x h = broadcastInDim ⟨2, ![1, a]⟩ dims h' x := by
  subst hd
  funext j
  obtain ⟨u, i, rfl⟩ : ∃ (u : Fin 1) (i : Fin a), j = ix2 u i := ⟨j 0, j 1, eq_ix2 j⟩
  rw [shapeCast_a_1a_apply]
  refine (broadcastInDim_apply _ h' x (ix2 u i) (ix1 i) fun d => ?_).symm
  match d with
  | ⟨0, _⟩ =>
    show i.val = if a = 1 then 0 else i.val
    split
    · have := i.isLt; omega
    · rfl

end Cert.Glue

end
-- ==== Proof.Chain.lean ====
/-
  From the launch memory to the result: the contents of the kernel program's buffers at the boundaries between its
  host stretches and its eight regions, each identified with the reference program's stage of the same arguments.

  Every boundary's valuation is the previous one through a host stretch (each operation's result at its own buffer,
  every other buffer kept) or through a region (its output arrays at what the pipeline's write-backs leave, every other
  buffer kept). Carried down to the arguments, a region's input arrays are the reference's stages (by the earlier
  steps), the region's output is a layer function of them (the per-region facts), and that layer function of the
  reference's stages is the reference's next stage (the per-layer facts). The two programs spell a few host steps
  differently: a vector reshaped to a column where the other broadcasts it along a new axis, the degree clipped by
  max(d, 1) where the other takes max(1, d), the features rounded to a narrower format around the gather (the identity
  on extended reals), the degrees and scales computed once where the other recomputes them per layer.
-/
import proofs.«164148_j27101243638257_2_alg».proof.Proof.Gen.KernelIdeal.Frame
import proofs.«164148_j27101243638257_2_alg».proof.Proof.Gen.ReferenceIdeal.Read
import proofs.«164148_j27101243638257_2_alg».proof.Proof.Spec
import proofs.«164148_j27101243638257_2_alg».proof.Proof.Glue
import Idealize.ShloMosaic.Lib.StableHlo.Run

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo

/-- The contents a region is entered with, at the ideal values. -/
abbrev Vals : Type := (c : Dev nD) → (b : Ref sig .tc) → Buf (Elt Ideal) ((c : Thread nD τ).loc b)

/-- What each region leaves in its output arrays, as a layer function of the arrays it was entered with. -/
structure RegionFacts : Prop where
  r0 : ∀ (V : Vals) (c : Dev nD), (dat0 (F := Ideal) V c).arrAt 3 cfg0.N = Spec.scaleMatmul (V c main_arg0) (V c main_v13) (V c main_arg3)
  r1h : ∀ (V : Vals) (c : Dev nD), (dat1 (F := Ideal) V c).arrAt 3 cfg1.N = Spec.biasScale (V c main_v26) (V c main_v27) (V c main_v28)
  r1s : ∀ (V : Vals) (c : Dev nD), (dat1 (F := Ideal) V c).arrAt 4 cfg1.N = Spec.colSum (Spec.biasScale (V c main_v26) (V c main_v27) (V c main_v28))
  r2 : ∀ (V : Vals) (c : Dev nD), (dat2 (F := Ideal) V c).arrAt 2 cfg2.N = Spec.colSqDev (V c main_v29_0) (V c main_v31)
  r3 : ∀ (V : Vals) (c : Dev nD), (dat3 (F := Ideal) V c).arrAt 7 cfg3.N
        = Spec.scaleMatmul (Spec.bnRelu (V c main_v29_0) (V c main_v31) (V c main_v34) (V c main_v35) (V c main_v36)) (V c main_v37) (V c main_arg5)
  r4h : ∀ (V : Vals) (c : Dev nD), (dat4 (F := Ideal) V c).arrAt 3 cfg4.N = Spec.biasScale (V c main_v50) (V c main_v51) (V c main_v52)
  r4s : ∀ (V : Vals) (c : Dev nD), (dat4 (F := Ideal) V c).arrAt 4 cfg4.N = Spec.colSum (Spec.biasScale (V c main_v50) (V c main_v51) (V c main_v52))
  r5 : ∀ (V : Vals) (c : Dev nD), (dat5 (F := Ideal) V c).arrAt 2 cfg5.N = Spec.colSqDev (V c main_v53_0) (V c main_v55)
  r6 : ∀ (V : Vals) (c : Dev nD), (dat6 (F := Ideal) V c).arrAt 7 cfg6.N
        = Spec.scaleMatmul (Spec.bnRelu (V c main_v53_0) (V c main_v55) (V c main_v58) (V c main_v59) (V c main_v60)) (V c main_v61) (V c main_arg7)
  r7 : ∀ (V : Vals) (c : Dev nD), (dat7 (F := Ideal) V c).arrAt 3 cfg7.N = Spec.biasScale (V c main_v74) (V c main_v75) (V c main_v76)

set_option quotPrecheck false in
local notation "Tnf" => (⟨Cert.ReferenceIdeal.S100000x128, .f32⟩ : BufTy).Contents (Elt Ideal)
set_option quotPrecheck false in
local notation "Tei" => (⟨Cert.ReferenceIdeal.S1600000, .i32⟩ : BufTy).Contents (Elt Ideal)
set_option quotPrecheck false in
local notation "Tww" => (⟨Cert.ReferenceIdeal.S128x128, .f32⟩ : BufTy).Contents (Elt Ideal)
set_option quotPrecheck false in
local notation "Twc" => (⟨Cert.ReferenceIdeal.S128x64, .f32⟩ : BufTy).Contents (Elt Ideal)
set_option quotPrecheck false in
local notation "Tv" => (⟨Cert.ReferenceIdeal.S128, .f32⟩ : BufTy).Contents (Elt Ideal)
set_option quotPrecheck false in
local notation "Tc" => (⟨Cert.ReferenceIdeal.S64, .f32⟩ : BufTy).Contents (Elt Ideal)

/-- The reference's layer stages as layer functions of its earlier stages. -/
structure RefFacts : Prop where
  hw : ∀ (x0 : Tnf) (x1 : Tei) (x3 : Tww), val_main_v13 (F := Ideal) x0 x1 x3 = Spec.scaleMatmul x0 (val_main_v10 (F := Ideal) x1) x3
  hraw : ∀ (x0 : Tnf) (x1 x2 : Tei) (x3 : Tww) (x4 : Tv), val_main_v30 (F := Ideal) x0 x1 x2 x3 x4
      = Spec.biasScale (val_main_v23 (F := Ideal) x0 x1 x2 x3) (val_main_v25 (F := Ideal) x2) (val_main_v28 (F := Ideal) x4)
  mean : ∀ (x0 : Tnf) (x1 x2 : Tei) (x3 : Tww) (x4 : Tv), val_main_v34 (F := Ideal) x0 x1 x2 x3 x4
      = Spec.overN (Spec.colSum (val_main_v30 (F := Ideal) x0 x1 x2 x3 x4))
  hw1 : ∀ (x0 : Tnf) (x1 x2 : Tei) (x3 : Tww) (x4 : Tv) (x5 : Tww) (x9 x10 : Tv), val_main_v70 (F := Ideal) x0 x1 x2 x3 x4 x5 x9 x10
      = Spec.scaleMatmul (Spec.bnRelu (val_main_v30 (F := Ideal) x0 x1 x2 x3 x4) (val_main_v34 (F := Ideal) x0 x1 x2 x3 x4)
          (Spec.overN (Spec.colSqDev (val_main_v30 (F := Ideal) x0 x1 x2 x3 x4) (val_main_v34 (F := Ideal) x0 x1 x2 x3 x4)))
          (val_main_v50 (F := Ideal) x9) (val_main_v53 (F := Ideal) x10)) (val_main_v67 (F := Ideal) x1) x5
  hraw1 : ∀ (x0 : Tnf) (x1 x2 : Tei) (x3 : Tww) (x4 : Tv) (x5 : Tww) (x6 x9 x10 : Tv), val_main_v87 (F := Ideal) x0 x1 x2 x3 x4 x5 x6 x9 x10
      = Spec.biasScale (val_main_v80 (F := Ideal) x0 x1 x2 x3 x4 x5 x9 x10) (val_main_v82 (F := Ideal) x2) (val_main_v85 (F := Ideal) x6)
  mean1 : ∀ (x0 : Tnf) (x1 x2 : Tei) (x3 : Tww) (x4 : Tv) (x5 : Tww) (x6 x9 x10 : Tv), val_main_v91 (F := Ideal) x0 x1 x2 x3 x4 x5 x6 x9 x10
      = Spec.overN (Spec.colSum (val_main_v87 (F := Ideal) x0 x1 x2 x3 x4 x5 x6 x9 x10))
  hw2 : ∀ (x0 : Tnf) (x1 x2 : Tei) (x3 : Tww) (x4 : Tv) (x5 : Tww) (x6 : Tv) (x7 : Twc) (x9 x10 x11 x12 : Tv),
      val_main_v127 (F := Ideal) x0 x1 x2 x3 x4 x5 x6 x7 x9 x10 x11 x12
      = Spec.scaleMatmul (Spec.bnRelu (val_main_v87 (F := Ideal) x0 x1 x2 x3 x4 x5 x6 x9 x10) (val_main_v91 (F := Ideal) x0 x1 x2 x3 x4 x5 x6 x9 x10)
          (Spec.overN (Spec.colSqDev (val_main_v87 (F := Ideal) x0 x1 x2 x3 x4 x5 x6 x9 x10) (val_main_v91 (F := Ideal) x0 x1 x2 x3 x4 x5 x6 x9 x10)))
          (val_main_v107 (F := Ideal) x11) (val_main_v110 (F := Ideal) x12)) (val_main_v124 (F := Ideal) x1) x7
  out : ∀ (x0 : Tnf) (x1 x2 : Tei) (x3 : Tww) (x4 : Tv) (x5 : Tww) (x6 : Tv) (x7 : Twc) (x8 : Tc) (x9 x10 x11 x12 : Tv),
      val_main_v144 (F := Ideal) x0 x1 x2 x3 x4 x5 x6 x7 x8 x9 x10 x11 x12
      = Spec.biasScale (val_main_v137 (F := Ideal) x0 x1 x2 x3 x4 x5 x6 x7 x9 x10 x11 x12) (val_main_v139 (F := Ideal) x2) (val_main_v142 (F := Ideal) x8)

section
variable (m : (ℓ : Loc nD τ sig) → Buf (Elt Ideal) ℓ) (ρ : Dev nD → PrngReg) (c : Dev nD)

/-! ## A buffer no region writes keeps its contents through the region -/

theorem keep0 (b : Ref sig .tc) (hb : ∀ w, Pipeline.arrRef spec0 w ≠ b) : W2 m ρ c (no_index (Proc.devRef .tc b)) = W1 m ρ c (Proc.devRef .tc b) := W2_of_ne m ρ c b hb
theorem keep1 (b : Ref sig .tc) (hb : ∀ w, Pipeline.arrRef spec1 w ≠ b) : W4 m ρ c (no_index (Proc.devRef .tc b)) = W3 m ρ c (Proc.devRef .tc b) := W4_of_ne m ρ c b hb
theorem keep2 (b : Ref sig .tc) (hb : ∀ w, Pipeline.arrRef spec2 w ≠ b) : W6 m ρ c (no_index (Proc.devRef .tc b)) = W5 m ρ c (Proc.devRef .tc b) := W6_of_ne m ρ c b hb
theorem keep3 (b : Ref sig .tc) (hb : ∀ w, Pipeline.arrRef spec3 w ≠ b) : W8 m ρ c (no_index (Proc.devRef .tc b)) = W7 m ρ c (Proc.devRef .tc b) := W8_of_ne m ρ c b hb
theorem keep4 (b : Ref sig .tc) (hb : ∀ w, Pipeline.arrRef spec4 w ≠ b) : W10 m ρ c (no_index (Proc.devRef .tc b)) = W9 m ρ c (Proc.devRef .tc b) := W10_of_ne m ρ c b hb
theorem keep5 (b : Ref sig .tc) (hb : ∀ w, Pipeline.arrRef spec5 w ≠ b) : W12 m ρ c (no_index (Proc.devRef .tc b)) = W11 m ρ c (Proc.devRef .tc b) := W12_of_ne m ρ c b hb
theorem keep6 (b : Ref sig .tc) (hb : ∀ w, Pipeline.arrRef spec6 w ≠ b) : W14 m ρ c (no_index (Proc.devRef .tc b)) = W13 m ρ c (Proc.devRef .tc b) := W14_of_ne m ρ c b hb
theorem keep7 (b : Ref sig .tc) (hb : ∀ w, Pipeline.arrRef spec7 w ≠ b) : W16 m ρ c (no_index (Proc.devRef .tc b)) = W15 m ρ c (Proc.devRef .tc b) := W16_of_ne m ρ c b hb

/-! ## An input array a later region still reads keeps its contents through the region that read it -/

theorem in2_0 : W6 m ρ c (no_index (Proc.devRef .tc main_v29_0)) = W5 m ρ c (Proc.devRef .tc main_v29_0) :=
  (W6_arr m ρ c 0).trans (((dat2 (V5 m ρ) c).arrAt_in 0 rfl _).trans (A_eq2 (V5 m ρ) c 0))
theorem in2_1 : W6 m ρ c (no_index (Proc.devRef .tc main_v31)) = W5 m ρ c (Proc.devRef .tc main_v31) :=
  (W6_arr m ρ c 1).trans (((dat2 (V5 m ρ) c).arrAt_in 1 rfl _).trans (A_eq2 (V5 m ρ) c 1))
theorem in5_0 : W12 m ρ c (no_index (Proc.devRef .tc main_v53_0)) = W11 m ρ c (Proc.devRef .tc main_v53_0) :=
  (W12_arr m ρ c 0).trans (((dat5 (V11 m ρ) c).arrAt_in 0 rfl _).trans (A_eq5 (V11 m ρ) c 0))
theorem in5_1 : W12 m ρ c (no_index (Proc.devRef .tc main_v55)) = W11 m ρ c (Proc.devRef .tc main_v55) :=
  (W12_arr m ρ c 1).trans (((dat5 (V11 m ρ) c).arrAt_in 1 rfl _).trans (A_eq5 (V11 m ρ) c 1))

end

/-- Carry a buffer's contents at a boundary down to the arguments and the regions' outputs: through a region that does
    not write it unchanged, through a host stretch by each operation's result. -/
macro "walk" : tactic =>
  `(tactic| (simp (disch := decide) only [keep0, keep1, keep2, keep3, keep4, keep5, keep6, keep7, in2_0, in2_1, in5_0, in5_1,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

section
variable (m : (ℓ : Loc nD τ sig) → Buf (Elt Ideal) ℓ) (ρ : Dev nD → PrngReg) (c : Dev nD)

set_option quotPrecheck false in
local notation "a0" => m ((c : Thread nD τ).loc main_arg0)
set_option quotPrecheck false in
local notation "a1" => m ((c : Thread nD τ).loc main_arg1)
set_option quotPrecheck false in
local notation "a2" => m ((c : Thread nD τ).loc main_arg2)
set_option quotPrecheck false in
local notation "a3" => m ((c : Thread nD τ).loc main_arg3)
set_option quotPrecheck false in
local notation "a4" => m ((c : Thread nD τ).loc main_arg4)
set_option quotPrecheck false in
local notation "a5" => m ((c : Thread nD τ).loc main_arg5)
set_option quotPrecheck false in
local notation "a6" => m ((c : Thread nD τ).loc main_arg6)
set_option quotPrecheck false in
local notation "a7" => m ((c : Thread nD τ).loc main_arg7)
set_option quotPrecheck false in
local notation "a8" => m ((c : Thread nD τ).loc main_arg8)
set_option quotPrecheck false in
local notation "a9" => m ((c : Thread nD τ).loc main_arg9)
set_option quotPrecheck false in
local notation "a10" => m ((c : Thread nD τ).loc main_arg10)
set_option quotPrecheck false in
local notation "a11" => m ((c : Thread nD τ).loc main_arg11)
set_option quotPrecheck false in
local notation "a12" => m ((c : Thread nD τ).loc main_arg12)

/-! ## Layer 0 -/

/-- The source-degree scale: rsqrt of the clipped out-degree, as the reference computes it. -/
theorem scale_out : W1 m ρ c (Proc.devRef .tc main_v11) = val_main_v9 (F := Ideal) a1 := by
  walk
  rw [Glue.maximumf_comm]
  rfl

/-- The target-degree scale. -/
theorem scale_in : W1 m ρ c (Proc.devRef .tc main_v12) = val_main_v24 (F := Ideal) a2 := by
  walk
  rw [Glue.maximumf_comm]
  rfl

/-- The source-degree scale as a column: the kernel's reshape is the reference's broadcast along a new axis. -/
theorem col_out : W1 m ρ c (Proc.devRef .tc main_v13) = val_main_v10 (F := Ideal) a1 := by
  have h : W1 m ρ c (Proc.devRef .tc main_v13)
      = shapeCast S100000x1 (W1 m ρ c (Proc.devRef .tc main_v11)) shapeCasts_S100000_S100000x1 := by walk; rfl
  rw [h, scale_out]
  exact Glue.reshape_col _ _ _ rfl _

/-- Region 0's output: the scaled features times the first weight matrix, the reference's first product. -/
theorem s14 (K : RegionFacts) (R : RefFacts) : W2 m ρ c (Proc.devRef .tc main_v14) = val_main_v13 (F := Ideal) a0 a1 a3 := by
  have e0 : V1 m ρ c main_arg0 = a0 := by show W1 m ρ c (Proc.devRef .tc main_arg0) = _; walk
  have e3 : V1 m ρ c main_arg3 = a3 := by show W1 m ρ c (Proc.devRef .tc main_arg3) = _; walk
  have e13 : V1 m ρ c main_v13 = val_main_v10 (F := Ideal) a1 := col_out m ρ c
  rw [show W2 m ρ c (Proc.devRef .tc main_v14) = (dat0 (V1 m ρ) c).arrAt 3 cfg0.N from W2_arr m ρ c 3, K.r0, e0, e3, e13]
  exact (R.hw _ _ _).symm

/-- The aggregated features: the gather along edge sources and the scatter-add along edge targets of region 0's output
    (the narrower format around the gather is the identity on extended reals). -/
theorem in26 (K : RegionFacts) (R : RefFacts) : W3 m ρ c (Proc.devRef .tc main_v26) = val_main_v23 (F := Ideal) a0 a1 a2 a3 := by
  walk
  rw [s14 m ρ c K R]
  rfl

/-- The target-degree scale as a column. -/
theorem in27 : W3 m ρ c (Proc.devRef .tc main_v27) = val_main_v25 (F := Ideal) a2 := by
  have h : W3 m ρ c (Proc.devRef .tc main_v27)
      = shapeCast S100000x1 (W1 m ρ c (Proc.devRef .tc main_v12)) shapeCasts_S100000_S100000x1 := by walk; rfl
  rw [h, scale_in]
  exact Glue.reshape_col _ _ _ rfl _

/-- The first bias as a row. -/
theorem in28 : W3 m ρ c (Proc.devRef .tc main_v28) = val_main_v28 (F := Ideal) a4 := by
  have h : W3 m ρ c (Proc.devRef .tc main_v28) = shapeCast S1x128 a4 shapeCasts_S128_S1x128 := by walk; rfl
  rw [h]
  exact Glue.reshape_row _ _ _ rfl _

/-- Region 1's first output: the first layer's raw features. -/
theorem s29_0 (K : RegionFacts) (R : RefFacts) : W4 m ρ c (Proc.devRef .tc main_v29_0) = val_main_v30 (F := Ideal) a0 a1 a2 a3 a4 := by
  rw [show W4 m ρ c (Proc.devRef .tc main_v29_0) = (dat1 (V3 m ρ) c).arrAt 3 cfg1.N from W4_arr m ρ c 3, K.r1h,
    show V3 m ρ c main_v26 = _ from in26 m ρ c K R, show V3 m ρ c main_v27 = _ from in27 m ρ c,
    show V3 m ρ c main_v28 = _ from in28 m ρ c]
  exact (R.hraw _ _ _ _ _).symm

/-- Region 1's second output: their column sums. -/
theorem s29_1 (K : RegionFacts) (R : RefFacts) : W4 m ρ c (Proc.devRef .tc main_v29_1) = Spec.colSum (val_main_v30 (F := Ideal) a0 a1 a2 a3 a4) := by
  rw [show W4 m ρ c (Proc.devRef .tc main_v29_1) = (dat1 (V3 m ρ) c).arrAt 4 cfg1.N from W4_arr m ρ c 4, K.r1s,
    show V3 m ρ c main_v26 = _ from in26 m ρ c K R, show V3 m ρ c main_v27 = _ from in27 m ρ c,
    show V3 m ρ c main_v28 = _ from in28 m ρ c, ← R.hraw]

/-- The mean row: the column sums over n. -/
theorem in31 (K : RegionFacts) (R : RefFacts) : W5 m ρ c (Proc.devRef .tc main_v31) = val_main_v34 (F := Ideal) a0 a1 a2 a3 a4 := by
  have h : W5 m ρ c (Proc.devRef .tc main_v31)
      = Host.divf (F := Ideal) (W4 m ρ c (Proc.devRef .tc main_v29_1)) (broadcastInDim S1x128 ![] bcast_S_S1x128 (constant (F := Ideal) S_ .f32 0x47C35000#32)) := by walk
  rw [h, s29_1 m ρ c K R, R.mean]
  rfl

theorem e29_5 : W5 m ρ c (Proc.devRef .tc main_v29_0) = W4 m ρ c (Proc.devRef .tc main_v29_0) := by walk

/-- Region 2's output: the column sums of squared deviations from the mean row. -/
theorem s32 (K : RegionFacts) (R : RefFacts) : W6 m ρ c (Proc.devRef .tc main_v32)
    = Spec.colSqDev (val_main_v30 (F := Ideal) a0 a1 a2 a3 a4) (val_main_v34 (F := Ideal) a0 a1 a2 a3 a4) := by
  rw [show W6 m ρ c (Proc.devRef .tc main_v32) = (dat2 (V5 m ρ) c).arrAt 2 cfg2.N from W6_arr m ρ c 2, K.r2,
    show V5 m ρ c main_v29_0 = _ from (e29_5 m ρ c).trans (s29_0 m ρ c K R), show V5 m ρ c main_v31 = _ from in31 m ρ c K R]

/-- The variance row. -/
theorem in34 (K : RegionFacts) (R : RefFacts) : W7 m ρ c (Proc.devRef .tc main_v34)
    = Spec.overN (Spec.colSqDev (val_main_v30 (F := Ideal) a0 a1 a2 a3 a4) (val_main_v34 (F := Ideal) a0 a1 a2 a3 a4)) := by
  have h : W7 m ρ c (Proc.devRef .tc main_v34)
      = Host.divf (F := Ideal) (W6 m ρ c (Proc.devRef .tc main_v32)) (broadcastInDim S1x128 ![] bcast_S_S1x128 (constant (F := Ideal) S_ .f32 0x47C35000#32)) := by walk
  rw [h, s32 m ρ c K R]
  rfl

theorem in35 : W7 m ρ c (Proc.devRef .tc main_v35) = val_main_v50 (F := Ideal) a9 := by
  have h : W7 m ρ c (Proc.devRef .tc main_v35) = shapeCast S1x128 a9 shapeCasts_S128_S1x128 := by walk; rfl
  rw [h]
  exact Glue.reshape_row _ _ _ rfl _

theorem in36 : W7 m ρ c (Proc.devRef .tc main_v36) = val_main_v53 (F := Ideal) a10 := by
  have h : W7 m ρ c (Proc.devRef .tc main_v36) = shapeCast S1x128 a10 shapeCasts_S128_S1x128 := by walk; rfl
  rw [h]
  exact Glue.reshape_row _ _ _ rfl _

/-- The source-degree scale again (the reference recomputes the degrees for each layer: the same function). -/
theorem in37 : W7 m ρ c (Proc.devRef .tc main_v37) = val_main_v67 (F := Ideal) a1 := by
  have h : W7 m ρ c (Proc.devRef .tc main_v37)
      = shapeCast S100000x1 (W1 m ρ c (Proc.devRef .tc main_v11)) shapeCasts_S100000_S100000x1 := by walk; rfl
  rw [h, scale_out]
  rw [show val_main_v67 (F := Ideal) a1 = val_main_v10 (F := Ideal) a1 from rfl]
  exact Glue.reshape_col _ _ _ rfl _

theorem e29_7 : W7 m ρ c (Proc.devRef .tc main_v29_0) = W4 m ρ c (Proc.devRef .tc main_v29_0) := by walk
theorem e31_7 : W7 m ρ c (Proc.devRef .tc main_v31) = W5 m ρ c (Proc.devRef .tc main_v31) := by walk
theorem e5_7 : W7 m ρ c (Proc.devRef .tc main_arg5) = a5 := by walk

/-- Region 3's output: the normalized, rectified, rescaled features times the second weight matrix. -/
theorem s38 (K : RegionFacts) (R : RefFacts) : W8 m ρ c (Proc.devRef .tc main_v38) = val_main_v70 (F := Ideal) a0 a1 a2 a3 a4 a5 a9 a10 := by
  rw [show W8 m ρ c (Proc.devRef .tc main_v38) = (dat3 (V7 m ρ) c).arrAt 7 cfg3.N from W8_arr m ρ c 7, K.r3,
    show V7 m ρ c main_v29_0 = _ from (e29_7 m ρ c).trans (s29_0 m ρ c K R),
    show V7 m ρ c main_v31 = _ from (e31_7 m ρ c).trans (in31 m ρ c K R),
    show V7 m ρ c main_v34 = _ from in34 m ρ c K R, show V7 m ρ c main_v35 = _ from in35 m ρ c,
    show V7 m ρ c main_v36 = _ from in36 m ρ c, show V7 m ρ c main_v37 = _ from in37 m ρ c,
    show V7 m ρ c main_arg5 = _ from e5_7 m ρ c]
  exact (R.hw1 _ _ _ _ _ _ _ _).symm

/-! ## Layer 1 -/

theorem in50 (K : RegionFacts) (R : RefFacts) : W9 m ρ c (Proc.devRef .tc main_v50) = val_main_v80 (F := Ideal) a0 a1 a2 a3 a4 a5 a9 a10 := by
  walk
  rw [s38 m ρ c K R]
  rfl

theorem in51 : W9 m ρ c (Proc.devRef .tc main_v51) = val_main_v82 (F := Ideal) a2 := by
  have h : W9 m ρ c (Proc.devRef .tc main_v51)
      = shapeCast S100000x1 (W1 m ρ c (Proc.devRef .tc main_v12)) shapeCasts_S100000_S100000x1 := by walk; rfl
  rw [h, scale_in]
  rw [show val_main_v82 (F := Ideal) a2 = val_main_v25 (F := Ideal) a2 from rfl]
  exact Glue.reshape_col _ _ _ rfl _

theorem in52 : W9 m ρ c (Proc.devRef .tc main_v52) = val_main_v85 (F := Ideal) a6 := by
  have h : W9 m ρ c (Proc.devRef .tc main_v52) = shapeCast S1x128 a6 shapeCasts_S128_S1x128 := by walk; rfl
  rw [h]
  exact Glue.reshape_row _ _ _ rfl _

/-- Region 4's first output: the second layer's raw features. -/
theorem s53_0 (K : RegionFacts) (R : RefFacts) : W10 m ρ c (Proc.devRef .tc main_v53_0) = val_main_v87 (F := Ideal) a0 a1 a2 a3 a4 a5 a6 a9 a10 := by
  rw [show W10 m ρ c (Proc.devRef .tc main_v53_0) = (dat4 (V9 m ρ) c).arrAt 3 cfg4.N from W10_arr m ρ c 3, K.r4h,
    show V9 m ρ c main_v50 = _ from in50 m ρ c K R, show V9 m ρ c main_v51 = _ from in51 m ρ c,
    show V9 m ρ c main_v52 = _ from in52 m ρ c]
  exact (R.hraw1 _ _ _ _ _ _ _ _ _).symm

/-- Region 4's second output: their column sums. -/
theorem s53_1 (K : RegionFacts) (R : RefFacts) : W10 m ρ c (Proc.devRef .tc main_v53_1)
    = Spec.colSum (val_main_v87 (F := Ideal) a0 a1 a2 a3 a4 a5 a6 a9 a10) := by
  rw [show W10 m ρ c (Proc.devRef .tc main_v53_1) = (dat4 (V9 m ρ) c).arrAt 4 cfg4.N from W10_arr m ρ c 4, K.r4s,
    show V9 m ρ c main_v50 = _ from in50 m ρ c K R, show V9 m ρ c main_v51 = _ from in51 m ρ c,
    show V9 m ρ c main_v52 = _ from in52 m ρ c, ← R.hraw1]

theorem in55 (K : RegionFacts) (R : RefFacts) : W11 m ρ c (Proc.devRef .tc main_v55) = val_main_v91 (F := Ideal) a0 a1 a2 a3 a4 a5 a6 a9 a10 := by
  have h : W11 m ρ c (Proc.devRef .tc main_v55)
      = Host.divf (F := Ideal) (W10 m ρ c (Proc.devRef .tc main_v53_1)) (broadcastInDim S1x128 ![] bcast_S_S1x128 (constant (F := Ideal) S_ .f32 0x47C35000#32)) := by walk
  rw [h, s53_1 m ρ c K R, R.mean1]
  rfl

theorem e53_11 : W11 m ρ c (Proc.devRef .tc main_v53_0) = W10 m ρ c (Proc.devRef .tc main_v53_0) := by walk

/-- Region 5's output. -/
theorem s56 (K : RegionFacts) (R : RefFacts) : W12 m ρ c (Proc.devRef .tc main_v56)
    = Spec.colSqDev (val_main_v87 (F := Ideal) a0 a1 a2 a3 a4 a5 a6 a9 a10) (val_main_v91 (F := Ideal) a0 a1 a2 a3 a4 a5 a6 a9 a10) := by
  rw [show W12 m ρ c (Proc.devRef .tc main_v56) = (dat5 (V11 m ρ) c).arrAt 2 cfg5.N from W12_arr m ρ c 2, K.r5,
    show V11 m ρ c main_v53_0 = _ from (e53_11 m ρ c).trans (s53_0 m ρ c K R), show V11 m ρ c main_v55 = _ from in55 m ρ c K R]

theorem in58 (K : RegionFacts) (R : RefFacts) : W13 m ρ c (Proc.devRef .tc main_v58)
    = Spec.overN (Spec.colSqDev (val_main_v87 (F := Ideal) a0 a1 a2 a3 a4 a5 a6 a9 a10) (val_main_v91 (F := Ideal) a0 a1 a2 a3 a4 a5 a6 a9 a10)) := by
  have h : W13 m ρ c (Proc.devRef .tc main_v58)
      = Host.divf (F := Ideal) (W12 m ρ c (Proc.devRef .tc main_v56)) (broadcastInDim S1x128 ![] bcast_S_S1x128 (constant (F := Ideal) S_ .f32 0x47C35000#32)) := by walk
  rw [h, s56 m ρ c K R]
  rfl

theorem in59 : W13 m ρ c (Proc.devRef .tc main_v59) = val_main_v107 (F := Ideal) a11 := by
  have h : W13 m ρ c (Proc.devRef .tc main_v59) = shapeCast S1x128 a11 shapeCasts_S128_S1x128 := by walk; rfl
  rw [h]
  exact Glue.reshape_row _ _ _ rfl _

theorem in60 : W13 m ρ c (Proc.devRef .tc main_v60) = val_main_v110 (F := Ideal) a12 := by
  have h : W13 m ρ c (Proc.devRef .tc main_v60) = shapeCast S1x128 a12 shapeCasts_S128_S1x128 := by walk; rfl
  rw [h]
  exact Glue.reshape_row _ _ _ rfl _

theorem in61 : W13 m ρ c (Proc.devRef .tc main_v61) = val_main_v124 (F := Ideal) a1 := by
  have h : W13 m ρ c (Proc.devRef .tc main_v61)
      = shapeCast S100000x1 (W1 m ρ c (Proc.devRef .tc main_v11)) shapeCasts_S100000_S100000x1 := by walk; rfl
  rw [h, scale_out]
  rw [show val_main_v124 (F := Ideal) a1 = val_main_v10 (F := Ideal) a1 from rfl]
  exact Glue.reshape_col _ _ _ rfl _

theorem e53_13 : W13 m ρ c (Proc.devRef .tc main_v53_0) = W10 m ρ c (Proc.devRef .tc main_v53_0) := by walk
theorem e55_13 : W13 m ρ c (Proc.devRef .tc main_v55) = W11 m ρ c (Proc.devRef .tc main_v55) := by walk
theorem e7_13 : W13 m ρ c (Proc.devRef .tc main_arg7) = a7 := by walk

/-- Region 6's output: the second layer's normalized, rectified, rescaled features times the last weight matrix. -/
theorem s62 (K : RegionFacts) (R : RefFacts) : W14 m ρ c (Proc.devRef .tc main_v62)
    = val_main_v127 (F := Ideal) a0 a1 a2 a3 a4 a5 a6 a7 a9 a10 a11 a12 := by
  rw [show W14 m ρ c (Proc.devRef .tc main_v62) = (dat6 (V13 m ρ) c).arrAt 7 cfg6.N from W14_arr m ρ c 7, K.r6,
    show V13 m ρ c main_v53_0 = _ from (e53_13 m ρ c).trans (s53_0 m ρ c K R),
    show V13 m ρ c main_v55 = _ from (e55_13 m ρ c).trans (in55 m ρ c K R),
    show V13 m ρ c main_v58 = _ from in58 m ρ c K R, show V13 m ρ c main_v59 = _ from in59 m ρ c,
    show V13 m ρ c main_v60 = _ from in60 m ρ c, show V13 m ρ c main_v61 = _ from in61 m ρ c,
    show V13 m ρ c main_arg7 = _ from e7_13 m ρ c]
  exact (R.hw2 _ _ _ _ _ _ _ _ _ _ _ _).symm

/-! ## Layer 2 -/

theorem in74 (K : RegionFacts) (R : RefFacts) : W15 m ρ c (Proc.devRef .tc main_v74)
    = val_main_v137 (F := Ideal) a0 a1 a2 a3 a4 a5 a6 a7 a9 a10 a11 a12 := by
  walk
  rw [s62 m ρ c K R]
  rfl

theorem in75 : W15 m ρ c (Proc.devRef .tc main_v75) = val_main_v139 (F := Ideal) a2 := by
  have h : W15 m ρ c (Proc.devRef .tc main_v75)
      = shapeCast S100000x1 (W1 m ρ c (Proc.devRef .tc main_v12)) shapeCasts_S100000_S100000x1 := by walk; rfl
  rw [h, scale_in]
  rw [show val_main_v139 (F := Ideal) a2 = val_main_v25 (F := Ideal) a2 from rfl]
  exact Glue.reshape_col _ _ _ rfl _

theorem in76 : W15 m ρ c (Proc.devRef .tc main_v76) = val_main_v142 (F := Ideal) a8 := by
  have h : W15 m ρ c (Proc.devRef .tc main_v76) = shapeCast S1x64 a8 shapeCasts_S64_S1x64 := by walk; rfl
  rw [h]
  exact Glue.reshape_row _ _ _ rfl _

/-- The result array: the last aggregation scaled by the target degrees, the last bias added — the reference's result. -/
theorem result (K : RegionFacts) (R : RefFacts) : W16 m ρ c (Proc.devRef .tc main_v77)
    = val_main_v144 (F := Ideal) a0 a1 a2 a3 a4 a5 a6 a7 a8 a9 a10 a11 a12 := by
  rw [show W16 m ρ c (Proc.devRef .tc main_v77) = (dat7 (V15 m ρ) c).arrAt 3 cfg7.N from W16_arr m ρ c 3, K.r7,
    show V15 m ρ c main_v74 = _ from in74 m ρ c K R, show V15 m ρ c main_v75 = _ from in75 m ρ c,
    show V15 m ρ c main_v76 = _ from in76 m ρ c]
  exact (R.out _ _ _ _ _ _ _ _ _ _ _ _ _).symm

end

end Cert.KernelIdeal.Chain

end
-- ==== Proof.KRegion0.lean ====
/-
  The first region: every block of 5000 rows of the node features is scaled row by row by the nodes' factors and
  multiplied by the weight matrix, into a zero accumulator. Read over the extended reals, where the two changes of
  format are the identity, the array the region leaves is (h · s) W.
-/
import proofs.«164148_j27101243638257_2_alg».proof.Proof.Gen.KernelIdeal.Frame
import proofs.«164148_j27101243638257_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region0
open Cert.KernelIdeal Cert.KernelIdeal.Gen

variable (V : (c : Dev nD) → (b : Ref sig .tc) → Buf (Elt Ideal) ((c : Thread nD τ).loc b))

/-! ## The matrix product's index maps: one contracted axis, rows from the left factor, columns from the right -/

theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_contr (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the block the body stores: row p of the feature block scaled by the node's factor, times
    column q of the weights. Both format changes are the identity on extended reals and the accumulator is zero. -/
theorem pay_apply (x0 : Vec Ideal S5000x128 .f32) (x1 : Vec Ideal S5000x1 .f32) (x2 : Vec Ideal S128x128 .f32)
    (p : Fin 5000) (q : Fin 128) :
    k0_pay1 (F := Ideal) x0 x1 x2 (ix2 p q)
      = ∑ k : Fin 128, (x0 (ix2 p k) * x1 (ix2 p (0 : Fin 1))) * x2 (ix2 k q) := by
  unfold k0_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]
  rw [truncf_apply, truncf_apply, mulf_apply, shapeCast_self]
  rw [broadcastTo_apply x1 broadcasts_S5000x1_S5000x128 (ix2 p k) (ix2 p (0 : Fin 1)) (fun a => by
    match a with
    | ⟨0, _⟩ => rfl
    | ⟨1, _⟩ => rfl)]

/-! ## Where the blocks sit, and one point's block of the result -/

theorem hz : (![0, 0] : Fin 2 → Nat) = fun _ => 0 := funext fun a => by fin_cases a <;> rfl

/-- At grid point t every window cut into blocks of 5000 rows sits at block (t, 0) and every whole-array window at
    block (0, 0): decided over the 20 points. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- If the loaded blocks are rows 5000 n .. 5000 n + 4999 of the features and of the scale column, and the whole
    weight matrix, then the stored block is those rows of (h · s) W. -/
theorem point_eq (A0 : Spec.Arr 100000 128) (A1 : Spec.Arr 100000 1) (A2 : Spec.Arr 128 128)
    (x0 : Vec Ideal S5000x128 .f32) (x1 : Vec Ideal S5000x1 .f32) (x2 : Vec Ideal S128x128 .f32)
    (n : Nat) (hn : n < 20)
    (h0 : ∀ (p : Fin 5000) (k : Fin 128), x0 (ix2 p k) = A0 (ix2 (⟨5000 * n + p.val, by have := p.isLt; omega⟩ : Fin 100000) k))
    (h1 : ∀ (p : Fin 5000), x1 (ix2 p (0 : Fin 1)) = A1 (ix2 (⟨5000 * n + p.val, by have := p.isLt; omega⟩ : Fin 100000) (0 : Fin 1)))
    (h2 : ∀ (k : Fin 128) (q : Fin 128), x2 (ix2 k q) = A2 (ix2 k q))
    (y : S5000x128.Idx) (i : S100000x128.Idx) (hi0 : (i 0).val = 5000 * n + (y 0).val) (hi1 : (i 1).val = (y 1).val) :
    k0_pay1 (F := Ideal) x0 x1 x2 y = Spec.scaleMatmul A0 A1 A2 i := by
  obtain ⟨p, q, rfl⟩ : ∃ (p : Fin 5000) (q : Fin 128), y = ix2 p q := ⟨y 0, y 1, eq_ix2 y⟩
  have hlt : 5000 * n + p.val < 100000 := by have := p.isLt; omega
  obtain ⟨r, j, rfl⟩ : ∃ (r : Fin 100000) (j : Fin 128), i = ix2 r j := ⟨i 0, i 1, eq_ix2 i⟩
  have hr : r = ⟨5000 * n + p.val, hlt⟩ := Fin.ext hi0
  have hj : j = q := Fin.ext hi1
  subst hr hj
  rw [pay_apply, Spec.scaleMatmul_ix2]
  unfold Spec.scaleMatmulAt
  refine Finset.sum_congr rfl fun k _ => ?_
  rw [h0, h1, h2]

/-! ## From blocks to the array -/

/-- What point t writes back is block t of (h · s) W of the arrays the region finds. -/
theorem flushed_eq (c : Dev nD) (t : Fin cfg0.N) :
    (dat0 (F := Ideal) V c).flushed 3 t
      = ((cfg0.win 3).blk t).view.read (Elt Ideal) (Spec.scaleMatmul (V c main_arg0) (V c main_v13) (V c main_arg3)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S128x128) hz]
  obtain ⟨e00, e01, e10, e11, e20, e21, e30, e31⟩ := idx_facts t
  have ht : t.val < 20 := lt_of_lt_of_eq t.isLt N_0
  funext y
  show k0_pay1 (F := Ideal) (iblk0 V c 0 t) (iblk0 V c 1 t) (iblk0 V c 2 t) y
    = Spec.scaleMatmul (V c main_arg0) (V c main_v13) (V c main_arg3) (((cfg0.win 3).blk t).view.emb y)
  refine point_eq (V c main_arg0) (V c main_v13) (V c main_arg3)
    (iblk0 V c 0 t) (iblk0 V c 1 t) (iblk0 V c 2 t)
    t.val ht ?_ ?_ ?_ y (((cfg0.win 3).blk t).view.emb y) ?_ ?_
  · intro p k
    show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = 5000 * t.val + p.val; omega
    | ⟨1, _⟩ => show win0_0.index t (1 : Fin 2) * 128 + 1 * k.val = k.val; omega
  · intro p
    show V c main_v13 (((cfg0.win 1).blk t).view.emb (ix2 p (0 : Fin 1))) = V c main_v13 _
    refine congrArg _ (funext fun a => Fin.ext ?_)
    match a with
    | ⟨0, _⟩ => show win0_1.index t (0 : Fin 2) * 5000 + 1 * p.val = 5000 * t.val + p.val; omega
    | ⟨1, _⟩ => show win0_1.index t (1 : Fin 2) * 1 + 1 * 0 = 0; omega
  · intro k q
    show V c main_arg3 (((cfg0.win 2).blk t).view.emb (ix2 k q)) = V c main_arg3 _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  · show win0_3.index t (0 : Fin 2) * 5000 + 1 * (y 0).val = 5000 * t.val + (y 0).val; omega
  · show win0_3.index t (1 : Fin 2) * 128 + 1 * (y 1).val = (y 1).val; omega

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v14).slice (win0_3.rect t)).set ↔ _
  rw [View.set_slice_whole, Rect.mem_set_unit]
  exact Iff.rfl

/-- Row r lies in the block of point r / 5000, so the 20 blocks cover the array. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  have e := idx_facts t
  have eo0 : win0_3.index t (0 : Fin 2) = t.val := by tauto
  have eo1 : win0_3.index t (1 : Fin 2) = 0 := by tauto
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The array the region leaves in its output window is (h · s) W of the arrays it found. -/
theorem final3 (c : Dev nD) :
    (dat0 (F := Ideal) V c).arrAt 3 cfg0.N = Spec.scaleMatmul (V c main_arg0) (V c main_v13) (V c main_arg3) :=
  (dat0 V c).arrAt_eq_of_cover 3 (Spec.scaleMatmul (V c main_arg0) (V c main_v13) (V c main_arg3))
    (fun t _ => flushed_eq V c t) cover

end Cert.KernelIdeal.Region0

end
-- ==== Proof.KRegion1.lean ====
import proofs.«164148_j27101243638257_2_alg».proof.Proof.Gen.KernelIdeal.Frame
import proofs.«164148_j27101243638257_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region1
open Cert.KernelIdeal Cert.KernelIdeal.Gen

/-!
  Region 1: the bias-and-statistics pass. Grid point t writes the block x = a · s + b of rows 5000 t … 5000 t + 4999
  (every row of a scaled by its node's factor, the bias row added) and adds the block's column sums to a [1, 128]
  accumulator row; point 0 first resets that row to zero; the row is written back after point 19 only. So the first
  output array is a · s + b, and the second holds, at column j, the running sum ((0 + B₀) + B₁) + … + B₁₉ of the
  blocks' column sums, which over the extended reals is the column sum of a · s + b over all 100000 rows.
-/

variable (V : (c : Dev nD) → (b : Ref sig .tc) → Buf (Elt Ideal) ((c : Thread nD τ).loc b))

theorem hz : (![0, 0] : Fin 2 → Nat) = fun _ => 0 := funext fun a => by fin_cases a <;> rfl

/-! ## What the body leaves in its two outputs, case by case -/

section Pieces
variable {F : FTy → Type} [FloatOps F]

/-- The block output, at a point other than the first: the one store's payload of the three input blocks. -/
theorem out_B_3 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (hc : ¬cond1_0 i) (x0 : Vec F S5000x128 .f32) (x1 : Vec F S5000x1 .f32) (x2 xo : Vec F S1x128 .f32) :
    out1_B_3 c i a1 h1 a2 h2 a3 h3 a4 h4 a5 h5 hc x0 x1 x2 xo = k1_pay2 x0 x1 x2 := by
  unfold out1_B_3
  rw [View.read_writes_eq_canon _ _ _ (cover1_B_3 c i a1 h1 a2 h2 a3 h3 a4 h4 a5 h5 hc x0 x1 x2 xo)]
  unfold kernelRun1_B
  dsimp only
  rw [View.canon_unit_zero hz]
  simp only [View.readAt_eq_ld, h1.read_unread, h2.read_unread, h3.read_unread, View.ld_unit_zero (S := S5000x128) hz,
    View.ld_unit_zero (S := S5000x1) hz, View.ld_unit_zero (S := S1x128) hz]

/-- The accumulator row, at a point other than the first: the accumulated row over the row found there. -/
theorem out_B_4 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (hc : ¬cond1_0 i) (x0 : Vec F S5000x128 .f32) (x1 : Vec F S5000x1 .f32) (x2 xo : Vec F S1x128 .f32) :
    out1_B_4 c i a1 h1 a2 h2 a3 h3 a4 h4 a5 h5 hc x0 x1 x2 xo = k1_pay3 x0 x1 x2 xo := by
  unfold out1_B_4
  rw [View.read_writes_eq_canon _ _ _ (cover1_B_4 c i a1 h1 a2 h2 a3 h3 a4 h4 a5 h5 hc x0 x1 x2 xo)]
  unfold kernelRun1_B
  dsimp only
  rw [View.canon_unit_zero hz]
  simp only [View.readAt_eq_ld, h1.read_unread, h2.read_unread, h3.read_unread, h5.read_unread,
    View.ld_unit_zero (S := S5000x128) hz, View.ld_unit_zero (S := S5000x1) hz, View.ld_unit_zero (S := S1x128) hz]

/-- The block output at the first point: the same payload. -/
theorem out_A_3 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (hc : cond1_0 i) (x0 : Vec F S5000x128 .f32) (x1 : Vec F S5000x1 .f32) (x2 : Vec F S1x128 .f32) :
    out1_A_3 c i a1 h1 a2 h2 a3 h3 a4 h4 a5 h5 hc x0 x1 x2 = k1_pay2 x0 x1 x2 := by
  unfold out1_A_3
  rw [View.read_writes_eq_canon _ _ _ (cover1_A_3 c i a1 h1 a2 h2 a3 h3 a4 h4 a5 h5 hc x0 x1 x2)]
  unfold kernelRun1_A
  dsimp only
  rw [View.canon_unit_zero hz]
  simp only [View.readAt_eq_ld, h1.read_unread, h2.read_unread, h3.read_unread, View.ld_unit_zero (S := S5000x128) hz,
    View.ld_unit_zero (S := S5000x1) hz, View.ld_unit_zero (S := S1x128) hz]

/-- The accumulator row at the first point: the zero row is stored, read back, and the accumulated row stored over it. -/
theorem out_A_4 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (hc : cond1_0 i) (x0 : Vec F S5000x128 .f32) (x1 : Vec F S5000x1 .f32) (x2 : Vec F S1x128 .f32) :
    out1_A_4 c i a1 h1 a2 h2 a3 h3 a4 h4 a5 h5 hc x0 x1 x2 = k1_pay3 x0 x1 x2 k1_pay1 := by
  unfold out1_A_4
  rw [View.read_writes_eq_canon _ _ _ (cover1_A_4 c i a1 h1 a2 h2 a3 h3 a4 h4 a5 h5 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz,
    View.ld_unit_zero (S := S5000x1) hz, View.ld_unit_zero (S := S1x128) hz]

end Pieces

/-! ## The stored values at an index -/

/-- Inserting row q above column j of the reduced shape gives the index (q, j). -/
theorem lift_eq (j : Fin 128) (q : Fin 5000) :
    reduces_S5000x128_S128.lift (ix1 j) q = ix2 q j := by
  funext a; apply Fin.ext; match a with | ⟨0, _⟩ => rfl | ⟨1, _⟩ => rfl

/-- A [5000, 1] column broadcast to [5000, 128] reads, at (p, k), the column at row p. -/
theorem broadcastTo_col_apply {α : Type} (v : S5000x1.Idx → α) (p : Fin 5000) (k : Fin 128) :
    broadcastTo S5000x128 v broadcasts_S5000x1_S5000x128 (ix2 p k) = v (ix2 p (0 : Fin 1)) := by
  refine broadcastTo_apply v broadcasts_S5000x1_S5000x128 (ix2 p k) (ix2 p (0 : Fin 1)) fun ax => ?_
  match ax with
  | ⟨0, _⟩ =>
    show p.val = if (5000 : ℕ) = 1 then 0 else p.val
    rw [if_neg (by decide)]
  | ⟨1, _⟩ =>
    show (0 : ℕ) = if (1 : ℕ) = 1 then 0 else k.val
    rw [if_pos rfl]

/-- Entry (q, j) of the scaled, biased block. -/
def blockBias (x0 : Vec Ideal S5000x128 .f32) (x1 : Vec Ideal S5000x1 .f32) (x2 : Vec Ideal S1x128 .f32)
    (q : Fin 5000) (j : Fin 128) : EReal :=
  x0 (ix2 q j) * x1 (ix2 q (0 : Fin 1)) + x2 (ix2 (0 : Fin 1) j)

/-- The stored block at (q, j): the row scaled by its node's factor, the bias row added. -/
theorem pay2_apply (x0 : Vec Ideal S5000x128 .f32) (x1 : Vec Ideal S5000x1 .f32) (x2 : Vec Ideal S1x128 .f32)
    (q : Fin 5000) (j : Fin 128) :
    k1_pay2 x0 x1 x2 (ix2 q j) = blockBias x0 x1 x2 q j := by
  unfold k1_pay2
  refine (addf_apply _ _ _).trans ?_
  refine congrArg₂ (· + ·) ?_ ?_
  · refine (mulf_apply _ _ _).trans ?_
    refine congrArg₂ (· * ·) (congrFun (shapeCast_self x0 _) _) ?_
    refine (broadcastTo_col_apply _ q j).trans ?_
    exact congrFun (shapeCast_self x1 _) _
  · refine (broadcastTo_1b_ab_apply _ broadcasts_S1x128_S5000x128 q j).trans ?_
    exact congrFun (shapeCast_self x2 _) _

/-- The stored row at column j: the accumulator's entry plus the column sum of the scaled, biased block (the lane sum over
    axis 0 is the sum over the block's rows). -/
theorem pay3_apply (x0 : Vec Ideal S5000x128 .f32) (x1 : Vec Ideal S5000x1 .f32) (x2 acc : Vec Ideal S1x128 .f32)
    (z : Fin 1) (j : Fin 128) :
    k1_pay3 x0 x1 x2 acc (ix2 z j) = acc (ix2 z j) + ∑ q : Fin 5000, blockBias x0 x1 x2 q j := by
  unfold k1_pay3
  dsimp only
  refine (addf_apply _ _ _).trans ?_
  refine congrArg₂ (· + ·) (congrFun (shapeCast_self acc _) _) ?_
  refine (shapeCast_a_1a_apply _ shapeCasts_S128_S1x128 z j).trans ?_
  refine (Ideal.multiReduction_add_single _ _ reduces_S5000x128_S128 _ _ (ix1 j)).trans ?_
  refine Finset.sum_congr rfl fun q _ => ?_
  refine (congrArg _ (lift_eq j q)).trans ?_
  exact pay2_apply x0 x1 x2 q j

/-- The reset row is the zero word everywhere. -/
theorem pay1_apply (i : S1x128.Idx) : k1_pay1 (F := Ideal) i = Spec.zero := rfl

/-! ## The blocks the windows hand the body -/

/-- The blocks of a, of s and of the first output at point t sit at block row t; the bias row's and the accumulator's one
    block at (0, 0): decided over the grid. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (q, j) of a's block at point t is a at row 5000 t + q. -/
theorem blk0_apply (c : Dev nD) (t : Fin cfg1.N) (ht : t.val < 20) (q : Fin 5000) (j : Fin 128) :
    (iblk1 V c 0 t : Vec Ideal S5000x128 .f32) (ix2 q j)
      = (V c main_v26 : Spec.Arr 100000 128) (ix2 (Spec.rowOf ⟨t.val, ht⟩ q) j) := by
  unfold iblk1
  rw [View.read_apply]
  show V c main_v26 _ = V c main_v26 _
  congr 1
  funext a
  apply Fin.ext
  match a with
  | ⟨0, _⟩ => show win1_0.index t 0 * 5000 + 1 * q.val = 5000 * t.val + q.val; rw [(idx_facts t).1]; omega
  | ⟨1, _⟩ => show win1_0.index t 1 * 128 + 1 * j.val = j.val; rw [(idx_facts t).2.1]; omega

/-- Entry (q, 0) of the node factors' block at point t is the factor of node 5000 t + q. -/
theorem blk1_apply (c : Dev nD) (t : Fin cfg1.N) (ht : t.val < 20) (q : Fin 5000) (z : Fin 1) :
    (iblk1 V c 1 t : Vec Ideal S5000x1 .f32) (ix2 q z)
      = (V c main_v27 : Spec.Arr 100000 1) (ix2 (Spec.rowOf ⟨t.val, ht⟩ q) (0 : Fin 1)) := by
  unfold iblk1
  rw [View.read_apply]
  show V c main_v27 _ = V c main_v27 _
  congr 1
  funext a
  apply Fin.ext
  match a with
  | ⟨0, _⟩ => show win1_1.index t 0 * 5000 + 1 * q.val = 5000 * t.val + q.val; rw [(idx_facts t).2.2.1]; omega
  | ⟨1, _⟩ => show win1_1.index t 1 * 1 + 1 * z.val = 0; rw [(idx_facts t).2.2.2.1]; have := z.isLt; omega

/-- Entry (z, j) of the bias row's block at any point is the bias row at j. -/
theorem blk2_apply (c : Dev nD) (t : Fin cfg1.N) (z : Fin 1) (j : Fin 128) :
    (iblk1 V c 2 t : Vec Ideal S1x128 .f32) (ix2 z j) = (V c main_v28 : Spec.Arr 1 128) (ix2 (0 : Fin 1) j) := by
  unfold iblk1
  rw [View.read_apply]
  show V c main_v28 _ = V c main_v28 _
  congr 1
  funext a
  apply Fin.ext
  match a with
  | ⟨0, _⟩ => show win1_2.index t 0 * 1 + 1 * z.val = 0; rw [(idx_facts t).2.2.2.2.1]; have := z.isLt; omega
  | ⟨1, _⟩ => show win1_2.index t 1 * 128 + 1 * j.val = j.val; rw [(idx_facts t).2.2.2.2.2.1]; omega

/-- Equal factors give equal scaled, biased entries. -/
theorem bias_congr {a s b a' s' b' : EReal} (h1 : a = a') (h2 : s = s') (h3 : b = b') : a * s + b = a' * s' + b' := by
  rw [h1, h2, h3]

/-- Entry (q, j) of the block the body forms at point t is a · s + b at row 5000 t + q. -/
theorem blockBias_eq (c : Dev nD) (t : Fin cfg1.N) (ht : t.val < 20) (q : Fin 5000) (j : Fin 128) :
    blockBias (iblk1 V c 0 t) (iblk1 V c 1 t) (iblk1 V c 2 t) q j = (Spec.biasScale (V c main_v26) (V c main_v27) (V c main_v28)) (ix2 (Spec.rowOf ⟨t.val, ht⟩ q) j) :=
  bias_congr (blk0_apply V c t ht q j) (blk1_apply V c t ht q 0) (blk2_apply V c t 0 j)

/-! ## The first output: every point writes its block of a · s + b -/

/-- A pair known by an equation has the first component's value … -/
theorem fst_of_eq {α β : Type} {p : α × β} {a a' : α} {b : β} (h : p = (a, b)) (ha : a = a') : p.1 = a' := by
  subst h; exact ha
/-- … and the second's. -/
theorem snd_of_eq {α β : Type} {p : α × β} {a : α} {b b' : β} (h : p = (a, b)) (hb : b = b') : p.2 = b' := by
  subst h; exact hb

/-- What the block output's staging buffer holds after point t: the payload of the point's input blocks, in either case. -/
theorem outs3_eq (c : Dev nD) (t : Fin cfg1.N) :
    (outsAt1 V c t.val t.isLt).1 = k1_pay2 (iblk1 V c 0 t) (iblk1 V c 1 t) (iblk1 V c 2 t) := by
  by_cases h0 : t.val % 20 = 0
  · exact fst_of_eq (outsAt1_A V c t h0)
      (out_A_3 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t))
  · exact fst_of_eq (outsAt1_B V c t h0)
      (out_B_3 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t)
        (outsAt1 V c (t.val - 1) (Nat.lt_of_le_of_lt (Nat.sub_le _ _) t.isLt)).2)

/-- What point t writes back to the first output is block t of a · s + b. -/
theorem flushed3_eq (c : Dev nD) (t : Fin cfg1.N) :
    (dat1 V c).flushed 3 t = ((cfg1.win 3).blk t).view.read (Elt Ideal) (Spec.biasScale (V c main_v26) (V c main_v27) (V c main_v28)) := by
  have ht : t.val < 20 := lt_of_lt_of_eq t.isLt (show cfg1.N = 20 from N_1)
  show (cfg1.win 3).cut (grid1.coords t) ((dat1 V c).after 3 t) = _
  rw [after1_3, outs3_eq]
  funext y
  obtain ⟨q, j, rfl⟩ : ∃ (q : Fin 5000) (j : Fin 128), y = ix2 q j := ⟨y 0, y 1, eq_ix2 y⟩
  have he : ((cfg1.win 3).blk t).view.emb (ix2 q j) = ix2 (Spec.rowOf ⟨t.val, ht⟩ q) j := by
    funext a
    apply Fin.ext
    match a with
    | ⟨0, _⟩ => show win1_3.index t 0 * 5000 + 1 * q.val = 5000 * t.val + q.val; rw [(idx_facts t).2.2.2.2.2.2.1]; omega
    | ⟨1, _⟩ => show win1_3.index t 1 * 128 + 1 * j.val = j.val; rw [(idx_facts t).2.2.2.2.2.2.2]; omega
  rw [View.read_apply, he]
  show k1_pay2 (iblk1 V c 0 t) (iblk1 V c 1 t) (iblk1 V c 2 t) (ix2 q j) = _
  refine (pay2_apply (iblk1 V c 0 t) (iblk1 V c 1 t) (iblk1 V c 2 t) q j).trans ?_
  exact blockBias_eq V c t ht q j

/-- An index of the first output's array is in point t's block iff each coordinate is in the block's range on its axis. -/
theorem mem_blk3 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v29_0).slice (win1_3.rect t)).set ↔ _
  rw [View.set_slice_whole, Rect.mem_set_unit]
  exact Iff.rfl

/-- The first output's array ends as a · s + b: row r lies in the block of point r / 5000. -/
theorem final3 (c : Dev nD) :
    (dat1 (F := Ideal) V c).arrAt 3 cfg1.N = Spec.biasScale (V c main_v26) (V c main_v27) (V c main_v28) :=
  (dat1 V c).arrAt_eq_of_cover 3 (Spec.biasScale (V c main_v26) (V c main_v27) (V c main_v28)) (fun t _ => flushed3_eq V c t) fun i => by
    have hN : cfg1.N = 20 := N_1
    have hi0 : (i 0 : Nat) < 100000 := (i 0).isLt
    have hi1 : (i 1 : Nat) < 128 := (i 1).isLt
    refine ⟨⟨(i 0 : Nat) / 5000, by rw [hN]; omega⟩, flush1_3 _, ?_⟩
    rw [mem_blk3]
    intro a
    match a with
    | ⟨0, _⟩ =>
      show win1_3.index ⟨(i 0 : Nat) / 5000, _⟩ 0 * 5000 ≤ (i 0 : Nat)
        ∧ (i 0 : Nat) < win1_3.index ⟨(i 0 : Nat) / 5000, _⟩ 0 * 5000 + 5000
      rw [(idx_facts _).2.2.2.2.2.2.1]
      show (i 0 : Nat) / 5000 * 5000 ≤ (i 0 : Nat) ∧ (i 0 : Nat) < (i 0 : Nat) / 5000 * 5000 + 5000
      omega
    | ⟨1, _⟩ =>
      show win1_3.index ⟨(i 0 : Nat) / 5000, _⟩ 1 * 128 ≤ (i 1 : Nat)
        ∧ (i 1 : Nat) < win1_3.index ⟨(i 0 : Nat) / 5000, _⟩ 1 * 128 + 128
      rw [(idx_facts _).2.2.2.2.2.2.2]
      omega

/-! ## The second output: the running column sum over the grid points -/

/-- Block t's column sum in column j of a whole array (zero past the grid). -/
def blockTerm (x : Spec.Arr 100000 128) (j : Fin 128) (t : ℕ) : EReal :=
  if ht : t < 20 then ∑ q : Fin 5000, x (ix2 (Spec.rowOf ⟨t, ht⟩ q) j) else 0

/-- After the last block the running sum of the blocks' column sums is the column sum over all 100000 rows. -/
theorem runSum_blockTerm (x : Spec.Arr 100000 128) (j : Fin 128) :
    Spec.runSum (blockTerm x j) 19 = Spec.colSumAt x j := by
  rw [Spec.runSum_last]
  unfold Spec.colSumAt
  rw [Spec.sum_blocks (fun r => x (ix2 r j))]
  refine Finset.sum_congr rfl fun t _ => ?_
  unfold blockTerm
  rw [dif_pos t.isLt]

/-- The column sum the body forms at point t is block t's term of a · s + b. -/
theorem block_eq (c : Dev nD) (t : Fin cfg1.N) (j : Fin 128) :
    ∑ q : Fin 5000, blockBias (iblk1 V c 0 t) (iblk1 V c 1 t) (iblk1 V c 2 t) q j = blockTerm (Spec.biasScale (V c main_v26) (V c main_v27) (V c main_v28)) j t.val := by
  have ht : t.val < 20 := lt_of_lt_of_eq t.isLt (show cfg1.N = 20 from N_1)
  unfold blockTerm
  rw [dif_pos ht]
  exact Finset.sum_congr rfl fun q _ => blockBias_eq V c t ht q j

/-- What the accumulator row holds after point n, at column j: the running sum of the block terms, by induction on
    the point. -/
theorem outsAt_eq (c : Dev nD) (z : Fin 1) (j : Fin 128) : ∀ (n : ℕ) (hn : n < cfg1.N),
    (outsAt1 V c n hn).2 (ix2 z j) = Spec.runSum (blockTerm (Spec.biasScale (V c main_v26) (V c main_v27) (V c main_v28)) j) n
  | 0, hn => by
    refine (congrFun (snd_of_eq (outsAt1_A V c ⟨0, hn⟩ rfl)
      (out_A_4 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩)
        ((hcond1_0 ⟨0, hn⟩).mpr rfl) (iblk1 V c 0 ⟨0, hn⟩) (iblk1 V c 1 ⟨0, hn⟩) (iblk1 V c 2 ⟨0, hn⟩))) (ix2 z j)).trans ?_
    refine (pay3_apply (iblk1 V c 0 ⟨0, hn⟩) (iblk1 V c 1 ⟨0, hn⟩) (iblk1 V c 2 ⟨0, hn⟩) (k1_pay1 (F := Ideal)) z j).trans ?_
    show _ + _ = Spec.zero + blockTerm (Spec.biasScale (V c main_v26) (V c main_v27) (V c main_v28)) j 0
    exact congrArg₂ (· + ·) (pay1_apply (ix2 z j)) (block_eq V c ⟨0, hn⟩ j)
  | n + 1, hn => by
    have hN : cfg1.N = 20 := N_1
    have hB : ¬(⟨n + 1, hn⟩ : Fin cfg1.N).val % 20 = 0 := by dsimp only; omega
    refine (congrFun (snd_of_eq (outsAt1_B V c ⟨n + 1, hn⟩ hB)
      (out_B_4 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩)
        (fun h => hB ((hcond1_0 ⟨n + 1, hn⟩).mp h)) (iblk1 V c 0 ⟨n + 1, hn⟩) (iblk1 V c 1 ⟨n + 1, hn⟩) (iblk1 V c 2 ⟨n + 1, hn⟩)
        (outsAt1 V c n (Nat.lt_of_succ_lt hn)).2)) (ix2 z j)).trans ?_
    refine (pay3_apply (iblk1 V c 0 ⟨n + 1, hn⟩) (iblk1 V c 1 ⟨n + 1, hn⟩) (iblk1 V c 2 ⟨n + 1, hn⟩) (outsAt1 V c n (Nat.lt_of_succ_lt hn)).2 z j).trans ?_
    show _ + _ = Spec.runSum (blockTerm (Spec.biasScale (V c main_v26) (V c main_v27) (V c main_v28)) j) n + blockTerm (Spec.biasScale (V c main_v26) (V c main_v27) (V c main_v28)) j (n + 1)
    exact congrArg₂ (· + ·) (outsAt_eq c z j n (Nat.lt_of_succ_lt hn)) (block_eq V c ⟨n + 1, hn⟩ j)

/-- The last grid point. -/
abbrev tLast : Fin cfg1.N := ⟨19, by rw [show cfg1.N = 20 from N_1]; decide⟩

/-- After the last point the accumulator row is the row of column sums of a · s + b. -/
theorem last_eq (c : Dev nD) :
    (outsAt1 V c tLast.val tLast.isLt).2 = Spec.colSum (Spec.biasScale (V c main_v26) (V c main_v27) (V c main_v28)) := by
  funext i
  obtain ⟨z, j, rfl⟩ : ∃ (z : Fin 1) (j : Fin 128), i = ix2 z j := ⟨i 0, i 1, eq_ix2 i⟩
  rw [outsAt_eq V c z j 19 tLast.isLt, runSum_blockTerm]
  rfl

/-- The one write-back of the accumulator, after point 19, writes that row: block (0, 0) of the [1, 128] array is the array. -/
theorem flushed4_eq (c : Dev nD) (t : Fin cfg1.N) (hf : (cfg1.win 4).flush t = true) :
    (dat1 V c).flushed 4 t = ((cfg1.win 4).blk t).view.read (Elt Ideal) (Spec.colSum (Spec.biasScale (V c main_v26) (V c main_v27) (V c main_v28))) := by
  have hN : cfg1.N = 20 := N_1
  have h19 : t.val = 19 := by have := (flush1_4 t).mp hf; have := t.isLt; omega
  obtain rfl : t = tLast := Fin.ext h19
  show (cfg1.win 4).cut (grid1.coords tLast) ((dat1 V c).after 4 tLast) = _
  rw [after1_4, last_eq]
  have hz' : (fun a => win1_4.index tLast a * main_v29_1.ty.shape.size a) = fun _ => 0 := funext fun a => by fin_cases a <;> decide
  exact (Memref.read_access_unit_zero (Elt Ideal) main_v29_1 hz' (fun a => by rw [congrFun hz' a]; simp)
    (Spec.colSum (Spec.biasScale (V c main_v26) (V c main_v27) (V c main_v28)))).symm

/-- The second output's array ends as the row of column sums of a · s + b. -/
theorem final4 (c : Dev nD) :
    (dat1 (F := Ideal) V c).arrAt 4 cfg1.N
      = Spec.colSum (Spec.biasScale (V c main_v26) (V c main_v27) (V c main_v28)) :=
  (dat1 V c).arrAt_eq_of_cover 4 (Spec.colSum (Spec.biasScale (V c main_v26) (V c main_v27) (V c main_v28))) (flushed4_eq V c) fun i =>
    ⟨tLast, (flush1_4 tLast).mpr rfl, by
      show i ∈ ((View.whole main_v29_1).slice (win1_4.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win1_4.index tLast 0 * win1_4.size 0 ≤ (i 0 : Nat)
          ∧ (i 0 : Nat) < win1_4.index tLast 0 * win1_4.size 0 + win1_4.xsize (grid1.coords tLast) 0
        rw [show win1_4.index tLast 0 * win1_4.size 0 = 0 from by decide +kernel,
          show win1_4.xsize (grid1.coords tLast) 0 = 1 from by decide +kernel]
        omega
      | ⟨1, _⟩ =>
        show win1_4.index tLast 1 * win1_4.size 1 ≤ (i 1 : Nat)
          ∧ (i 1 : Nat) < win1_4.index tLast 1 * win1_4.size 1 + win1_4.xsize (grid1.coords tLast) 1
        rw [show win1_4.index tLast 1 * win1_4.size 1 = 0 from by decide +kernel,
          show win1_4.xsize (grid1.coords tLast) 1 = 128 from by decide +kernel]
        omega⟩

end Cert.KernelIdeal.Region1

end
-- ==== Proof.KRegion2.lean ====
import proofs.«164148_j27101243638257_2_alg».proof.Proof.Gen.KernelIdeal.Frame
import proofs.«164148_j27101243638257_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region2
open Cert.KernelIdeal Cert.KernelIdeal.Gen

/-!
  Region 2: the accumulator row of the variance pass. Grid point t adds to a [1, 128] row, for every column j,
  the sum over the block's 5000 rows r of (h r j - μ j) · (h r j - μ j); point 0 first resets the row to zero; the row is
  written back after point 19 only. So the array it ends in holds, at column j, the running sum
  ((0 + B₀) + B₁) + … + B₁₉ of the block sums, which over the extended reals is the sum over all 100000 rows.
-/

variable (V : (c : Dev nD) → (b : Ref sig .tc) → Buf (Elt Ideal) ((c : Thread nD τ).loc b))

theorem hz : (![0, 0] : Fin 2 → Nat) = fun _ => 0 := funext fun a => by fin_cases a <;> rfl

/-! ## What the body leaves in the accumulator row, case by case -/

section Pieces
variable {F : FTy → Type} [FloatOps F]

/-- At a point other than the first the body's one store of the row writes the accumulated row: the payload of the block,
    the mean row and the row found there. -/
theorem out_B (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond2_0 i) (x0 : Vec F S5000x128 .f32) (x1 xo : Vec F S1x128 .f32) :
    out2_B_2 c i a1 h1 a2 h2 a3 h3 hc x0 x1 xo = k2_pay2 x0 x1 xo := by
  unfold out2_B_2
  rw [View.read_writes_eq_canon _ _ _ (cover2_B_2 c i a1 h1 a2 h2 a3 h3 hc x0 x1 xo)]
  unfold kernelRun2_B
  dsimp only
  rw [View.canon_unit_zero hz]
  simp only [View.readAt_eq_ld, h1.read_unread, h2.read_unread, h3.read_unread, View.ld_unit_zero (S := S5000x128) hz,
    View.ld_unit_zero (S := S1x128) hz]

/-- At the first point the body stores the zero row, reads it back, and stores the accumulated row over it. -/
theorem out_A (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond2_0 i) (x0 : Vec F S5000x128 .f32) (x1 : Vec F S1x128 .f32) :
    out2_A_2 c i a1 h1 a2 h2 a3 h3 hc x0 x1 = k2_pay2 x0 x1 k2_pay1 := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

end Pieces

/-! ## The stored row at a column -/

/-- Inserting row q above column j of the reduced shape gives the index (q, j). -/
theorem lift_eq (j : Fin 128) (q : Fin 5000) :
    reduces_S5000x128_S128.lift (ix1 j) q = ix2 q j := by
  funext a; apply Fin.ext; match a with | ⟨0, _⟩ => rfl | ⟨1, _⟩ => rfl

/-- Column j of a block: the sum over its 5000 rows of the squared deviations from the mean row. -/
def blockSqDev (x0 : Vec Ideal S5000x128 .f32) (x1 : Vec Ideal S1x128 .f32) (j : Fin 128) : EReal :=
  ∑ q : Fin 5000, (x0 (ix2 q j) - x1 (ix2 (0 : Fin 1) j)) * (x0 (ix2 q j) - x1 (ix2 (0 : Fin 1) j))

/-- The stored row at column j: the accumulator's entry plus the block's sum of squared deviations (the lane sum over
    axis 0 is the sum over the block's rows; the mean row is broadcast over the rows). -/
theorem pay2_apply (x0 : Vec Ideal S5000x128 .f32) (x1 acc : Vec Ideal S1x128 .f32) (z : Fin 1) (j : Fin 128) :
    k2_pay2 x0 x1 acc (ix2 z j) = acc (ix2 z j) + blockSqDev x0 x1 j := by
  unfold k2_pay2
  dsimp only
  refine (addf_apply _ _ _).trans ?_
  refine congrArg₂ (· + ·) (congrFun (shapeCast_self acc _) _) ?_
  refine (shapeCast_a_1a_apply _ shapeCasts_S128_S1x128 z j).trans ?_
  refine (Ideal.multiReduction_add_single _ _ reduces_S5000x128_S128 _ _ (ix1 j)).trans ?_
  refine Finset.sum_congr rfl fun q _ => ?_
  refine (congrArg _ (lift_eq j q)).trans ?_
  refine (mulf_apply _ _ _).trans ?_
  refine congrArg₂ (· * ·) ?_ ?_ <;>
  · refine (subf_apply _ _ _).trans ?_
    refine congrArg₂ (· - ·) (congrFun (shapeCast_self x0 _) _) ?_
    refine (broadcastTo_1b_ab_apply _ broadcasts_S1x128_S5000x128 q j).trans ?_
    exact congrFun (shapeCast_self x1 _) _

/-- The reset row is the zero word everywhere. -/
theorem pay1_apply (i : S1x128.Idx) : k2_pay1 (F := Ideal) i = Spec.zero := rfl

/-! ## The blocks the windows hand the body -/

/-- The block of h at point t sits at block row t; the mean row's and the accumulator's one block at (0, 0): decided over
    the grid. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- Entry (q, j) of h's block at point t is h at row 5000 t + q. -/
theorem blk0_apply (c : Dev nD) (t : Fin cfg2.N) (ht : t.val < 20) (q : Fin 5000) (j : Fin 128) :
    (iblk2 V c 0 t : Vec Ideal S5000x128 .f32) (ix2 q j)
      = (V c main_v29_0 : Spec.Arr 100000 128) (ix2 (Spec.rowOf ⟨t.val, ht⟩ q) j) := by
  unfold iblk2
  rw [View.read_apply]
  show V c main_v29_0 _ = V c main_v29_0 _
  congr 1
  funext a
  apply Fin.ext
  match a with
  | ⟨0, _⟩ => show win2_0.index t 0 * 5000 + 1 * q.val = 5000 * t.val + q.val; rw [(idx_facts t).1]; omega
  | ⟨1, _⟩ => show win2_0.index t 1 * 128 + 1 * j.val = j.val; rw [(idx_facts t).2.1]; omega

/-- Entry (z, j) of the mean row's block at any point is the mean row at j. -/
theorem blk1_apply (c : Dev nD) (t : Fin cfg2.N) (z : Fin 1) (j : Fin 128) :
    (iblk2 V c 1 t : Vec Ideal S1x128 .f32) (ix2 z j) = (V c main_v31 : Spec.Arr 1 128) (ix2 (0 : Fin 1) j) := by
  unfold iblk2
  rw [View.read_apply]
  show V c main_v31 _ = V c main_v31 _
  congr 1
  funext a
  apply Fin.ext
  match a with
  | ⟨0, _⟩ => show win2_1.index t 0 * 1 + 1 * z.val = 0; rw [(idx_facts t).2.2.1]; have := z.isLt; omega
  | ⟨1, _⟩ => show win2_1.index t 1 * 128 + 1 * j.val = j.val; rw [(idx_facts t).2.2.2]; omega

/-! ## The running sum over the grid points -/

/-- Block t's sum of squared deviations in column j, as a function of the whole arrays (zero past the grid). -/
def blockTerm (h : Spec.Arr 100000 128) (μ : Spec.Arr 1 128) (j : Fin 128) (t : ℕ) : EReal :=
  if ht : t < 20 then
    ∑ q : Fin 5000, (h (ix2 (Spec.rowOf ⟨t, ht⟩ q) j) - μ (ix2 (0 : Fin 1) j)) * (h (ix2 (Spec.rowOf ⟨t, ht⟩ q) j) - μ (ix2 (0 : Fin 1) j))
  else 0

/-- After the last block the running sum of the block sums is the sum over all 100000 rows. -/
theorem runSum_blockTerm (h : Spec.Arr 100000 128) (μ : Spec.Arr 1 128) (j : Fin 128) :
    Spec.runSum (blockTerm h μ j) 19 = Spec.colSqDevAt h μ j := by
  rw [Spec.runSum_last]
  unfold Spec.colSqDevAt
  rw [Spec.sum_blocks (fun r => (h (ix2 r j) - μ (ix2 (0 : Fin 1) j)) * (h (ix2 r j) - μ (ix2 (0 : Fin 1) j)))]
  refine Finset.sum_congr rfl fun t _ => ?_
  unfold blockTerm
  rw [dif_pos t.isLt]

/-- Equal entries and equal means give equal squared deviations. -/
theorem sq_congr {a b a' b' : EReal} (h1 : a = a') (h2 : b = b') : (a - b) * (a - b) = (a' - b') * (a' - b') := by
  rw [h1, h2]

/-- The block sum the body forms at point t is block t's term. -/
theorem block_eq (c : Dev nD) (t : Fin cfg2.N) (j : Fin 128) :
    blockSqDev (iblk2 V c 0 t) (iblk2 V c 1 t) j = blockTerm (V c main_v29_0) (V c main_v31) j t.val := by
  have ht : t.val < 20 := lt_of_lt_of_eq t.isLt (show cfg2.N = 20 from N_2)
  unfold blockSqDev blockTerm
  rw [dif_pos ht]
  refine Finset.sum_congr rfl fun q _ => ?_
  exact sq_congr (blk0_apply V c t ht q j) (blk1_apply V c t 0 j)

/-- What the accumulator row holds after point n, at column j: the running sum of the block terms, by induction on
    the point. -/
theorem outsAt_eq (c : Dev nD) (z : Fin 1) (j : Fin 128) : ∀ (n : ℕ) (hn : n < cfg2.N),
    outsAt2 V c n hn (ix2 z j) = Spec.runSum (blockTerm (V c main_v29_0) (V c main_v31) j) n
  | 0, hn => by
    refine (congrFun (outsAt2_A V c ⟨0, hn⟩ rfl) (ix2 z j)).trans ?_
    refine (congrFun (out_A (F := Ideal) c (grid2.coords ⟨0, hn⟩) (ms2_0 ⟨0, hn⟩) (hs2_0 ⟨0, hn⟩) (ms2_1 ⟨0, hn⟩)
      (hs2_1 ⟨0, hn⟩) (ms2_2 ⟨0, hn⟩) (hs2_2 ⟨0, hn⟩) ((hcond2_0 ⟨0, hn⟩).mpr rfl) (iblk2 V c 0 ⟨0, hn⟩)
      (iblk2 V c 1 ⟨0, hn⟩)) (ix2 z j)).trans ?_
    refine (pay2_apply (iblk2 V c 0 ⟨0, hn⟩) (iblk2 V c 1 ⟨0, hn⟩) (k2_pay1 (F := Ideal)) z j).trans ?_
    show _ + _ = Spec.zero + blockTerm (V c main_v29_0) (V c main_v31) j 0
    exact congrArg₂ (· + ·) (pay1_apply (ix2 z j)) (block_eq V c ⟨0, hn⟩ j)
  | n + 1, hn => by
    have hN : cfg2.N = 20 := N_2
    have hB : ¬(⟨n + 1, hn⟩ : Fin cfg2.N).val % 20 = 0 := by dsimp only; omega
    refine (congrFun (outsAt2_B V c ⟨n + 1, hn⟩ hB) (ix2 z j)).trans ?_
    refine (congrFun (out_B (F := Ideal) c (grid2.coords ⟨n + 1, hn⟩) (ms2_0 ⟨n + 1, hn⟩) (hs2_0 ⟨n + 1, hn⟩)
      (ms2_1 ⟨n + 1, hn⟩) (hs2_1 ⟨n + 1, hn⟩) (ms2_2 ⟨n + 1, hn⟩) (hs2_2 ⟨n + 1, hn⟩)
      (fun h => hB ((hcond2_0 ⟨n + 1, hn⟩).mp h)) (iblk2 V c 0 ⟨n + 1, hn⟩) (iblk2 V c 1 ⟨n + 1, hn⟩)
      (outsAt2 V c n (Nat.lt_of_succ_lt hn))) (ix2 z j)).trans ?_
    refine (pay2_apply (iblk2 V c 0 ⟨n + 1, hn⟩) (iblk2 V c 1 ⟨n + 1, hn⟩) (outsAt2 V c n (Nat.lt_of_succ_lt hn)) z j).trans ?_
    show _ + _ = Spec.runSum (blockTerm (V c main_v29_0) (V c main_v31) j) n + blockTerm (V c main_v29_0) (V c main_v31) j (n + 1)
    exact congrArg₂ (· + ·) (outsAt_eq c z j n (Nat.lt_of_succ_lt hn)) (block_eq V c ⟨n + 1, hn⟩ j)

/-- The last grid point. -/
abbrev tLast : Fin cfg2.N := ⟨19, by rw [show cfg2.N = 20 from N_2]; decide⟩

/-- After the last point the accumulator row is the row of column sums of squared deviations. -/
theorem last_eq (c : Dev nD) :
    outsAt2 V c tLast.val tLast.isLt = Spec.colSqDev (V c main_v29_0) (V c main_v31) := by
  funext i
  obtain ⟨z, j, rfl⟩ : ∃ (z : Fin 1) (j : Fin 128), i = ix2 z j := ⟨i 0, i 1, eq_ix2 i⟩
  rw [outsAt_eq V c z j 19 tLast.isLt, runSum_blockTerm]
  rfl

/-! ## From the one write-back to the array -/

/-- The one write-back, after point 19, writes that row: block (0, 0) of the [1, 128] array is the array. -/
theorem flushed_eq (c : Dev nD) (t : Fin cfg2.N) (hf : (cfg2.win 2).flush t = true) :
    (dat2 V c).flushed 2 t
      = ((cfg2.win 2).blk t).view.read (Elt Ideal) (Spec.colSqDev (V c main_v29_0) (V c main_v31)) := by
  have hN : cfg2.N = 20 := N_2
  have h19 : t.val = 19 := by have := (flush2_2 t).mp hf; have := t.isLt; omega
  obtain rfl : t = tLast := Fin.ext h19
  show (cfg2.win 2).cut (grid2.coords tLast) ((dat2 V c).after 2 tLast) = _
  rw [after2_2, last_eq]
  have hz' : (fun a => win2_2.index tLast a * main_v32.ty.shape.size a) = fun _ => 0 := funext fun a => by fin_cases a <;> decide
  exact (Memref.read_access_unit_zero (Elt Ideal) main_v32 hz' (fun a => by rw [congrFun hz' a]; simp)
    (Spec.colSqDev (V c main_v29_0) (V c main_v31))).symm

/-- The array the region's output window ends in is the row of column sums of squared deviations of the input arrays. -/
theorem final2 (c : Dev nD) :
    (dat2 (F := Ideal) V c).arrAt 2 cfg2.N = Spec.colSqDev (V c main_v29_0) (V c main_v31) :=
  (dat2 V c).arrAt_eq_of_cover 2 (Spec.colSqDev (V c main_v29_0) (V c main_v31)) (flushed_eq V c) fun i =>
    ⟨tLast, (flush2_2 tLast).mpr rfl, by
      show i ∈ ((View.whole main_v32).slice (win2_2.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win2_2.index tLast 0 * win2_2.size 0 ≤ (i 0 : Nat)
          ∧ (i 0 : Nat) < win2_2.index tLast 0 * win2_2.size 0 + win2_2.xsize (grid2.coords tLast) 0
        rw [show win2_2.index tLast 0 * win2_2.size 0 = 0 from by decide +kernel,
          show win2_2.xsize (grid2.coords tLast) 0 = 1 from by decide +kernel]
        omega
      | ⟨1, _⟩ =>
        show win2_2.index tLast 1 * win2_2.size 1 ≤ (i 1 : Nat)
          ∧ (i 1 : Nat) < win2_2.index tLast 1 * win2_2.size 1 + win2_2.xsize (grid2.coords tLast) 1
        rw [show win2_2.index tLast 1 * win2_2.size 1 = 0 from by decide +kernel,
          show win2_2.xsize (grid2.coords tLast) 1 = 128 from by decide +kernel]
        omega⟩

end Cert.KernelIdeal.Region2

end
-- ==== Proof.KRegion3.lean ====
/-
  The second layer's dense half: every block of 5000 rows of the features is normalized with the mean, variance,
  gain and offset rows, rectified, scaled row by row by the nodes' factors and multiplied by the weight matrix, into
  a zero accumulator. Read over the extended reals, where the two changes of format are the identity, the array the
  region leaves is (bnRelu(h) · s) W.
-/
import proofs.«164148_j27101243638257_2_alg».proof.Proof.Gen.KernelIdeal.Frame
import proofs.«164148_j27101243638257_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region3
open Cert.KernelIdeal Cert.KernelIdeal.Gen

variable (V : (c : Dev nD) → (b : Ref sig .tc) → Buf (Elt Ideal) ((c : Thread nD τ).loc b))

/-! ## The matrix product's index maps: one contracted axis, rows from the left factor, columns from the right -/

theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_contr (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The broadcasts at an index -/

/-- A column of per-row factors broadcast along the rows' entries reads the row's factor. -/
theorem bcast_col {α : Type} (x : S5000x1.Idx → α) (p : Fin 5000) (k : Fin 128) :
    broadcastTo S5000x128 x broadcasts_S5000x1_S5000x128 (ix2 p k) = x (ix2 p (0 : Fin 1)) :=
  broadcastTo_apply x broadcasts_S5000x1_S5000x128 (ix2 p k) (ix2 p (0 : Fin 1)) (fun a => by
    match a with
    | ⟨0, _⟩ => rfl
    | ⟨1, _⟩ => rfl)
/-- A row broadcast down the block reads the row's entry in that column. -/
theorem bcast_row {α : Type} (x : S1x128.Idx → α) (p : Fin 5000) (k : Fin 128) :
    broadcastTo S5000x128 x broadcasts_S1x128_S5000x128 (ix2 p k) = x (ix2 (0 : Fin 1) k) :=
  broadcastTo_apply x broadcasts_S1x128_S5000x128 (ix2 p k) (ix2 (0 : Fin 1) k) (fun a => by
    match a with
    | ⟨0, _⟩ => rfl
    | ⟨1, _⟩ => rfl)

/-- Entry (p, q) of the block the body stores: row p of the features, normalized with the mean, variance, gain
    and offset rows and rectified, scaled by the node's factor, times column q of the weights. Both format changes
    are the identity on extended reals and the accumulator is zero. -/
theorem pay_apply (x0 : Vec Ideal S5000x128 .f32) (xm xv xg xb : Vec Ideal S1x128 .f32) (xs : Vec Ideal S5000x1 .f32)
    (xw : Vec Ideal S128x128 .f32) (p : Fin 5000) (q : Fin 128) :
    k3_pay1 (F := Ideal) x0 xm xv xg xb xs xw (ix2 p q)
      = ∑ k : Fin 128,
          (max ((x0 (ix2 p k) - xm (ix2 (0 : Fin 1) k)) * Ideal.rsqrt (xv (ix2 (0 : Fin 1) k) + Ideal.ofBits .f32 0x3727C5AC#32)
              * xg (ix2 (0 : Fin 1) k) + xb (ix2 (0 : Fin 1) k)) (Ideal.ofBits .f32 0x00000000#32)
            * xs (ix2 p (0 : Fin 1))) * xw (ix2 k q) := by
  unfold k3_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]
  simp only [shapeCast_self]
  rw [truncf_apply, truncf_apply, mulf_apply, maximumf_apply, addf_apply, mulf_apply, mulf_apply, subf_apply,
    broadcast_apply, bcast_col]
  simp only [bcast_row]
  rfl

/-! ## Where the blocks sit, and one point's block of the result -/

theorem hz : (![0, 0] : Fin 2 → Nat) = fun _ => 0 := funext fun a => by fin_cases a <;> rfl

/-- At grid point t every window cut into blocks of 5000 rows sits at block (t, 0) and every whole-array window at
    block (0, 0): decided over the 20 points. -/
theorem idx_facts : ∀ t : Fin cfg3.N,
    win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0
    ∧ win3_6.index t (0 : Fin 2) = 0
    ∧ win3_6.index t (1 : Fin 2) = 0
    ∧ win3_7.index t (0 : Fin 2) = t.val
    ∧ win3_7.index t (1 : Fin 2) = 0 :=
  (by decide +kernel : ∀ t : Fin grid3.N, _)

/-- If the loaded blocks are rows 5000 n .. 5000 n + 4999 of the features and of the scale column, the four
    normalization rows and the whole weight matrix, then the stored block is those rows of (bnRelu(h) · s) W. -/
theorem point_eq (A0 : Spec.Arr 100000 128) (A1 : Spec.Arr 1 128) (A2 : Spec.Arr 1 128) (A3 : Spec.Arr 1 128) (A4 : Spec.Arr 1 128) (A5 : Spec.Arr 100000 1) (A6 : Spec.Arr 128 128)
    (x0 : Vec Ideal S5000x128 .f32) (x1 : Vec Ideal S1x128 .f32) (x2 : Vec Ideal S1x128 .f32) (x3 : Vec Ideal S1x128 .f32) (x4 : Vec Ideal S1x128 .f32) (x5 : Vec Ideal S5000x1 .f32) (x6 : Vec Ideal S128x128 .f32)
    (n : Nat) (hn : n < 20)
    (h0 : ∀ (p : Fin 5000) (k : Fin 128), x0 (ix2 p k) = A0 (ix2 (⟨5000 * n + p.val, by have := p.isLt; omega⟩ : Fin 100000) k))
    (h1 : ∀ (k : Fin 128), x1 (ix2 (0 : Fin 1) k) = A1 (ix2 (0 : Fin 1) k))
    (h2 : ∀ (k : Fin 128), x2 (ix2 (0 : Fin 1) k) = A2 (ix2 (0 : Fin 1) k))
    (h3 : ∀ (k : Fin 128), x3 (ix2 (0 : Fin 1) k) = A3 (ix2 (0 : Fin 1) k))
    (h4 : ∀ (k : Fin 128), x4 (ix2 (0 : Fin 1) k) = A4 (ix2 (0 : Fin 1) k))
    (h5 : ∀ (p : Fin 5000), x5 (ix2 p (0 : Fin 1)) = A5 (ix2 (⟨5000 * n + p.val, by have := p.isLt; omega⟩ : Fin 100000) (0 : Fin 1)))
    (h6 : ∀ (k : Fin 128) (q : Fin 128), x6 (ix2 k q) = A6 (ix2 k q))
    (y : S5000x128.Idx) (i : S100000x128.Idx) (hi0 : (i 0).val = 5000 * n + (y 0).val) (hi1 : (i 1).val = (y 1).val) :
    k3_pay1 (F := Ideal) x0 x1 x2 x3 x4 x5 x6 y = Spec.scaleMatmul (Spec.bnRelu A0 A1 A2 A3 A4) A5 A6 i := by
  obtain ⟨p, q, rfl⟩ : ∃ (p : Fin 5000) (q : Fin 128), y = ix2 p q := ⟨y 0, y 1, eq_ix2 y⟩
  have hlt : 5000 * n + p.val < 100000 := by have := p.isLt; omega
  obtain ⟨r, j, rfl⟩ : ∃ (r : Fin 100000) (j : Fin 128), i = ix2 r j := ⟨i 0, i 1, eq_ix2 i⟩
  have hr : r = ⟨5000 * n + p.val, hlt⟩ := Fin.ext hi0
  have hj : j = q := Fin.ext hi1
  subst hr hj
  rw [pay_apply, Spec.scaleMatmul_ix2]
  unfold Spec.scaleMatmulAt
  refine Finset.sum_congr rfl fun k _ => ?_
  rw [Spec.bnRelu_ix2]
  unfold Spec.bnReluAt
  rw [h0, h1, h2, h3, h4, h5, h6]

/-! ## From blocks to the array -/

/-- What point t writes back is block t of (bnRelu(h) · s) W of the arrays the region finds. -/
theorem flushed_eq (c : Dev nD) (t : Fin cfg3.N) :
    (dat3 (F := Ideal) V c).flushed 7 t
      = ((cfg3.win 7).blk t).view.read (Elt Ideal) (Spec.scaleMatmul (Spec.bnRelu (V c main_v29_0) (V c main_v31) (V c main_v34) (V c main_v35) (V c main_v36)) (V c main_v37) (V c main_arg5)) := by
  show (cfg3.win 7).cut (grid3.coords t) ((dat3 V c).after 7 t) = _
  rw [after3_7]
  unfold out3_7
  rw [View.canon_unit_zero hz]
  simp only [View.ld_unit_zero (S := S5000x128) hz, View.ld_unit_zero (S := S1x128) hz, View.ld_unit_zero (S := S5000x1) hz, View.ld_unit_zero (S := S128x128) hz]
  have ht : t.val < 20 := lt_of_lt_of_eq t.isLt N_3
  refine funext fun (y : S5000x128.Idx) => ?_
  show k3_pay1 (F := Ideal) (iblk3 V c 0 t) (iblk3 V c 1 t) (iblk3 V c 2 t) (iblk3 V c 3 t) (iblk3 V c 4 t) (iblk3 V c 5 t) (iblk3 V c 6 t) y
    = Spec.scaleMatmul (Spec.bnRelu (V c main_v29_0) (V c main_v31) (V c main_v34) (V c main_v35) (V c main_v36)) (V c main_v37) (V c main_arg5) (((cfg3.win 7).blk t).view.emb y)
  refine point_eq (V c main_v29_0) (V c main_v31) (V c main_v34) (V c main_v35) (V c main_v36) (V c main_v37) (V c main_arg5)
    (iblk3 V c 0 t) (iblk3 V c 1 t) (iblk3 V c 2 t) (iblk3 V c 3 t) (iblk3 V c 4 t) (iblk3 V c 5 t) (iblk3 V c 6 t)
    t.val ht ?_ ?_ ?_ ?_ ?_ ?_ ?_ y (((cfg3.win 7).blk t).view.emb y) ?_ ?_
  · intro p k
    show V c main_v29_0 (((cfg3.win 0).blk t).view.emb (ix2 p k)) = V c main_v29_0 _
    have ea := (idx_facts t).1
    have eb := (idx_facts t).2.1
    refine congrArg _ (funext fun a => Fin.ext ?_)
    match a with
    | ⟨0, _⟩ => show win3_0.index t (0 : Fin 2) * 5000 + 1 * p.val = 5000 * t.val + p.val; omega
    | ⟨1, _⟩ => show win3_0.index t (1 : Fin 2) * 128 + 1 * k.val = k.val; omega
  · intro k
    show V c main_v31 (((cfg3.win 1).blk t).view.emb (ix2 (0 : Fin 1) k)) = V c main_v31 _
    have ea := (idx_facts t).2.2.1
    have eb := (idx_facts t).2.2.2.1
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * k.val = k.val; omega
  · intro k
    show V c main_v34 (((cfg3.win 2).blk t).view.emb (ix2 (0 : Fin 1) k)) = V c main_v34 _
    have ea := (idx_facts t).2.2.2.2.1
    have eb := (idx_facts t).2.2.2.2.2.1
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * k.val = k.val; omega
  · intro k
    show V c main_v35 (((cfg3.win 3).blk t).view.emb (ix2 (0 : Fin 1) k)) = V c main_v35 _
    have ea := (idx_facts t).2.2.2.2.2.2.1
    have eb := (idx_facts t).2.2.2.2.2.2.2.1
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * k.val = k.val; omega
  · intro k
    show V c main_v36 (((cfg3.win 4).blk t).view.emb (ix2 (0 : Fin 1) k)) = V c main_v36 _
    have ea := (idx_facts t).2.2.2.2.2.2.2.2.1
    have eb := (idx_facts t).2.2.2.2.2.2.2.2.2.1
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * k.val = k.val; omega
  · intro p
    show V c main_v37 (((cfg3.win 5).blk t).view.emb (ix2 p (0 : Fin 1))) = V c main_v37 _
    have ea := (idx_facts t).2.2.2.2.2.2.2.2.2.2.1
    have eb := (idx_facts t).2.2.2.2.2.2.2.2.2.2.2.1
    refine congrArg _ (funext fun a => Fin.ext ?_)
    match a with
    | ⟨0, _⟩ => show win3_5.index t (0 : Fin 2) * 5000 + 1 * p.val = 5000 * t.val + p.val; omega
    | ⟨1, _⟩ => show win3_5.index t (1 : Fin 2) * 1 + 1 * 0 = 0; omega
  · intro k q
    show V c main_arg5 (((cfg3.win 6).blk t).view.emb (ix2 k q)) = V c main_arg5 _
    have ea := (idx_facts t).2.2.2.2.2.2.2.2.2.2.2.2.1
    have eb := (idx_facts t).2.2.2.2.2.2.2.2.2.2.2.2.2.1
    refine congrArg _ (funext fun a => Fin.ext ?_)
    match a with
    | ⟨0, _⟩ => show win3_6.index t (0 : Fin 2) * 128 + 1 * k.val = k.val; omega
    | ⟨1, _⟩ => show win3_6.index t (1 : Fin 2) * 128 + 1 * q.val = q.val; omega
  · have ea := (idx_facts t).2.2.2.2.2.2.2.2.2.2.2.2.2.2.1
    show win3_7.index t (0 : Fin 2) * 5000 + 1 * (y 0).val = 5000 * t.val + (y 0).val
    omega
  · have eb := (idx_facts t).2.2.2.2.2.2.2.2.2.2.2.2.2.2.2
    show win3_7.index t (1 : Fin 2) * 128 + 1 * (y 1).val = (y 1).val
    omega

/-- An index of the array is in point t's block iff each coordinate is in the block's range on its axis. -/
theorem mem_blk (t : Fin cfg3.N) (i : S100000x128.Idx) :
    i ∈ ((cfg3.win 7).blk t).view.set ↔ ∀ a : Fin 2, win3_7.index t a * S5000x128.size a ≤ (i a).val
      ∧ (i a).val < win3_7.index t a * S5000x128.size a + S5000x128.size a := by
  show i ∈ ((View.whole main_v38).slice (win3_7.rect t)).set ↔ _
  rw [View.set_slice_whole, Rect.mem_set_unit]
  exact Iff.rfl

/-- Row r lies in the block of point r / 5000, so the 20 blocks cover the array. -/
theorem cover (i : S100000x128.Idx) :
    ∃ t : Fin cfg3.N, (cfg3.win 7).flush t = true ∧ i ∈ ((cfg3.win 7).blk t).view.set := by
  have hi0 : (i 0).val < 100000 := (i 0).isLt
  have hi1 : (i 1).val < 128 := (i 1).isLt
  obtain ⟨t, ht⟩ : ∃ t : Fin cfg3.N, t.val = (i 0).val / 5000 :=
    ⟨⟨(i 0).val / 5000, lt_of_lt_of_eq (by omega : (i 0).val / 5000 < 20) N_3.symm⟩, rfl⟩
  have eo0 : win3_7.index t (0 : Fin 2) = t.val := (idx_facts t).2.2.2.2.2.2.2.2.2.2.2.2.2.2.1
  have eo1 : win3_7.index t (1 : Fin 2) = 0 := (idx_facts t).2.2.2.2.2.2.2.2.2.2.2.2.2.2.2
  refine ⟨t, flush3_7 t, ?_⟩
  rw [mem_blk]
  intro a
  match a with
  | ⟨0, _⟩ =>
    show win3_7.index t (0 : Fin 2) * 5000 ≤ (i 0).val ∧ (i 0).val < win3_7.index t (0 : Fin 2) * 5000 + 5000
    omega
  | ⟨1, _⟩ =>
    show win3_7.index t (1 : Fin 2) * 128 ≤ (i 1).val ∧ (i 1).val < win3_7.index t (1 : Fin 2) * 128 + 128
    omega

/-- The array the region leaves in its output window is (bnRelu(h) · s) W of the arrays it found. -/
theorem final7 (c : Dev nD) :
    (dat3 (F := Ideal) V c).arrAt 7 cfg3.N = Spec.scaleMatmul (Spec.bnRelu (V c main_v29_0) (V c main_v31) (V c main_v34) (V c main_v35) (V c main_v36)) (V c main_v37) (V c main_arg5) :=
  (dat3 V c).arrAt_eq_of_cover 7 (Spec.scaleMatmul (Spec.bnRelu (V c main_v29_0) (V c main_v31) (V c main_v34) (V c main_v35) (V c main_v36)) (V c main_v37) (V c main_arg5))
    (fun t _ => flushed_eq V c t) cover

end Cert.KernelIdeal.Region3

end
-- ==== Proof.KRegion4.lean ====
import proofs.«164148_j27101243638257_2_alg».proof.Proof.Gen.KernelIdeal.Frame
import proofs.«164148_j27101243638257_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region4
open Cert.KernelIdeal Cert.KernelIdeal.Gen

/-!
  Region 4: the bias-and-statistics pass. Grid point t writes the block x = a · s + b of rows 5000 t … 5000 t + 4999
  (every row of a scaled by its node's factor, the bias row added) and adds the block's column sums to a [1, 128]
  accumulator row; point 0 first resets that row to zero; the row is written back after point 19 only. So the first
  output array is a · s + b, and the second holds, at column j, the running sum ((0 + B₀) + B₁) + … + B₁₉ of the
  blocks' column sums, which over the extended reals is the column sum of a · s + b over all 100000 rows.
-/

variable (V : (c : Dev nD) → (b : Ref sig .tc) → Buf (Elt Ideal) ((c : Thread nD τ).loc b))

theorem hz : (![0, 0] : Fin 2 → Nat) = fun _ => 0 := funext fun a => by fin_cases a <;> rfl

/-! ## What the body leaves in its two outputs, case by case -/

section Pieces
variable {F : FTy → Type} [FloatOps F]

/-- The block output, at a point other than the first: the one store's payload of the three input blocks. -/
theorem out_B_3 (c : Dev nD) (i : grid4.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (hc : ¬cond4_0 i) (x0 : Vec F S5000x128 .f32) (x1 : Vec F S5000x1 .f32) (x2 xo : Vec F S1x128 .f32) :
    out4_B_3 c i a1 h1 a2 h2 a3 h3 a4 h4 a5 h5 hc x0 x1 x2 xo = k4_pay2 x0 x1 x2 := by
  unfold out4_B_3
  rw [View.read_writes_eq_canon _ _ _ (cover4_B_3 c i a1 h1 a2 h2 a3 h3 a4 h4 a5 h5 hc x0 x1 x2 xo)]
  unfold kernelRun4_B
  dsimp only
  rw [View.canon_unit_zero hz]
  simp only [View.readAt_eq_ld, h1.read_unread, h2.read_unread, h3.read_unread, View.ld_unit_zero (S := S5000x128) hz,
    View.ld_unit_zero (S := S5000x1) hz, View.ld_unit_zero (S := S1x128) hz]

/-- The accumulator row, at a point other than the first: the accumulated row over the row found there. -/
theorem out_B_4 (c : Dev nD) (i : grid4.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (hc : ¬cond4_0 i) (x0 : Vec F S5000x128 .f32) (x1 : Vec F S5000x1 .f32) (x2 xo : Vec F S1x128 .f32) :
    out4_B_4 c i a1 h1 a2 h2 a3 h3 a4 h4 a5 h5 hc x0 x1 x2 xo = k4_pay3 x0 x1 x2 xo := by
  unfold out4_B_4
  rw [View.read_writes_eq_canon _ _ _ (cover4_B_4 c i a1 h1 a2 h2 a3 h3 a4 h4 a5 h5 hc x0 x1 x2 xo)]
  unfold kernelRun4_B
  dsimp only
  rw [View.canon_unit_zero hz]
  simp only [View.readAt_eq_ld, h1.read_unread, h2.read_unread, h3.read_unread, h5.read_unread,
    View.ld_unit_zero (S := S5000x128) hz, View.ld_unit_zero (S := S5000x1) hz, View.ld_unit_zero (S := S1x128) hz]

/-- The block output at the first point: the same payload. -/
theorem out_A_3 (c : Dev nD) (i : grid4.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (hc : cond4_0 i) (x0 : Vec F S5000x128 .f32) (x1 : Vec F S5000x1 .f32) (x2 : Vec F S1x128 .f32) :
    out4_A_3 c i a1 h1 a2 h2 a3 h3 a4 h4 a5 h5 hc x0 x1 x2 = k4_pay2 x0 x1 x2 := by
  unfold out4_A_3
  rw [View.read_writes_eq_canon _ _ _ (cover4_A_3 c i a1 h1 a2 h2 a3 h3 a4 h4 a5 h5 hc x0 x1 x2)]
  unfold kernelRun4_A
  dsimp only
  rw [View.canon_unit_zero hz]
  simp only [View.readAt_eq_ld, h1.read_unread, h2.read_unread, h3.read_unread, View.ld_unit_zero (S := S5000x128) hz,
    View.ld_unit_zero (S := S5000x1) hz, View.ld_unit_zero (S := S1x128) hz]

/-- The accumulator row at the first point: the zero row is stored, read back, and the accumulated row stored over it. -/
theorem out_A_4 (c : Dev nD) (i : grid4.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (hc : cond4_0 i) (x0 : Vec F S5000x128 .f32) (x1 : Vec F S5000x1 .f32) (x2 : Vec F S1x128 .f32) :
    out4_A_4 c i a1 h1 a2 h2 a3 h3 a4 h4 a5 h5 hc x0 x1 x2 = k4_pay3 x0 x1 x2 k4_pay1 := by
  unfold out4_A_4
  rw [View.read_writes_eq_canon _ _ _ (cover4_A_4 c i a1 h1 a2 h2 a3 h3 a4 h4 a5 h5 hc x0 x1 x2)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz,
    View.ld_unit_zero (S := S5000x1) hz, View.ld_unit_zero (S := S1x128) hz]

end Pieces

/-! ## The stored values at an index -/

/-- Inserting row q above column j of the reduced shape gives the index (q, j). -/
theorem lift_eq (j : Fin 128) (q : Fin 5000) :
    reduces_S5000x128_S128.lift (ix1 j) q = ix2 q j := by
  funext a; apply Fin.ext; match a with | ⟨0, _⟩ => rfl | ⟨1, _⟩ => rfl

/-- A [5000, 1] column broadcast to [5000, 128] reads, at (p, k), the column at row p. -/
theorem broadcastTo_col_apply {α : Type} (v : S5000x1.Idx → α) (p : Fin 5000) (k : Fin 128) :
    broadcastTo S5000x128 v broadcasts_S5000x1_S5000x128 (ix2 p k) = v (ix2 p (0 : Fin 1)) := by
  refine broadcastTo_apply v broadcasts_S5000x1_S5000x128 (ix2 p k) (ix2 p (0 : Fin 1)) fun ax => ?_
  match ax with
  | ⟨0, _⟩ =>
    show p.val = if (5000 : ℕ) = 1 then 0 else p.val
    rw [if_neg (by decide)]
  | ⟨1, _⟩ =>
    show (0 : ℕ) = if (1 : ℕ) = 1 then 0 else k.val
    rw [if_pos rfl]

/-- Entry (q, j) of the scaled, biased block. -/
def blockBias (x0 : Vec Ideal S5000x128 .f32) (x1 : Vec Ideal S5000x1 .f32) (x2 : Vec Ideal S1x128 .f32)
    (q : Fin 5000) (j : Fin 128) : EReal :=
  x0 (ix2 q j) * x1 (ix2 q (0 : Fin 1)) + x2 (ix2 (0 : Fin 1) j)

/-- The stored block at (q, j): the row scaled by its node's factor, the bias row added. -/
theorem pay2_apply (x0 : Vec Ideal S5000x128 .f32) (x1 : Vec Ideal S5000x1 .f32) (x2 : Vec Ideal S1x128 .f32)
    (q : Fin 5000) (j : Fin 128) :
    k4_pay2 x0 x1 x2 (ix2 q j) = blockBias x0 x1 x2 q j := by
  unfold k4_pay2
  refine (addf_apply _ _ _).trans ?_
  refine congrArg₂ (· + ·) ?_ ?_
  · refine (mulf_apply _ _ _).trans ?_
    refine congrArg₂ (· * ·) (congrFun (shapeCast_self x0 _) _) ?_
    refine (broadcastTo_col_apply _ q j).trans ?_
    exact congrFun (shapeCast_self x1 _) _
  · refine (broadcastTo_1b_ab_apply _ broadcasts_S1x128_S5000x128 q j).trans ?_
    exact congrFun (shapeCast_self x2 _) _

/-- The stored row at column j: the accumulator's entry plus the column sum of the scaled, biased block (the lane sum over
    axis 0 is the sum over the block's rows). -/
theorem pay3_apply (x0 : Vec Ideal S5000x128 .f32) (x1 : Vec Ideal S5000x1 .f32) (x2 acc : Vec Ideal S1x128 .f32)
    (z : Fin 1) (j : Fin 128) :
    k4_pay3 x0 x1 x2 acc (ix2 z j) = acc (ix2 z j) + ∑ q : Fin 5000, blockBias x0 x1 x2 q j := by
  unfold k4_pay3
  dsimp only
  refine (addf_apply _ _ _).trans ?_
  refine congrArg₂ (· + ·) (congrFun (shapeCast_self acc _) _) ?_
  refine (shapeCast_a_1a_apply _ shapeCasts_S128_S1x128 z j).trans ?_
  refine (Ideal.multiReduction_add_single _ _ reduces_S5000x128_S128 _ _ (ix1 j)).trans ?_
  refine Finset.sum_congr rfl fun q _ => ?_
  refine (congrArg _ (lift_eq j q)).trans ?_
  exact pay2_apply x0 x1 x2 q j

/-- The reset row is the zero word everywhere. -/
theorem pay1_apply (i : S1x128.Idx) : k4_pay1 (F := Ideal) i = Spec.zero := rfl

/-! ## The blocks the windows hand the body -/

/-- The blocks of a, of s and of the first output at point t sit at block row t; the bias row's and the accumulator's one
    block at (0, 0): decided over the grid. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Entry (q, j) of a's block at point t is a at row 5000 t + q. -/
theorem blk0_apply (c : Dev nD) (t : Fin cfg4.N) (ht : t.val < 20) (q : Fin 5000) (j : Fin 128) :
    (iblk4 V c 0 t : Vec Ideal S5000x128 .f32) (ix2 q j)
      = (V c main_v50 : Spec.Arr 100000 128) (ix2 (Spec.rowOf ⟨t.val, ht⟩ q) j) := by
  unfold iblk4
  rw [View.read_apply]
  show V c main_v50 _ = V c main_v50 _
  congr 1
  funext a
  apply Fin.ext
  match a with
  | ⟨0, _⟩ => show win4_0.index t 0 * 5000 + 1 * q.val = 5000 * t.val + q.val; rw [(idx_facts t).1]; omega
  | ⟨1, _⟩ => show win4_0.index t 1 * 128 + 1 * j.val = j.val; rw [(idx_facts t).2.1]; omega

/-- Entry (q, 0) of the node factors' block at point t is the factor of node 5000 t + q. -/
theorem blk1_apply (c : Dev nD) (t : Fin cfg4.N) (ht : t.val < 20) (q : Fin 5000) (z : Fin 1) :
    (iblk4 V c 1 t : Vec Ideal S5000x1 .f32) (ix2 q z)
      = (V c main_v51 : Spec.Arr 100000 1) (ix2 (Spec.rowOf ⟨t.val, ht⟩ q) (0 : Fin 1)) := by
  unfold iblk4
  rw [View.read_apply]
  show V c main_v51 _ = V c main_v51 _
  congr 1
  funext a
  apply Fin.ext
  match a with
  | ⟨0, _⟩ => show win4_1.index t 0 * 5000 + 1 * q.val = 5000 * t.val + q.val; rw [(idx_facts t).2.2.1]; omega
  | ⟨1, _⟩ => show win4_1.index t 1 * 1 + 1 * z.val = 0; rw [(idx_facts t).2.2.2.1]; have := z.isLt; omega

/-- Entry (z, j) of the bias row's block at any point is the bias row at j. -/
theorem blk2_apply (c : Dev nD) (t : Fin cfg4.N) (z : Fin 1) (j : Fin 128) :
    (iblk4 V c 2 t : Vec Ideal S1x128 .f32) (ix2 z j) = (V c main_v52 : Spec.Arr 1 128) (ix2 (0 : Fin 1) j) := by
  unfold iblk4
  rw [View.read_apply]
  show V c main_v52 _ = V c main_v52 _
  congr 1
  funext a
  apply Fin.ext
  match a with
  | ⟨0, _⟩ => show win4_2.index t 0 * 1 + 1 * z.val = 0; rw [(idx_facts t).2.2.2.2.1]; have := z.isLt; omega
  | ⟨1, _⟩ => show win4_2.index t 1 * 128 + 1 * j.val = j.val; rw [(idx_facts t).2.2.2.2.2.1]; omega

/-- Equal factors give equal scaled, biased entries. -/
theorem bias_congr {a s b a' s' b' : EReal} (h1 : a = a') (h2 : s = s') (h3 : b = b') : a * s + b = a' * s' + b' := by
  rw [h1, h2, h3]

/-- Entry (q, j) of the block the body forms at point t is a · s + b at row 5000 t + q. -/
theorem blockBias_eq (c : Dev nD) (t : Fin cfg4.N) (ht : t.val < 20) (q : Fin 5000) (j : Fin 128) :
    blockBias (iblk4 V c 0 t) (iblk4 V c 1 t) (iblk4 V c 2 t) q j = (Spec.biasScale (V c main_v50) (V c main_v51) (V c main_v52)) (ix2 (Spec.rowOf ⟨t.val, ht⟩ q) j) :=
  bias_congr (blk0_apply V c t ht q j) (blk1_apply V c t ht q 0) (blk2_apply V c t 0 j)

/-! ## The first output: every point writes its block of a · s + b -/

/-- A pair known by an equation has the first component's value … -/
theorem fst_of_eq {α β : Type} {p : α × β} {a a' : α} {b : β} (h : p = (a, b)) (ha : a = a') : p.1 = a' := by
  subst h; exact ha
/-- … and the second's. -/
theorem snd_of_eq {α β : Type} {p : α × β} {a : α} {b b' : β} (h : p = (a, b)) (hb : b = b') : p.2 = b' := by
  subst h; exact hb

/-- What the block output's staging buffer holds after point t: the payload of the point's input blocks, in either case. -/
theorem outs3_eq (c : Dev nD) (t : Fin cfg4.N) :
    (outsAt4 V c t.val t.isLt).1 = k4_pay2 (iblk4 V c 0 t) (iblk4 V c 1 t) (iblk4 V c 2 t) := by
  by_cases h0 : t.val % 20 = 0
  · exact fst_of_eq (outsAt4_A V c t h0)
      (out_A_3 (F := Ideal) c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t) (iblk4 V c 2 t))
  · exact fst_of_eq (outsAt4_B V c t h0)
      (out_B_3 (F := Ideal) c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (iblk4 V c 2 t)
        (outsAt4 V c (t.val - 1) (Nat.lt_of_le_of_lt (Nat.sub_le _ _) t.isLt)).2)

/-- What point t writes back to the first output is block t of a · s + b. -/
theorem flushed3_eq (c : Dev nD) (t : Fin cfg4.N) :
    (dat4 V c).flushed 3 t = ((cfg4.win 3).blk t).view.read (Elt Ideal) (Spec.biasScale (V c main_v50) (V c main_v51) (V c main_v52)) := by
  have ht : t.val < 20 := lt_of_lt_of_eq t.isLt (show cfg4.N = 20 from N_4)
  show (cfg4.win 3).cut (grid4.coords t) ((dat4 V c).after 3 t) = _
  rw [after4_3, outs3_eq]
  funext y
  obtain ⟨q, j, rfl⟩ : ∃ (q : Fin 5000) (j : Fin 128), y = ix2 q j := ⟨y 0, y 1, eq_ix2 y⟩
  have he : ((cfg4.win 3).blk t).view.emb (ix2 q j) = ix2 (Spec.rowOf ⟨t.val, ht⟩ q) j := by
    funext a
    apply Fin.ext
    match a with
    | ⟨0, _⟩ => show win4_3.index t 0 * 5000 + 1 * q.val = 5000 * t.val + q.val; rw [(idx_facts t).2.2.2.2.2.2.1]; omega
    | ⟨1, _⟩ => show win4_3.index t 1 * 128 + 1 * j.val = j.val; rw [(idx_facts t).2.2.2.2.2.2.2]; omega
  rw [View.read_apply, he]
  show k4_pay2 (iblk4 V c 0 t) (iblk4 V c 1 t) (iblk4 V c 2 t) (ix2 q j) = _
  refine (pay2_apply (iblk4 V c 0 t) (iblk4 V c 1 t) (iblk4 V c 2 t) q j).trans ?_
  exact blockBias_eq V c t ht q j

/-- An index of the first output's array is in point t's block iff each coordinate is in the block's range on its axis. -/
theorem mem_blk3 (t : Fin cfg4.N) (i : S100000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v53_0).slice (win4_3.rect t)).set ↔ _
  rw [View.set_slice_whole, Rect.mem_set_unit]
  exact Iff.rfl

/-- The first output's array ends as a · s + b: row r lies in the block of point r / 5000. -/
theorem final3 (c : Dev nD) :
    (dat4 (F := Ideal) V c).arrAt 3 cfg4.N = Spec.biasScale (V c main_v50) (V c main_v51) (V c main_v52) :=
  (dat4 V c).arrAt_eq_of_cover 3 (Spec.biasScale (V c main_v50) (V c main_v51) (V c main_v52)) (fun t _ => flushed3_eq V c t) fun i => by
    have hN : cfg4.N = 20 := N_4
    have hi0 : (i 0 : Nat) < 100000 := (i 0).isLt
    have hi1 : (i 1 : Nat) < 128 := (i 1).isLt
    refine ⟨⟨(i 0 : Nat) / 5000, by rw [hN]; omega⟩, flush4_3 _, ?_⟩
    rw [mem_blk3]
    intro a
    match a with
    | ⟨0, _⟩ =>
      show win4_3.index ⟨(i 0 : Nat) / 5000, _⟩ 0 * 5000 ≤ (i 0 : Nat)
        ∧ (i 0 : Nat) < win4_3.index ⟨(i 0 : Nat) / 5000, _⟩ 0 * 5000 + 5000
      rw [(idx_facts _).2.2.2.2.2.2.1]
      show (i 0 : Nat) / 5000 * 5000 ≤ (i 0 : Nat) ∧ (i 0 : Nat) < (i 0 : Nat) / 5000 * 5000 + 5000
      omega
    | ⟨1, _⟩ =>
      show win4_3.index ⟨(i 0 : Nat) / 5000, _⟩ 1 * 128 ≤ (i 1 : Nat)
        ∧ (i 1 : Nat) < win4_3.index ⟨(i 0 : Nat) / 5000, _⟩ 1 * 128 + 128
      rw [(idx_facts _).2.2.2.2.2.2.2]
      omega

/-! ## The second output: the running column sum over the grid points -/

/-- Block t's column sum in column j of a whole array (zero past the grid). -/
def blockTerm (x : Spec.Arr 100000 128) (j : Fin 128) (t : ℕ) : EReal :=
  if ht : t < 20 then ∑ q : Fin 5000, x (ix2 (Spec.rowOf ⟨t, ht⟩ q) j) else 0

/-- After the last block the running sum of the blocks' column sums is the column sum over all 100000 rows. -/
theorem runSum_blockTerm (x : Spec.Arr 100000 128) (j : Fin 128) :
    Spec.runSum (blockTerm x j) 19 = Spec.colSumAt x j := by
  rw [Spec.runSum_last]
  unfold Spec.colSumAt
  rw [Spec.sum_blocks (fun r => x (ix2 r j))]
  refine Finset.sum_congr rfl fun t _ => ?_
  unfold blockTerm
  rw [dif_pos t.isLt]

/-- The column sum the body forms at point t is block t's term of a · s + b. -/
theorem block_eq (c : Dev nD) (t : Fin cfg4.N) (j : Fin 128) :
    ∑ q : Fin 5000, blockBias (iblk4 V c 0 t) (iblk4 V c 1 t) (iblk4 V c 2 t) q j = blockTerm (Spec.biasScale (V c main_v50) (V c main_v51) (V c main_v52)) j t.val := by
  have ht : t.val < 20 := lt_of_lt_of_eq t.isLt (show cfg4.N = 20 from N_4)
  unfold blockTerm
  rw [dif_pos ht]
  exact Finset.sum_congr rfl fun q _ => blockBias_eq V c t ht q j

/-- What the accumulator row holds after point n, at column j: the running sum of the block terms, by induction on
    the point. -/
theorem outsAt_eq (c : Dev nD) (z : Fin 1) (j : Fin 128) : ∀ (n : ℕ) (hn : n < cfg4.N),
    (outsAt4 V c n hn).2 (ix2 z j) = Spec.runSum (blockTerm (Spec.biasScale (V c main_v50) (V c main_v51) (V c main_v52)) j) n
  | 0, hn => by
    refine (congrFun (snd_of_eq (outsAt4_A V c ⟨0, hn⟩ rfl)
      (out_A_4 (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩)
        ((hcond4_0 ⟨0, hn⟩).mpr rfl) (iblk4 V c 0 ⟨0, hn⟩) (iblk4 V c 1 ⟨0, hn⟩) (iblk4 V c 2 ⟨0, hn⟩))) (ix2 z j)).trans ?_
    refine (pay3_apply (iblk4 V c 0 ⟨0, hn⟩) (iblk4 V c 1 ⟨0, hn⟩) (iblk4 V c 2 ⟨0, hn⟩) (k4_pay1 (F := Ideal)) z j).trans ?_
    show _ + _ = Spec.zero + blockTerm (Spec.biasScale (V c main_v50) (V c main_v51) (V c main_v52)) j 0
    exact congrArg₂ (· + ·) (pay1_apply (ix2 z j)) (block_eq V c ⟨0, hn⟩ j)
  | n + 1, hn => by
    have hN : cfg4.N = 20 := N_4
    have hB : ¬(⟨n + 1, hn⟩ : Fin cfg4.N).val % 20 = 0 := by dsimp only; omega
    refine (congrFun (snd_of_eq (outsAt4_B V c ⟨n + 1, hn⟩ hB)
      (out_B_4 (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩)
        (fun h => hB ((hcond4_0 ⟨n + 1, hn⟩).mp h)) (iblk4 V c 0 ⟨n + 1, hn⟩) (iblk4 V c 1 ⟨n + 1, hn⟩) (iblk4 V c 2 ⟨n + 1, hn⟩)
        (outsAt4 V c n (Nat.lt_of_succ_lt hn)).2)) (ix2 z j)).trans ?_
    refine (pay3_apply (iblk4 V c 0 ⟨n + 1, hn⟩) (iblk4 V c 1 ⟨n + 1, hn⟩) (iblk4 V c 2 ⟨n + 1, hn⟩) (outsAt4 V c n (Nat.lt_of_succ_lt hn)).2 z j).trans ?_
    show _ + _ = Spec.runSum (blockTerm (Spec.biasScale (V c main_v50) (V c main_v51) (V c main_v52)) j) n + blockTerm (Spec.biasScale (V c main_v50) (V c main_v51) (V c main_v52)) j (n + 1)
    exact congrArg₂ (· + ·) (outsAt_eq c z j n (Nat.lt_of_succ_lt hn)) (block_eq V c ⟨n + 1, hn⟩ j)

/-- The last grid point. -/
abbrev tLast : Fin cfg4.N := ⟨19, by rw [show cfg4.N = 20 from N_4]; decide⟩

/-- After the last point the accumulator row is the row of column sums of a · s + b. -/
theorem last_eq (c : Dev nD) :
    (outsAt4 V c tLast.val tLast.isLt).2 = Spec.colSum (Spec.biasScale (V c main_v50) (V c main_v51) (V c main_v52)) := by
  funext i
  obtain ⟨z, j, rfl⟩ : ∃ (z : Fin 1) (j : Fin 128), i = ix2 z j := ⟨i 0, i 1, eq_ix2 i⟩
  rw [outsAt_eq V c z j 19 tLast.isLt, runSum_blockTerm]
  rfl

/-- The one write-back of the accumulator, after point 19, writes that row: block (0, 0) of the [1, 128] array is the array. -/
theorem flushed4_eq (c : Dev nD) (t : Fin cfg4.N) (hf : (cfg4.win 4).flush t = true) :
    (dat4 V c).flushed 4 t = ((cfg4.win 4).blk t).view.read (Elt Ideal) (Spec.colSum (Spec.biasScale (V c main_v50) (V c main_v51) (V c main_v52))) := by
  have hN : cfg4.N = 20 := N_4
  have h19 : t.val = 19 := by have := (flush4_4 t).mp hf; have := t.isLt; omega
  obtain rfl : t = tLast := Fin.ext h19
  show (cfg4.win 4).cut (grid4.coords tLast) ((dat4 V c).after 4 tLast) = _
  rw [after4_4, last_eq]
  have hz' : (fun a => win4_4.index tLast a * main_v53_1.ty.shape.size a) = fun _ => 0 := funext fun a => by fin_cases a <;> decide
  exact (Memref.read_access_unit_zero (Elt Ideal) main_v53_1 hz' (fun a => by rw [congrFun hz' a]; simp)
    (Spec.colSum (Spec.biasScale (V c main_v50) (V c main_v51) (V c main_v52)))).symm

/-- The second output's array ends as the row of column sums of a · s + b. -/
theorem final4 (c : Dev nD) :
    (dat4 (F := Ideal) V c).arrAt 4 cfg4.N
      = Spec.colSum (Spec.biasScale (V c main_v50) (V c main_v51) (V c main_v52)) :=
  (dat4 V c).arrAt_eq_of_cover 4 (Spec.colSum (Spec.biasScale (V c main_v50) (V c main_v51) (V c main_v52))) (flushed4_eq V c) fun i =>
    ⟨tLast, (flush4_4 tLast).mpr rfl, by
      show i ∈ ((View.whole main_v53_1).slice (win4_4.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win4_4.index tLast 0 * win4_4.size 0 ≤ (i 0 : Nat)
          ∧ (i 0 : Nat) < win4_4.index tLast 0 * win4_4.size 0 + win4_4.xsize (grid4.coords tLast) 0
        rw [show win4_4.index tLast 0 * win4_4.size 0 = 0 from by decide +kernel,
          show win4_4.xsize (grid4.coords tLast) 0 = 1 from by decide +kernel]
        omega
      | ⟨1, _⟩ =>
        show win4_4.index tLast 1 * win4_4.size 1 ≤ (i 1 : Nat)
          ∧ (i 1 : Nat) < win4_4.index tLast 1 * win4_4.size 1 + win4_4.xsize (grid4.coords tLast) 1
        rw [show win4_4.index tLast 1 * win4_4.size 1 = 0 from by decide +kernel,
          show win4_4.xsize (grid4.coords tLast) 1 = 128 from by decide +kernel]
        omega⟩

end Cert.KernelIdeal.Region4

end
-- ==== Proof.KRegion5.lean ====
import proofs.«164148_j27101243638257_2_alg».proof.Proof.Gen.KernelIdeal.Frame
import proofs.«164148_j27101243638257_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region5
open Cert.KernelIdeal Cert.KernelIdeal.Gen

/-!
  Region 5: the accumulator row of the variance pass. Grid point t adds to a [1, 128] row, for every column j,
  the sum over the block's 5000 rows r of (h r j - μ j) · (h r j - μ j); point 0 first resets the row to zero; the row is
  written back after point 19 only. So the array it ends in holds, at column j, the running sum
  ((0 + B₀) + B₁) + … + B₁₉ of the block sums, which over the extended reals is the sum over all 100000 rows.
-/

variable (V : (c : Dev nD) → (b : Ref sig .tc) → Buf (Elt Ideal) ((c : Thread nD τ).loc b))

theorem hz : (![0, 0] : Fin 2 → Nat) = fun _ => 0 := funext fun a => by fin_cases a <;> rfl

/-! ## What the body leaves in the accumulator row, case by case -/

section Pieces
variable {F : FTy → Type} [FloatOps F]

/-- At a point other than the first the body's one store of the row writes the accumulated row: the payload of the block,
    the mean row and the row found there. -/
theorem out_B (c : Dev nD) (i : grid5.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond5_0 i) (x0 : Vec F S5000x128 .f32) (x1 xo : Vec F S1x128 .f32) :
    out5_B_2 c i a1 h1 a2 h2 a3 h3 hc x0 x1 xo = k5_pay2 x0 x1 xo := by
  unfold out5_B_2
  rw [View.read_writes_eq_canon _ _ _ (cover5_B_2 c i a1 h1 a2 h2 a3 h3 hc x0 x1 xo)]
  unfold kernelRun5_B
  dsimp only
  rw [View.canon_unit_zero hz]
  simp only [View.readAt_eq_ld, h1.read_unread, h2.read_unread, h3.read_unread, View.ld_unit_zero (S := S5000x128) hz,
    View.ld_unit_zero (S := S1x128) hz]

/-- At the first point the body stores the zero row, reads it back, and stores the accumulated row over it. -/
theorem out_A (c : Dev nD) (i : grid5.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond5_0 i) (x0 : Vec F S5000x128 .f32) (x1 : Vec F S1x128 .f32) :
    out5_A_2 c i a1 h1 a2 h2 a3 h3 hc x0 x1 = k5_pay2 x0 x1 k5_pay1 := by
  unfold out5_A_2
  rw [View.read_writes_eq_canon _ _ _ (cover5_A_2 c i a1 h1 a2 h2 a3 h3 hc x0 x1)]
  unfold kernelRun5_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

end Pieces

/-! ## The stored row at a column -/

/-- Inserting row q above column j of the reduced shape gives the index (q, j). -/
theorem lift_eq (j : Fin 128) (q : Fin 5000) :
    reduces_S5000x128_S128.lift (ix1 j) q = ix2 q j := by
  funext a; apply Fin.ext; match a with | ⟨0, _⟩ => rfl | ⟨1, _⟩ => rfl

/-- Column j of a block: the sum over its 5000 rows of the squared deviations from the mean row. -/
def blockSqDev (x0 : Vec Ideal S5000x128 .f32) (x1 : Vec Ideal S1x128 .f32) (j : Fin 128) : EReal :=
  ∑ q : Fin 5000, (x0 (ix2 q j) - x1 (ix2 (0 : Fin 1) j)) * (x0 (ix2 q j) - x1 (ix2 (0 : Fin 1) j))

/-- The stored row at column j: the accumulator's entry plus the block's sum of squared deviations (the lane sum over
    axis 0 is the sum over the block's rows; the mean row is broadcast over the rows). -/
theorem pay2_apply (x0 : Vec Ideal S5000x128 .f32) (x1 acc : Vec Ideal S1x128 .f32) (z : Fin 1) (j : Fin 128) :
    k5_pay2 x0 x1 acc (ix2 z j) = acc (ix2 z j) + blockSqDev x0 x1 j := by
  unfold k5_pay2
  dsimp only
  refine (addf_apply _ _ _).trans ?_
  refine congrArg₂ (· + ·) (congrFun (shapeCast_self acc _) _) ?_
  refine (shapeCast_a_1a_apply _ shapeCasts_S128_S1x128 z j).trans ?_
  refine (Ideal.multiReduction_add_single _ _ reduces_S5000x128_S128 _ _ (ix1 j)).trans ?_
  refine Finset.sum_congr rfl fun q _ => ?_
  refine (congrArg _ (lift_eq j q)).trans ?_
  refine (mulf_apply _ _ _).trans ?_
  refine congrArg₂ (· * ·) ?_ ?_ <;>
  · refine (subf_apply _ _ _).trans ?_
    refine congrArg₂ (· - ·) (congrFun (shapeCast_self x0 _) _) ?_
    refine (broadcastTo_1b_ab_apply _ broadcasts_S1x128_S5000x128 q j).trans ?_
    exact congrFun (shapeCast_self x1 _) _

/-- The reset row is the zero word everywhere. -/
theorem pay1_apply (i : S1x128.Idx) : k5_pay1 (F := Ideal) i = Spec.zero := rfl

/-! ## The blocks the windows hand the body -/

/-- The block of h at point t sits at block row t; the mean row's and the accumulator's one block at (0, 0): decided over
    the grid. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0 :=
  (by decide +kernel : ∀ t : Fin grid5.N, _)

/-- Entry (q, j) of h's block at point t is h at row 5000 t + q. -/
theorem blk0_apply (c : Dev nD) (t : Fin cfg5.N) (ht : t.val < 20) (q : Fin 5000) (j : Fin 128) :
    (iblk5 V c 0 t : Vec Ideal S5000x128 .f32) (ix2 q j)
      = (V c main_v53_0 : Spec.Arr 100000 128) (ix2 (Spec.rowOf ⟨t.val, ht⟩ q) j) := by
  unfold iblk5
  rw [View.read_apply]
  show V c main_v53_0 _ = V c main_v53_0 _
  congr 1
  funext a
  apply Fin.ext
  match a with
  | ⟨0, _⟩ => show win5_0.index t 0 * 5000 + 1 * q.val = 5000 * t.val + q.val; rw [(idx_facts t).1]; omega
  | ⟨1, _⟩ => show win5_0.index t 1 * 128 + 1 * j.val = j.val; rw [(idx_facts t).2.1]; omega

/-- Entry (z, j) of the mean row's block at any point is the mean row at j. -/
theorem blk1_apply (c : Dev nD) (t : Fin cfg5.N) (z : Fin 1) (j : Fin 128) :
    (iblk5 V c 1 t : Vec Ideal S1x128 .f32) (ix2 z j) = (V c main_v55 : Spec.Arr 1 128) (ix2 (0 : Fin 1) j) := by
  unfold iblk5
  rw [View.read_apply]
  show V c main_v55 _ = V c main_v55 _
  congr 1
  funext a
  apply Fin.ext
  match a with
  | ⟨0, _⟩ => show win5_1.index t 0 * 1 + 1 * z.val = 0; rw [(idx_facts t).2.2.1]; have := z.isLt; omega
  | ⟨1, _⟩ => show win5_1.index t 1 * 128 + 1 * j.val = j.val; rw [(idx_facts t).2.2.2]; omega

/-! ## The running sum over the grid points -/

/-- Block t's sum of squared deviations in column j, as a function of the whole arrays (zero past the grid). -/
def blockTerm (h : Spec.Arr 100000 128) (μ : Spec.Arr 1 128) (j : Fin 128) (t : ℕ) : EReal :=
  if ht : t < 20 then
    ∑ q : Fin 5000, (h (ix2 (Spec.rowOf ⟨t, ht⟩ q) j) - μ (ix2 (0 : Fin 1) j)) * (h (ix2 (Spec.rowOf ⟨t, ht⟩ q) j) - μ (ix2 (0 : Fin 1) j))
  else 0

/-- After the last block the running sum of the block sums is the sum over all 100000 rows. -/
theorem runSum_blockTerm (h : Spec.Arr 100000 128) (μ : Spec.Arr 1 128) (j : Fin 128) :
    Spec.runSum (blockTerm h μ j) 19 = Spec.colSqDevAt h μ j := by
  rw [Spec.runSum_last]
  unfold Spec.colSqDevAt
  rw [Spec.sum_blocks (fun r => (h (ix2 r j) - μ (ix2 (0 : Fin 1) j)) * (h (ix2 r j) - μ (ix2 (0 : Fin 1) j)))]
  refine Finset.sum_congr rfl fun t _ => ?_
  unfold blockTerm
  rw [dif_pos t.isLt]

/-- Equal entries and equal means give equal squared deviations. -/
theorem sq_congr {a b a' b' : EReal} (h1 : a = a') (h2 : b = b') : (a - b) * (a - b) = (a' - b') * (a' - b') := by
  rw [h1, h2]

/-- The block sum the body forms at point t is block t's term. -/
theorem block_eq (c : Dev nD) (t : Fin cfg5.N) (j : Fin 128) :
    blockSqDev (iblk5 V c 0 t) (iblk5 V c 1 t) j = blockTerm (V c main_v53_0) (V c main_v55) j t.val := by
  have ht : t.val < 20 := lt_of_lt_of_eq t.isLt (show cfg5.N = 20 from N_5)
  unfold blockSqDev blockTerm
  rw [dif_pos ht]
  refine Finset.sum_congr rfl fun q _ => ?_
  exact sq_congr (blk0_apply V c t ht q j) (blk1_apply V c t 0 j)

/-- What the accumulator row holds after point n, at column j: the running sum of the block terms, by induction on
    the point. -/
theorem outsAt_eq (c : Dev nD) (z : Fin 1) (j : Fin 128) : ∀ (n : ℕ) (hn : n < cfg5.N),
    outsAt5 V c n hn (ix2 z j) = Spec.runSum (blockTerm (V c main_v53_0) (V c main_v55) j) n
  | 0, hn => by
    refine (congrFun (outsAt5_A V c ⟨0, hn⟩ rfl) (ix2 z j)).trans ?_
    refine (congrFun (out_A (F := Ideal) c (grid5.coords ⟨0, hn⟩) (ms5_0 ⟨0, hn⟩) (hs5_0 ⟨0, hn⟩) (ms5_1 ⟨0, hn⟩)
      (hs5_1 ⟨0, hn⟩) (ms5_2 ⟨0, hn⟩) (hs5_2 ⟨0, hn⟩) ((hcond5_0 ⟨0, hn⟩).mpr rfl) (iblk5 V c 0 ⟨0, hn⟩)
      (iblk5 V c 1 ⟨0, hn⟩)) (ix2 z j)).trans ?_
    refine (pay2_apply (iblk5 V c 0 ⟨0, hn⟩) (iblk5 V c 1 ⟨0, hn⟩) (k5_pay1 (F := Ideal)) z j).trans ?_
    show _ + _ = Spec.zero + blockTerm (V c main_v53_0) (V c main_v55) j 0
    exact congrArg₂ (· + ·) (pay1_apply (ix2 z j)) (block_eq V c ⟨0, hn⟩ j)
  | n + 1, hn => by
    have hN : cfg5.N = 20 := N_5
    have hB : ¬(⟨n + 1, hn⟩ : Fin cfg5.N).val % 20 = 0 := by dsimp only; omega
    refine (congrFun (outsAt5_B V c ⟨n + 1, hn⟩ hB) (ix2 z j)).trans ?_
    refine (congrFun (out_B (F := Ideal) c (grid5.coords ⟨n + 1, hn⟩) (ms5_0 ⟨n + 1, hn⟩) (hs5_0 ⟨n + 1, hn⟩)
      (ms5_1 ⟨n + 1, hn⟩) (hs5_1 ⟨n + 1, hn⟩) (ms5_2 ⟨n + 1, hn⟩) (hs5_2 ⟨n + 1, hn⟩)
      (fun h => hB ((hcond5_0 ⟨n + 1, hn⟩).mp h)) (iblk5 V c 0 ⟨n + 1, hn⟩) (iblk5 V c 1 ⟨n + 1, hn⟩)
      (outsAt5 V c n (Nat.lt_of_succ_lt hn))) (ix2 z j)).trans ?_
    refine (pay2_apply (iblk5 V c 0 ⟨n + 1, hn⟩) (iblk5 V c 1 ⟨n + 1, hn⟩) (outsAt5 V c n (Nat.lt_of_succ_lt hn)) z j).trans ?_
    show _ + _ = Spec.runSum (blockTerm (V c main_v53_0) (V c main_v55) j) n + blockTerm (V c main_v53_0) (V c main_v55) j (n + 1)
    exact congrArg₂ (· + ·) (outsAt_eq c z j n (Nat.lt_of_succ_lt hn)) (block_eq V c ⟨n + 1, hn⟩ j)

/-- The last grid point. -/
abbrev tLast : Fin cfg5.N := ⟨19, by rw [show cfg5.N = 20 from N_5]; decide⟩

/-- After the last point the accumulator row is the row of column sums of squared deviations. -/
theorem last_eq (c : Dev nD) :
    outsAt5 V c tLast.val tLast.isLt = Spec.colSqDev (V c main_v53_0) (V c main_v55) := by
  funext i
  obtain ⟨z, j, rfl⟩ : ∃ (z : Fin 1) (j : Fin 128), i = ix2 z j := ⟨i 0, i 1, eq_ix2 i⟩
  rw [outsAt_eq V c z j 19 tLast.isLt, runSum_blockTerm]
  rfl

/-! ## From the one write-back to the array -/

/-- The one write-back, after point 19, writes that row: block (0, 0) of the [1, 128] array is the array. -/
theorem flushed_eq (c : Dev nD) (t : Fin cfg5.N) (hf : (cfg5.win 2).flush t = true) :
    (dat5 V c).flushed 2 t
      = ((cfg5.win 2).blk t).view.read (Elt Ideal) (Spec.colSqDev (V c main_v53_0) (V c main_v55)) := by
  have hN : cfg5.N = 20 := N_5
  have h19 : t.val = 19 := by have := (flush5_2 t).mp hf; have := t.isLt; omega
  obtain rfl : t = tLast := Fin.ext h19
  show (cfg5.win 2).cut (grid5.coords tLast) ((dat5 V c).after 2 tLast) = _
  rw [after5_2, last_eq]
  have hz' : (fun a => win5_2.index tLast a * main_v56.ty.shape.size a) = fun _ => 0 := funext fun a => by fin_cases a <;> decide
  exact (Memref.read_access_unit_zero (Elt Ideal) main_v56 hz' (fun a => by rw [congrFun hz' a]; simp)
    (Spec.colSqDev (V c main_v53_0) (V c main_v55))).symm

/-- The array the region's output window ends in is the row of column sums of squared deviations of the input arrays. -/
theorem final2 (c : Dev nD) :
    (dat5 (F := Ideal) V c).arrAt 2 cfg5.N = Spec.colSqDev (V c main_v53_0) (V c main_v55) :=
  (dat5 V c).arrAt_eq_of_cover 2 (Spec.colSqDev (V c main_v53_0) (V c main_v55)) (flushed_eq V c) fun i =>
    ⟨tLast, (flush5_2 tLast).mpr rfl, by
      show i ∈ ((View.whole main_v56).slice (win5_2.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win5_2.index tLast 0 * win5_2.size 0 ≤ (i 0 : Nat)
          ∧ (i 0 : Nat) < win5_2.index tLast 0 * win5_2.size 0 + win5_2.xsize (grid5.coords tLast) 0
        rw [show win5_2.index tLast 0 * win5_2.size 0 = 0 from by decide +kernel,
          show win5_2.xsize (grid5.coords tLast) 0 = 1 from by decide +kernel]
        omega
      | ⟨1, _⟩ =>
        show win5_2.index tLast 1 * win5_2.size 1 ≤ (i 1 : Nat)
          ∧ (i 1 : Nat) < win5_2.index tLast 1 * win5_2.size 1 + win5_2.xsize (grid5.coords tLast) 1
        rw [show win5_2.index tLast 1 * win5_2.size 1 = 0 from by decide +kernel,
          show win5_2.xsize (grid5.coords tLast) 1 = 128 from by decide +kernel]
        omega⟩

end Cert.KernelIdeal.Region5

end
-- ==== Proof.KRegion6.lean ====
/-
  The third layer's dense half: every block of 5000 rows of the features is normalized with the mean, variance,
  gain and offset rows, rectified, scaled row by row by the nodes' factors and multiplied by the 128 × 64 weight
  matrix, into a zero accumulator. Read over the extended reals, where the two changes of format are the identity,
  the array the region leaves is (bnRelu(h) · s) W.
-/
import proofs.«164148_j27101243638257_2_alg».proof.Proof.Gen.KernelIdeal.Frame
import proofs.«164148_j27101243638257_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region6
open Cert.KernelIdeal Cert.KernelIdeal.Gen

variable (V : (c : Dev nD) → (b : Ref sig .tc) → Buf (Elt Ideal) ((c : Thread nD τ).loc b))

/-! ## The matrix product's index maps: one contracted axis, rows from the left factor, columns from the right -/

theorem lhs_row (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_contr (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs_contr (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs_col (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The broadcasts at an index -/

/-- A column of per-row factors broadcast along the rows' entries reads the row's factor. -/
theorem bcast_col {α : Type} (x : S5000x1.Idx → α) (p : Fin 5000) (k : Fin 128) :
    broadcastTo S5000x128 x broadcasts_S5000x1_S5000x128 (ix2 p k) = x (ix2 p (0 : Fin 1)) :=
  broadcastTo_apply x broadcasts_S5000x1_S5000x128 (ix2 p k) (ix2 p (0 : Fin 1)) (fun a => by
    match a with
    | ⟨0, _⟩ => rfl
    | ⟨1, _⟩ => rfl)
/-- A row broadcast down the block reads the row's entry in that column. -/
theorem bcast_row {α : Type} (x : S1x128.Idx → α) (p : Fin 5000) (k : Fin 128) :
    broadcastTo S5000x128 x broadcasts_S1x128_S5000x128 (ix2 p k) = x (ix2 (0 : Fin 1) k) :=
  broadcastTo_apply x broadcasts_S1x128_S5000x128 (ix2 p k) (ix2 (0 : Fin 1) k) (fun a => by
    match a with
    | ⟨0, _⟩ => rfl
    | ⟨1, _⟩ => rfl)

/-- Entry (p, q) of the block the body stores: row p of the features, normalized with the mean, variance, gain
    and offset rows and rectified, scaled by the node's factor, times column q of the weights. Both format changes
    are the identity on extended reals and the accumulator is zero. -/
theorem pay_apply (x0 : Vec Ideal S5000x128 .f32) (xm xv xg xb : Vec Ideal S1x128 .f32) (xs : Vec Ideal S5000x1 .f32)
    (xw : Vec Ideal S128x64 .f32) (p : Fin 5000) (q : Fin 64) :
    k6_pay1 (F := Ideal) x0 xm xv xg xb xs xw (ix2 p q)
      = ∑ k : Fin 128,
          (max ((x0 (ix2 p k) - xm (ix2 (0 : Fin 1) k)) * Ideal.rsqrt (xv (ix2 (0 : Fin 1) k) + Ideal.ofBits .f32 0x3727C5AC#32)
              * xg (ix2 (0 : Fin 1) k) + xb (ix2 (0 : Fin 1) k)) (Ideal.ofBits .f32 0x00000000#32)
            * xs (ix2 p (0 : Fin 1))) * xw (ix2 k q) := by
  unfold k6_pay1
  refine (Ideal.matmul_constant_zero_apply dot_S5000x128_S128x64_S5000x64_1_0_0_1_n_n none _ _ (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_contr _ _).trans hk
    | ⟨1, _⟩ => exact rhs_col _ _)
  rw [el, er]
  simp only [shapeCast_self]
  rw [truncf_apply, truncf_apply, mulf_apply, maximumf_apply, addf_apply, mulf_apply, mulf_apply, subf_apply,
    broadcast_apply, bcast_col]
  simp only [bcast_row]
  rfl

/-! ## Where the blocks sit, and one point's block of the result -/

theorem hz : (![0, 0] : Fin 2 → Nat) = fun _ => 0 := funext fun a => by fin_cases a <;> rfl

/-- At grid point t every window cut into blocks of 5000 rows sits at block (t, 0) and every whole-array window at
    block (0, 0): decided over the 20 points. -/
theorem idx_facts : ∀ t : Fin cfg6.N,
    win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = t.val
    ∧ win6_5.index t (1 : Fin 2) = 0
    ∧ win6_6.index t (0 : Fin 2) = 0
    ∧ win6_6.index t (1 : Fin 2) = 0
    ∧ win6_7.index t (0 : Fin 2) = t.val
    ∧ win6_7.index t (1 : Fin 2) = 0 :=
  (by decide +kernel : ∀ t : Fin grid6.N, _)

/-- If the loaded blocks are rows 5000 n .. 5000 n + 4999 of the features and of the scale column, the four
    normalization rows and the whole weight matrix, then the stored block is those rows of (bnRelu(h) · s) W. -/
theorem point_eq (A0 : Spec.Arr 100000 128) (A1 : Spec.Arr 1 128) (A2 : Spec.Arr 1 128) (A3 : Spec.Arr 1 128) (A4 : Spec.Arr 1 128) (A5 : Spec.Arr 100000 1) (A6 : Spec.Arr 128 64)
    (x0 : Vec Ideal S5000x128 .f32) (x1 : Vec Ideal S1x128 .f32) (x2 : Vec Ideal S1x128 .f32) (x3 : Vec Ideal S1x128 .f32) (x4 : Vec Ideal S1x128 .f32) (x5 : Vec Ideal S5000x1 .f32) (x6 : Vec Ideal S128x64 .f32)
    (n : Nat) (hn : n < 20)
    (h0 : ∀ (p : Fin 5000) (k : Fin 128), x0 (ix2 p k) = A0 (ix2 (⟨5000 * n + p.val, by have := p.isLt; omega⟩ : Fin 100000) k))
    (h1 : ∀ (k : Fin 128), x1 (ix2 (0 : Fin 1) k) = A1 (ix2 (0 : Fin 1) k))
    (h2 : ∀ (k : Fin 128), x2 (ix2 (0 : Fin 1) k) = A2 (ix2 (0 : Fin 1) k))
    (h3 : ∀ (k : Fin 128), x3 (ix2 (0 : Fin 1) k) = A3 (ix2 (0 : Fin 1) k))
    (h4 : ∀ (k : Fin 128), x4 (ix2 (0 : Fin 1) k) = A4 (ix2 (0 : Fin 1) k))
    (h5 : ∀ (p : Fin 5000), x5 (ix2 p (0 : Fin 1)) = A5 (ix2 (⟨5000 * n + p.val, by have := p.isLt; omega⟩ : Fin 100000) (0 : Fin 1)))
    (h6 : ∀ (k : Fin 128) (q : Fin 64), x6 (ix2 k q) = A6 (ix2 k q))
    (y : S5000x64.Idx) (i : S100000x64.Idx) (hi0 : (i 0).val = 5000 * n + (y 0).val) (hi1 : (i 1).val = (y 1).val) :
    k6_pay1 (F := Ideal) x0 x1 x2 x3 x4 x5 x6 y = Spec.scaleMatmul (Spec.bnRelu A0 A1 A2 A3 A4) A5 A6 i := by
  obtain ⟨p, q, rfl⟩ : ∃ (p : Fin 5000) (q : Fin 64), y = ix2 p q := ⟨y 0, y 1, eq_ix2 y⟩
  have hlt : 5000 * n + p.val < 100000 := by have := p.isLt; omega
  obtain ⟨r, j, rfl⟩ : ∃ (r : Fin 100000) (j : Fin 64), i = ix2 r j := ⟨i 0, i 1, eq_ix2 i⟩
  have hr : r = ⟨5000 * n + p.val, hlt⟩ := Fin.ext hi0
  have hj : j = q := Fin.ext hi1
  subst hr hj
  rw [pay_apply, Spec.scaleMatmul_ix2]
  unfold Spec.scaleMatmulAt
  refine Finset.sum_congr rfl fun k _ => ?_
  rw [Spec.bnRelu_ix2]
  unfold Spec.bnReluAt
  rw [h0, h1, h2, h3, h4, h5, h6]

/-! ## The blocks the body loads, read off the arrays -/

/-- Window 0's block at point t is rows 5000 t .. 5000 t + 4999 of its array. -/
theorem read_0 (c : Dev nD) (t : Fin cfg6.N) (p : Fin 5000) (k : Fin 128) :
    iblk6 V c 0 t (ix2 p k) = V c main_v53_0 (ix2 (⟨5000 * t.val + p.val, by have := p.isLt; have := lt_of_lt_of_eq t.isLt N_6; omega⟩ : Fin 100000) k) := by
  have ea := (idx_facts t).1
  have eb := (idx_facts t).2.1
  show V c main_v53_0 (((cfg6.win 0).blk t).view.emb (ix2 p k)) = V c main_v53_0 _
  refine congrArg _ (funext fun a => Fin.ext ?_)
  match a with
  | ⟨0, _⟩ => show win6_0.index t (0 : Fin 2) * 5000 + 1 * p.val = 5000 * t.val + p.val; omega
  | ⟨1, _⟩ => show win6_0.index t (1 : Fin 2) * 128 + 1 * k.val = k.val; omega

/-- Window 1's block at every point is its whole row. -/
theorem read_1 (c : Dev nD) (t : Fin cfg6.N) (k : Fin 128) :
    iblk6 V c 1 t (ix2 (0 : Fin 1) k) = V c main_v55 (ix2 (0 : Fin 1) k) := by
  have ea := (idx_facts t).2.2.1
  have eb := (idx_facts t).2.2.2.1
  show V c main_v55 (((cfg6.win 1).blk t).view.emb (ix2 (0 : Fin 1) k)) = V c main_v55 _
  refine congrArg _ (funext fun a => Fin.ext ?_)
  match a with
  | ⟨0, _⟩ => show win6_1.index t (0 : Fin 2) * 1 + 1 * 0 = 0; omega
  | ⟨1, _⟩ => show win6_1.index t (1 : Fin 2) * 128 + 1 * k.val = k.val; omega

/-- Window 2's block at every point is its whole row. -/
theorem read_2 (c : Dev nD) (t : Fin cfg6.N) (k : Fin 128) :
    iblk6 V c 2 t (ix2 (0 : Fin 1) k) = V c main_v58 (ix2 (0 : Fin 1) k) := by
  have ea := (idx_facts t).2.2.2.2.1
  have eb := (idx_facts t).2.2.2.2.2.1
  show V c main_v58 (((cfg6.win 2).blk t).view.emb (ix2 (0 : Fin 1) k)) = V c main_v58 _
  refine congrArg _ (funext fun a => Fin.ext ?_)
  match a with
  | ⟨0, _⟩ => show win6_2.index t (0 : Fin 2) * 1 + 1 * 0 = 0; omega
  | ⟨1, _⟩ => show win6_2.index t (1 : Fin 2) * 128 + 1 * k.val = k.val; omega

/-- Window 3's block at every point is its whole row. -/
theorem read_3 (c : Dev nD) (t : Fin cfg6.N) (k : Fin 128) :
    iblk6 V c 3 t (ix2 (0 : Fin 1) k) = V c main_v59 (ix2 (0 : Fin 1) k) := by
  have ea := (idx_facts t).2.2.2.2.2.2.1
  have eb := (idx_facts t).2.2.2.2.2.2.2.1
  show V c main_v59 (((cfg6.win 3).blk t).view.emb (ix2 (0 : Fin 1) k)) = V c main_v59 _
  refine congrArg _ (funext fun a => Fin.ext ?_)
  match a with
  | ⟨0, _⟩ => show win6_3.index t (0 : Fin 2) * 1 + 1 * 0 = 0; omega
  | ⟨1, _⟩ => show win6_3.index t (1 : Fin 2) * 128 + 1 * k.val = k.val; omega

/-- Window 4's block at every point is its whole row. -/
theorem read_4 (c : Dev nD) (t : Fin cfg6.N) (k : Fin 128) :
    iblk6 V c 4 t (ix2 (0 : Fin 1) k) = V c main_v60 (ix2 (0 : Fin 1) k) := by
  have ea := (idx_facts t).2.2.2.2.2.2.2.2.1
  have eb := (idx_facts t).2.2.2.2.2.2.2.2.2.1
  show V c main_v60 (((cfg6.win 4).blk t).view.emb (ix2 (0 : Fin 1) k)) = V c main_v60 _
  refine congrArg _ (funext fun a => Fin.ext ?_)
  match a with
  | ⟨0, _⟩ => show win6_4.index t (0 : Fin 2) * 1 + 1 * 0 = 0; omega
  | ⟨1, _⟩ => show win6_4.index t (1 : Fin 2) * 128 + 1 * k.val = k.val; omega

/-- Window 5's block at point t is rows 5000 t .. 5000 t + 4999 of its column. -/
theorem read_5 (c : Dev nD) (t : Fin cfg6.N) (p : Fin 5000) :
    iblk6 V c 5 t (ix2 p (0 : Fin 1)) = V c main_v61 (ix2 (⟨5000 * t.val + p.val, by have := p.isLt; have := lt_of_lt_of_eq t.isLt N_6; omega⟩ : Fin 100000) (0 : Fin 1)) := by
  have ea := (idx_facts t).2.2.2.2.2.2.2.2.2.2.1
  have eb := (idx_facts t).2.2.2.2.2.2.2.2.2.2.2.1
  show V c main_v61 (((cfg6.win 5).blk t).view.emb (ix2 p (0 : Fin 1))) = V c main_v61 _
  refine congrArg _ (funext fun a => Fin.ext ?_)
  match a with
  | ⟨0, _⟩ => show win6_5.index t (0 : Fin 2) * 5000 + 1 * p.val = 5000 * t.val + p.val; omega
  | ⟨1, _⟩ => show win6_5.index t (1 : Fin 2) * 1 + 1 * 0 = 0; omega

/-- Window 6's block at every point is its whole matrix. -/
theorem read_6 (c : Dev nD) (t : Fin cfg6.N) (k : Fin 128) (q : Fin 64) :
    iblk6 V c 6 t (ix2 k q) = V c main_arg7 (ix2 k q) := by
  have ea := (idx_facts t).2.2.2.2.2.2.2.2.2.2.2.2.1
  have eb := (idx_facts t).2.2.2.2.2.2.2.2.2.2.2.2.2.1
  show V c main_arg7 (((cfg6.win 6).blk t).view.emb (ix2 k q)) = V c main_arg7 _
  refine congrArg _ (funext fun a => Fin.ext ?_)
  match a with
  | ⟨0, _⟩ => show win6_6.index t (0 : Fin 2) * 128 + 1 * k.val = k.val; omega
  | ⟨1, _⟩ => show win6_6.index t (1 : Fin 2) * 64 + 1 * q.val = q.val; omega

/-- The output block's entry (y 0, y 1) at point t sits at row 5000 t + y 0, column y 1 of the array. -/
theorem emb_out (t : Fin cfg6.N) (y : S5000x64.Idx) :
    ((((cfg6.win 7).blk t).view.emb y) 0).val = 5000 * t.val + (y 0).val
      ∧ ((((cfg6.win 7).blk t).view.emb y) 1).val = (y 1).val := by
  have ea := (idx_facts t).2.2.2.2.2.2.2.2.2.2.2.2.2.2.1
  have eb := (idx_facts t).2.2.2.2.2.2.2.2.2.2.2.2.2.2.2
  constructor
  · show win6_7.index t (0 : Fin 2) * 5000 + 1 * (y 0).val = 5000 * t.val + (y 0).val
    omega
  · show win6_7.index t (1 : Fin 2) * 64 + 1 * (y 1).val = (y 1).val
    omega

/-! ## From blocks to the array -/

/-- What point t writes back is block t of (bnRelu(h) · s) W of the arrays the region finds. -/
theorem flushed_eq (c : Dev nD) (t : Fin cfg6.N) :
    (dat6 (F := Ideal) V c).flushed 7 t
      = ((cfg6.win 7).blk t).view.read (Elt Ideal) (Spec.scaleMatmul (Spec.bnRelu (V c main_v53_0) (V c main_v55) (V c main_v58) (V c main_v59) (V c main_v60)) (V c main_v61) (V c main_arg7)) := by
  show (cfg6.win 7).cut (grid6.coords t) ((dat6 V c).after 7 t) = _
  rw [after6_7]
  unfold out6_7
  rw [View.canon_unit_zero hz]
  simp only [View.ld_unit_zero (S := S5000x128) hz, View.ld_unit_zero (S := S1x128) hz, View.ld_unit_zero (S := S5000x1) hz, View.ld_unit_zero (S := S128x64) hz, View.ld_unit_zero (S := S5000x64) hz]
  have ht : t.val < 20 := lt_of_lt_of_eq t.isLt N_6
  refine funext fun (y : S5000x64.Idx) => ?_
  show k6_pay1 (F := Ideal) (iblk6 V c 0 t) (iblk6 V c 1 t) (iblk6 V c 2 t) (iblk6 V c 3 t) (iblk6 V c 4 t) (iblk6 V c 5 t) (iblk6 V c 6 t) y
    = Spec.scaleMatmul (Spec.bnRelu (V c main_v53_0) (V c main_v55) (V c main_v58) (V c main_v59) (V c main_v60)) (V c main_v61) (V c main_arg7) (((cfg6.win 7).blk t).view.emb y)
  exact point_eq (V c main_v53_0) (V c main_v55) (V c main_v58) (V c main_v59) (V c main_v60) (V c main_v61) (V c main_arg7)
    (iblk6 V c 0 t) (iblk6 V c 1 t) (iblk6 V c 2 t) (iblk6 V c 3 t) (iblk6 V c 4 t) (iblk6 V c 5 t) (iblk6 V c 6 t)
    t.val ht (read_0 V c t) (read_1 V c t) (read_2 V c t) (read_3 V c t) (read_4 V c t) (read_5 V c t) (read_6 V c t)
    y (((cfg6.win 7).blk t).view.emb y) (emb_out t y).1 (emb_out t y).2

/-- An index of the array is in point t's block iff each coordinate is in the block's range on its axis. -/
theorem mem_blk (t : Fin cfg6.N) (i : S100000x64.Idx) :
    i ∈ ((cfg6.win 7).blk t).view.set ↔ ∀ a : Fin 2, win6_7.index t a * S5000x64.size a ≤ (i a).val
      ∧ (i a).val < win6_7.index t a * S5000x64.size a + S5000x64.size a := by
  show i ∈ ((View.whole main_v62).slice (win6_7.rect t)).set ↔ _
  rw [View.set_slice_whole, Rect.mem_set_unit]
  exact Iff.rfl

/-- Row r lies in the block of point r / 5000, so the 20 blocks cover the array. -/
theorem cover (i : S100000x64.Idx) :
    ∃ t : Fin cfg6.N, (cfg6.win 7).flush t = true ∧ i ∈ ((cfg6.win 7).blk t).view.set := by
  have hi0 : (i 0).val < 100000 := (i 0).isLt
  have hi1 : (i 1).val < 64 := (i 1).isLt
  obtain ⟨t, ht⟩ : ∃ t : Fin cfg6.N, t.val = (i 0).val / 5000 :=
    ⟨⟨(i 0).val / 5000, lt_of_lt_of_eq (by omega : (i 0).val / 5000 < 20) N_6.symm⟩, rfl⟩
  have eo0 : win6_7.index t (0 : Fin 2) = t.val := (idx_facts t).2.2.2.2.2.2.2.2.2.2.2.2.2.2.1
  have eo1 : win6_7.index t (1 : Fin 2) = 0 := (idx_facts t).2.2.2.2.2.2.2.2.2.2.2.2.2.2.2
  refine ⟨t, flush6_7 t, ?_⟩
  rw [mem_blk]
  intro a
  match a with
  | ⟨0, _⟩ =>
    show win6_7.index t (0 : Fin 2) * 5000 ≤ (i 0).val ∧ (i 0).val < win6_7.index t (0 : Fin 2) * 5000 + 5000
    omega
  | ⟨1, _⟩ =>
    show win6_7.index t (1 : Fin 2) * 64 ≤ (i 1).val ∧ (i 1).val < win6_7.index t (1 : Fin 2) * 64 + 64
    omega

/-- The array the region leaves in its output window is (bnRelu(h) · s) W of the arrays it found. -/
theorem final7 (c : Dev nD) :
    (dat6 (F := Ideal) V c).arrAt 7 cfg6.N = Spec.scaleMatmul (Spec.bnRelu (V c main_v53_0) (V c main_v55) (V c main_v58) (V c main_v59) (V c main_v60)) (V c main_v61) (V c main_arg7) :=
  (dat6 V c).arrAt_eq_of_cover 7 (Spec.scaleMatmul (Spec.bnRelu (V c main_v53_0) (V c main_v55) (V c main_v58) (V c main_v59) (V c main_v60)) (V c main_v61) (V c main_arg7))
    (fun t _ => flushed_eq V c t) cover

end Cert.KernelIdeal.Region6

end
-- ==== Proof.KRegion7.lean ====
/-
  The last region: every block of 5000 rows of the aggregated features is scaled row by row by the nodes' factors
  and the bias row is added. The array the region leaves is a · s + b.
-/
import proofs.«164148_j27101243638257_2_alg».proof.Proof.Gen.KernelIdeal.Frame
import proofs.«164148_j27101243638257_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region7
open Cert.KernelIdeal Cert.KernelIdeal.Gen

variable (V : (c : Dev nD) → (b : Ref sig .tc) → Buf (Elt Ideal) ((c : Thread nD τ).loc b))

/-- A column of per-row factors broadcast along the rows' entries reads the row's factor. -/
theorem bcast_col {α : Type} (x : S5000x1.Idx → α) (p : Fin 5000) (q : Fin 64) :
    broadcastTo S5000x64 x broadcasts_S5000x1_S5000x64 (ix2 p q) = x (ix2 p (0 : Fin 1)) :=
  broadcastTo_apply x broadcasts_S5000x1_S5000x64 (ix2 p q) (ix2 p (0 : Fin 1)) (fun a => by
    match a with
    | ⟨0, _⟩ => rfl
    | ⟨1, _⟩ => rfl)
/-- A row broadcast down the block reads the row's entry in that column. -/
theorem bcast_row {α : Type} (x : S1x64.Idx → α) (p : Fin 5000) (q : Fin 64) :
    broadcastTo S5000x64 x broadcasts_S1x64_S5000x64 (ix2 p q) = x (ix2 (0 : Fin 1) q) :=
  broadcastTo_apply x broadcasts_S1x64_S5000x64 (ix2 p q) (ix2 (0 : Fin 1) q) (fun a => by
    match a with
    | ⟨0, _⟩ => rfl
    | ⟨1, _⟩ => rfl)

/-- Entry (p, q) of the block the body stores: the aggregate's entry times the row's factor, plus the bias. -/
theorem pay_apply (x0 : Vec Ideal S5000x64 .f32) (x1 : Vec Ideal S5000x1 .f32) (x2 : Vec Ideal S1x64 .f32)
    (p : Fin 5000) (q : Fin 64) :
    k7_pay1 (F := Ideal) x0 x1 x2 (ix2 p q) = x0 (ix2 p q) * x1 (ix2 p (0 : Fin 1)) + x2 (ix2 (0 : Fin 1) q) := by
  unfold k7_pay1
  simp only [shapeCast_self]
  rw [addf_apply, mulf_apply, bcast_col, bcast_row]

/-! ## Where the blocks sit, and one point's block of the result -/

theorem hz : (![0, 0] : Fin 2 → Nat) = fun _ => 0 := funext fun a => by fin_cases a <;> rfl

/-- At grid point t every window cut into blocks of 5000 rows sits at block (t, 0) and every whole-array window at
    block (0, 0): decided over the 20 points. -/
theorem idx_facts : ∀ t : Fin cfg7.N,
    win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

/-- If the loaded blocks are rows 5000 n .. 5000 n + 4999 of the aggregate and of the scale column, and the bias
    row, then the stored block is those rows of a · s + b. -/
theorem point_eq (A0 : Spec.Arr 100000 64) (A1 : Spec.Arr 100000 1) (A2 : Spec.Arr 1 64)
    (x0 : Vec Ideal S5000x64 .f32) (x1 : Vec Ideal S5000x1 .f32) (x2 : Vec Ideal S1x64 .f32)
    (n : Nat) (hn : n < 20)
    (h0 : ∀ (p : Fin 5000) (k : Fin 64), x0 (ix2 p k) = A0 (ix2 (⟨5000 * n + p.val, by have := p.isLt; omega⟩ : Fin 100000) k))
    (h1 : ∀ (p : Fin 5000), x1 (ix2 p (0 : Fin 1)) = A1 (ix2 (⟨5000 * n + p.val, by have := p.isLt; omega⟩ : Fin 100000) (0 : Fin 1)))
    (h2 : ∀ (k : Fin 64), x2 (ix2 (0 : Fin 1) k) = A2 (ix2 (0 : Fin 1) k))
    (y : S5000x64.Idx) (i : S100000x64.Idx) (hi0 : (i 0).val = 5000 * n + (y 0).val) (hi1 : (i 1).val = (y 1).val) :
    k7_pay1 (F := Ideal) x0 x1 x2 y = Spec.biasScale A0 A1 A2 i := by
  obtain ⟨p, q, rfl⟩ : ∃ (p : Fin 5000) (q : Fin 64), y = ix2 p q := ⟨y 0, y 1, eq_ix2 y⟩
  have hlt : 5000 * n + p.val < 100000 := by have := p.isLt; omega
  obtain ⟨r, j, rfl⟩ : ∃ (r : Fin 100000) (j : Fin 64), i = ix2 r j := ⟨i 0, i 1, eq_ix2 i⟩
  have hr : r = ⟨5000 * n + p.val, hlt⟩ := Fin.ext hi0
  have hj : j = q := Fin.ext hi1
  subst hr hj
  rw [pay_apply, Spec.biasScale_ix2]
  unfold Spec.biasScaleAt
  rw [h0, h1, h2]

/-! ## From blocks to the array -/

/-- What point t writes back is block t of a · s + b of the arrays the region finds. -/
theorem flushed_eq (c : Dev nD) (t : Fin cfg7.N) :
    (dat7 (F := Ideal) V c).flushed 3 t
      = ((cfg7.win 3).blk t).view.read (Elt Ideal) (Spec.biasScale (V c main_v74) (V c main_v75) (V c main_v76)) := by
  show (cfg7.win 3).cut (grid7.coords t) ((dat7 V c).after 3 t) = _
  rw [after7_3]
  unfold out7_3
  rw [View.canon_unit_zero hz]
  simp only [View.ld_unit_zero (S := S5000x64) hz, View.ld_unit_zero (S := S5000x1) hz, View.ld_unit_zero (S := S1x64) hz]
  obtain ⟨e00, e01, e10, e11, e20, e21, e30, e31⟩ := idx_facts t
  have ht : t.val < 20 := lt_of_lt_of_eq t.isLt N_7
  funext y
  show k7_pay1 (F := Ideal) (iblk7 V c 0 t) (iblk7 V c 1 t) (iblk7 V c 2 t) y
    = Spec.biasScale (V c main_v74) (V c main_v75) (V c main_v76) (((cfg7.win 3).blk t).view.emb y)
  refine point_eq (V c main_v74) (V c main_v75) (V c main_v76)
    (iblk7 V c 0 t) (iblk7 V c 1 t) (iblk7 V c 2 t)
    t.val ht ?_ ?_ ?_ y (((cfg7.win 3).blk t).view.emb y) ?_ ?_
  · intro p k
    show V c main_v74 (((cfg7.win 0).blk t).view.emb (ix2 p k)) = V c main_v74 _
    refine congrArg _ (funext fun a => Fin.ext ?_)
    match a with
    | ⟨0, _⟩ => show win7_0.index t (0 : Fin 2) * 5000 + 1 * p.val = 5000 * t.val + p.val; omega
    | ⟨1, _⟩ => show win7_0.index t (1 : Fin 2) * 64 + 1 * k.val = k.val; omega
  · intro p
    show V c main_v75 (((cfg7.win 1).blk t).view.emb (ix2 p (0 : Fin 1))) = V c main_v75 _
    refine congrArg _ (funext fun a => Fin.ext ?_)
    match a with
    | ⟨0, _⟩ => show win7_1.index t (0 : Fin 2) * 5000 + 1 * p.val = 5000 * t.val + p.val; omega
    | ⟨1, _⟩ => show win7_1.index t (1 : Fin 2) * 1 + 1 * 0 = 0; omega
  · intro k
    show V c main_v76 (((cfg7.win 2).blk t).view.emb (ix2 (0 : Fin 1) k)) = V c main_v76 _
    refine congrArg _ (funext fun a => Fin.ext ?_)
    match a with
    | ⟨0, _⟩ => show win7_2.index t (0 : Fin 2) * 1 + 1 * 0 = 0; omega
    | ⟨1, _⟩ => show win7_2.index t (1 : Fin 2) * 64 + 1 * k.val = k.val; omega
  · show win7_3.index t (0 : Fin 2) * 5000 + 1 * (y 0).val = 5000 * t.val + (y 0).val; omega
  · show win7_3.index t (1 : Fin 2) * 64 + 1 * (y 1).val = (y 1).val; omega

/-- An index of the array is in point t's block iff each coordinate is in the block's range on its axis. -/
theorem mem_blk (t : Fin cfg7.N) (i : S100000x64.Idx) :
    i ∈ ((cfg7.win 3).blk t).view.set ↔ ∀ a : Fin 2, win7_3.index t a * S5000x64.size a ≤ (i a).val
      ∧ (i a).val < win7_3.index t a * S5000x64.size a + S5000x64.size a := by
  show i ∈ ((View.whole main_v77).slice (win7_3.rect t)).set ↔ _
  rw [View.set_slice_whole, Rect.mem_set_unit]
  exact Iff.rfl

/-- Row r lies in the block of point r / 5000, so the 20 blocks cover the array. -/
theorem cover (i : S100000x64.Idx) :
    ∃ t : Fin cfg7.N, (cfg7.win 3).flush t = true ∧ i ∈ ((cfg7.win 3).blk t).view.set := by
  have hi0 : (i 0).val < 100000 := (i 0).isLt
  have hi1 : (i 1).val < 64 := (i 1).isLt
  obtain ⟨t, ht⟩ : ∃ t : Fin cfg7.N, t.val = (i 0).val / 5000 :=
    ⟨⟨(i 0).val / 5000, lt_of_lt_of_eq (by omega : (i 0).val / 5000 < 20) N_7.symm⟩, rfl⟩
  have e := idx_facts t
  have eo0 : win7_3.index t (0 : Fin 2) = t.val := by tauto
  have eo1 : win7_3.index t (1 : Fin 2) = 0 := by tauto
  refine ⟨t, flush7_3 t, ?_⟩
  rw [mem_blk]
  intro a
  match a with
  | ⟨0, _⟩ =>
    show win7_3.index t (0 : Fin 2) * 5000 ≤ (i 0).val ∧ (i 0).val < win7_3.index t (0 : Fin 2) * 5000 + 5000
    omega
  | ⟨1, _⟩ =>
    show win7_3.index t (1 : Fin 2) * 64 ≤ (i 1).val ∧ (i 1).val < win7_3.index t (1 : Fin 2) * 64 + 64
    omega

/-- The array the region leaves in its output window is a · s + b of the arrays it found. -/
theorem final3 (c : Dev nD) :
    (dat7 (F := Ideal) V c).arrAt 3 cfg7.N = Spec.biasScale (V c main_v74) (V c main_v75) (V c main_v76) :=
  (dat7 V c).arrAt_eq_of_cover 3 (Spec.biasScale (V c main_v74) (V c main_v75) (V c main_v76))
    (fun t _ => flushed_eq V c t) cover

end Cert.KernelIdeal.Region7

end
-- ==== Proof.RefLayer0.lean ====
/-
  The reference program's first layer, read stage by stage: each of its stages is the corresponding whole-array
  function of the specification applied to earlier stages. Every statement is read at one index; the broadcasts
  become reads at a fixed row or column, the matrix product a sum over the contracted axis, a column reduction
  the zero word plus the sum over all rows.
-/
import proofs.«164148_j27101243638257_2_alg».proof.Proof.Gen.ReferenceIdeal.Read
import proofs.«164148_j27101243638257_2_alg».proof.Proof.Spec

noncomputable section

namespace Cert.ReferenceIdeal.Layer0

open Cert.ReferenceIdeal Cert.ReferenceIdeal.Read Idealize.ShloMosaic Idealize.ShloMosaic.ValueIdx

/-- Two rank-2 indices are equal when both coordinates are, each by computation. -/
local macro "idx2" : tactic =>
  `(tactic| exact funext fun a => Fin.ext (by match a with | ⟨0, _⟩ => rfl | ⟨1, _⟩ => rfl))
/-- Two rank-1 indices are equal when their coordinate is, by computation. -/
local macro "idx1" : tactic =>
  `(tactic| exact funext fun a => Fin.ext (by match a with | ⟨0, _⟩ => rfl))

variable (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x9 x10 : (⟨S128, .f32⟩ : BufTy).Contents (Elt Ideal))

/-- The first product: the features, each row scaled by its node's outgoing factor, times the first weight matrix. -/
theorem hw : val_main_v13 (F := Ideal) x0 x1 x3 = Spec.scaleMatmul x0 (val_main_v10 (F := Ideal) x1) x3 := by
  funext i
  obtain ⟨r, j, rfl⟩ : ∃ (r : Fin 100000) (j : Fin 128), i = ix2 r j := ⟨i 0, i 1, eq_ix2 i⟩
  rw [val_main_v13_apply, Spec.scaleMatmul_ix2]
  unfold Spec.scaleMatmulAt
  refine Finset.sum_congr rfl fun k _ => ?_
  have el : lidx_main_v13 (ix2 r j) k = ix2 r k := by idx2
  have er : ridx_main_v13 (ix2 r j) k = ix2 k j := by idx2
  have e11 : idx_main_v11 (ix2 r k) = ix2 r (0 : Fin 1) := by idx2
  rw [el, er, val_main_v12_apply, val_main_v11_apply, e11]
  rfl

/-- The aggregated rows, each scaled by its node's incoming factor, plus the bias row. -/
theorem hraw : val_main_v30 (F := Ideal) x0 x1 x2 x3 x4
    = Spec.biasScale (val_main_v23 (F := Ideal) x0 x1 x2 x3) (val_main_v25 (F := Ideal) x2) (val_main_v28 (F := Ideal) x4) := by
  funext i
  obtain ⟨r, j, rfl⟩ : ∃ (r : Fin 100000) (j : Fin 128), i = ix2 r j := ⟨i 0, i 1, eq_ix2 i⟩
  have es : idx_main_v26 (ix2 r j) = ix2 r (0 : Fin 1) := by idx2
  have eb : idx_main_v29 (ix2 r j) = ix2 (0 : Fin 1) j := by idx2
  rw [val_main_v30_apply, val_main_v27_apply, val_main_v26_apply, val_main_v29_apply, es, eb,
    Spec.biasScale_ix2]
  rfl

/-- The mean row: the column sums of the layer's raw output divided by the node count. -/
theorem mean : val_main_v34 (F := Ideal) x0 x1 x2 x3 x4
    = Spec.overN (Spec.colSum (val_main_v30 (F := Ideal) x0 x1 x2 x3 x4)) := by
  funext i
  obtain ⟨z, j, rfl⟩ : ∃ (z : Fin 1) (j : Fin 128), i = ix2 z j := ⟨i 0, i 1, eq_ix2 i⟩
  have e : idx_main_v34 (ix2 z j) = ix1 j := by idx1
  rw [val_main_v34_apply, e, val_main_v33_apply, val_main_v31_apply, val_main_v32_apply,
    val_main_cst_6_apply, val_main_cst_7_apply]
  show Ideal.div (Ideal.ofBits .f32 0x00000000#32
      + ∑ k : Fin 100000, val_main_v30 (F := Ideal) x0 x1 x2 x3 x4 (idx_main_v31 (ix1 j) k)) (Ideal.ofBits .f32 0x47C35000#32)
    = Ideal.div (∑ r : Fin 100000, val_main_v30 (F := Ideal) x0 x1 x2 x3 x4 (ix2 r j)) (Ideal.ofBits .f32 0x47C35000#32)
  rw [Ideal.ofBits_zero_f32, zero_add]
  refine congrArg (fun s : EReal => Ideal.div s (Ideal.ofBits .f32 0x47C35000#32)) (Finset.sum_congr rfl fun k _ => ?_)
  exact congrArg _ (by idx2)

/-- The variance vector: the column sums of squared deviations from the mean row, divided by the node count. -/
theorem var (j : Fin 128) : val_main_v40 (F := Ideal) x0 x1 x2 x3 x4 (ix1 j)
    = Spec.overN (Spec.colSqDev (val_main_v30 (F := Ideal) x0 x1 x2 x3 x4) (val_main_v34 (F := Ideal) x0 x1 x2 x3 x4))
        (ix2 (0 : Fin 1) j) := by
  rw [val_main_v40_apply, val_main_v38_apply, val_main_v39_apply, val_main_cst_8_apply,
    val_main_cst_9_apply]
  show Ideal.div (Ideal.ofBits .f32 0x00000000#32
      + ∑ k : Fin 100000, val_main_v37 (F := Ideal) x0 x1 x2 x3 x4 (idx_main_v38 (ix1 j) k)) (Ideal.ofBits .f32 0x47C35000#32)
    = Ideal.div (∑ r : Fin 100000,
        (val_main_v30 (F := Ideal) x0 x1 x2 x3 x4 (ix2 r j) - val_main_v34 (F := Ideal) x0 x1 x2 x3 x4 (ix2 (0 : Fin 1) j))
        * (val_main_v30 (F := Ideal) x0 x1 x2 x3 x4 (ix2 r j) - val_main_v34 (F := Ideal) x0 x1 x2 x3 x4 (ix2 (0 : Fin 1) j)))
      (Ideal.ofBits .f32 0x47C35000#32)
  rw [Ideal.ofBits_zero_f32, zero_add]
  refine congrArg (fun s : EReal => Ideal.div s (Ideal.ofBits .f32 0x47C35000#32)) (Finset.sum_congr rfl fun k _ => ?_)
  have e1 : idx_main_v38 (ix1 j) k = ix2 k j := by idx2
  have e2 : idx_main_v35 (ix2 k j) = ix2 (0 : Fin 1) j := by idx2
  rw [e1, val_main_v37_apply, val_main_v36_apply, val_main_v35_apply, e2]
  rfl

/-- The next product: this layer normalized and rectified, rows scaled by the outgoing factor, times the next
    weight matrix. -/
theorem hw1 : val_main_v70 (F := Ideal) x0 x1 x2 x3 x4 x5 x9 x10
    = Spec.scaleMatmul
        (Spec.bnRelu (val_main_v30 (F := Ideal) x0 x1 x2 x3 x4) (val_main_v34 (F := Ideal) x0 x1 x2 x3 x4)
          (Spec.overN (Spec.colSqDev (val_main_v30 (F := Ideal) x0 x1 x2 x3 x4) (val_main_v34 (F := Ideal) x0 x1 x2 x3 x4)))
          (val_main_v50 (F := Ideal) x9) (val_main_v53 (F := Ideal) x10))
        (val_main_v67 (F := Ideal) x1) x5 := by
  funext i
  obtain ⟨r, j, rfl⟩ : ∃ (r : Fin 100000) (j : Fin 128), i = ix2 r j := ⟨i 0, i 1, eq_ix2 i⟩
  rw [val_main_v70_apply, Spec.scaleMatmul_ix2]
  unfold Spec.scaleMatmulAt
  refine Finset.sum_congr rfl fun k _ => ?_
  have el : lidx_main_v70 (ix2 r j) k = ix2 r k := by idx2
  have er : ridx_main_v70 (ix2 r j) k = ix2 k j := by idx2
  have es : idx_main_v68 (ix2 r k) = ix2 r (0 : Fin 1) := by idx2
  have ebeta : idx_main_v54 (ix2 r k) = ix2 (0 : Fin 1) k := by idx2
  have egam : idx_main_v51 (ix2 r k) = ix2 (0 : Fin 1) k := by idx2
  have ersB : idx_main_v48 (ix2 r k) = ix2 (0 : Fin 1) k := by idx2
  have ersRow : idx_main_v47 (ix2 (0 : Fin 1) k) = ix1 k := by idx1
  have emB : idx_main_v42 (ix2 r k) = ix2 (0 : Fin 1) k := by idx2
  have hrow : val_main_v41 (F := Ideal) x0 x1 x2 x3 x4 = val_main_v34 (F := Ideal) x0 x1 x2 x3 x4 := rfl
  rw [el, er, val_main_v69_apply, val_main_v68_apply, es, val_main_v56_apply, val_main_call2_v0_apply,
    val_main_call2_cst_apply, val_main_v55_apply, val_main_v54_apply, ebeta, val_main_v52_apply,
    val_main_v51_apply, egam, val_main_v49_apply, val_main_v48_apply, ersB, val_main_v47_apply, ersRow,
    val_main_v46_apply, val_main_v45_apply, val_main_v44_apply, val_main_cst_10_apply, var,
    val_main_v43_apply, val_main_v42_apply, emB, hrow, Spec.bnRelu_ix2]
  rfl

end Cert.ReferenceIdeal.Layer0

end
-- ==== Proof.RefLayer1.lean ====
/-
  The reference program's second layer, read stage by stage: each of its stages is the corresponding whole-array
  function of the specification applied to earlier stages. Every statement is read at one index; the broadcasts
  become reads at a fixed row or column, the matrix product a sum over the contracted axis, a column reduction
  the zero word plus the sum over all rows.
-/
import proofs.«164148_j27101243638257_2_alg».proof.Proof.Gen.ReferenceIdeal.Read
import proofs.«164148_j27101243638257_2_alg».proof.Proof.Spec

noncomputable section

namespace Cert.ReferenceIdeal.Layer1

open Cert.ReferenceIdeal Cert.ReferenceIdeal.Read Idealize.ShloMosaic Idealize.ShloMosaic.ValueIdx

/-- Two rank-2 indices are equal when both coordinates are, each by computation. -/
local macro "idx2" : tactic =>
  `(tactic| exact funext fun a => Fin.ext (by match a with | ⟨0, _⟩ => rfl | ⟨1, _⟩ => rfl))
/-- Two rank-1 indices are equal when their coordinate is, by computation. -/
local macro "idx1" : tactic =>
  `(tactic| exact funext fun a => Fin.ext (by match a with | ⟨0, _⟩ => rfl))

variable (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal))
  (x9 x10 x11 x12 : (⟨S128, .f32⟩ : BufTy).Contents (Elt Ideal))

/-- The aggregated rows, each scaled by its node's incoming factor, plus the bias row. -/
theorem hraw : val_main_v87 (F := Ideal) x0 x1 x2 x3 x4 x5 x6 x9 x10
    = Spec.biasScale (val_main_v80 (F := Ideal) x0 x1 x2 x3 x4 x5 x9 x10) (val_main_v82 (F := Ideal) x2) (val_main_v85 (F := Ideal) x6) := by
  funext i
  obtain ⟨r, j, rfl⟩ : ∃ (r : Fin 100000) (j : Fin 128), i = ix2 r j := ⟨i 0, i 1, eq_ix2 i⟩
  have es : idx_main_v83 (ix2 r j) = ix2 r (0 : Fin 1) := by idx2
  have eb : idx_main_v86 (ix2 r j) = ix2 (0 : Fin 1) j := by idx2
  rw [val_main_v87_apply, val_main_v84_apply, val_main_v83_apply, val_main_v86_apply, es, eb,
    Spec.biasScale_ix2]
  rfl

/-- The mean row: the column sums of the layer's raw output divided by the node count. -/
theorem mean : val_main_v91 (F := Ideal) x0 x1 x2 x3 x4 x5 x6 x9 x10
    = Spec.overN (Spec.colSum (val_main_v87 (F := Ideal) x0 x1 x2 x3 x4 x5 x6 x9 x10)) := by
  funext i
  obtain ⟨z, j, rfl⟩ : ∃ (z : Fin 1) (j : Fin 128), i = ix2 z j := ⟨i 0, i 1, eq_ix2 i⟩
  have e : idx_main_v91 (ix2 z j) = ix1 j := by idx1
  rw [val_main_v91_apply, e, val_main_v90_apply, val_main_v88_apply, val_main_v89_apply,
    val_main_cst_19_apply, val_main_cst_20_apply]
  show Ideal.div (Ideal.ofBits .f32 0x00000000#32
      + ∑ k : Fin 100000, val_main_v87 (F := Ideal) x0 x1 x2 x3 x4 x5 x6 x9 x10 (idx_main_v88 (ix1 j) k)) (Ideal.ofBits .f32 0x47C35000#32)
    = Ideal.div (∑ r : Fin 100000, val_main_v87 (F := Ideal) x0 x1 x2 x3 x4 x5 x6 x9 x10 (ix2 r j)) (Ideal.ofBits .f32 0x47C35000#32)
  rw [Ideal.ofBits_zero_f32, zero_add]
  refine congrArg (fun s : EReal => Ideal.div s (Ideal.ofBits .f32 0x47C35000#32)) (Finset.sum_congr rfl fun k _ => ?_)
  exact congrArg _ (by idx2)

/-- The variance vector: the column sums of squared deviations from the mean row, divided by the node count. -/
theorem var (j : Fin 128) : val_main_v97 (F := Ideal) x0 x1 x2 x3 x4 x5 x6 x9 x10 (ix1 j)
    = Spec.overN (Spec.colSqDev (val_main_v87 (F := Ideal) x0 x1 x2 x3 x4 x5 x6 x9 x10) (val_main_v91 (F := Ideal) x0 x1 x2 x3 x4 x5 x6 x9 x10))
        (ix2 (0 : Fin 1) j) := by
  rw [val_main_v97_apply, val_main_v95_apply, val_main_v96_apply, val_main_cst_21_apply,
    val_main_cst_22_apply]
  show Ideal.div (Ideal.ofBits .f32 0x00000000#32
      + ∑ k : Fin 100000, val_main_v94 (F := Ideal) x0 x1 x2 x3 x4 x5 x6 x9 x10 (idx_main_v95 (ix1 j) k)) (Ideal.ofBits .f32 0x47C35000#32)
    = Ideal.div (∑ r : Fin 100000,
        (val_main_v87 (F := Ideal) x0 x1 x2 x3 x4 x5 x6 x9 x10 (ix2 r j) - val_main_v91 (F := Ideal) x0 x1 x2 x3 x4 x5 x6 x9 x10 (ix2 (0 : Fin 1) j))
        * (val_main_v87 (F := Ideal) x0 x1 x2 x3 x4 x5 x6 x9 x10 (ix2 r j) - val_main_v91 (F := Ideal) x0 x1 x2 x3 x4 x5 x6 x9 x10 (ix2 (0 : Fin 1) j)))
      (Ideal.ofBits .f32 0x47C35000#32)
  rw [Ideal.ofBits_zero_f32, zero_add]
  refine congrArg (fun s : EReal => Ideal.div s (Ideal.ofBits .f32 0x47C35000#32)) (Finset.sum_congr rfl fun k _ => ?_)
  have e1 : idx_main_v95 (ix1 j) k = ix2 k j := by idx2
  have e2 : idx_main_v92 (ix2 k j) = ix2 (0 : Fin 1) j := by idx2
  rw [e1, val_main_v94_apply, val_main_v93_apply, val_main_v92_apply, e2]
  rfl

/-- The next product: this layer normalized and rectified, rows scaled by the outgoing factor, times the next
    weight matrix. -/
theorem hw2 : val_main_v127 (F := Ideal) x0 x1 x2 x3 x4 x5 x6 x7 x9 x10 x11 x12
    = Spec.scaleMatmul
        (Spec.bnRelu (val_main_v87 (F := Ideal) x0 x1 x2 x3 x4 x5 x6 x9 x10) (val_main_v91 (F := Ideal) x0 x1 x2 x3 x4 x5 x6 x9 x10)
          (Spec.overN (Spec.colSqDev (val_main_v87 (F := Ideal) x0 x1 x2 x3 x4 x5 x6 x9 x10) (val_main_v91 (F := Ideal) x0 x1 x2 x3 x4 x5 x6 x9 x10)))
          (val_main_v107 (F := Ideal) x11) (val_main_v110 (F := Ideal) x12))
        (val_main_v124 (F := Ideal) x1) x7 := by
  funext i
  obtain ⟨r, j, rfl⟩ : ∃ (r : Fin 100000) (j : Fin 64), i = ix2 r j := ⟨i 0, i 1, eq_ix2 i⟩
  rw [val_main_v127_apply, Spec.scaleMatmul_ix2]
  unfold Spec.scaleMatmulAt
  refine Finset.sum_congr rfl fun k _ => ?_
  have el : lidx_main_v127 (ix2 r j) k = ix2 r k := by idx2
  have er : ridx_main_v127 (ix2 r j) k = ix2 k j := by idx2
  have es : idx_main_v125 (ix2 r k) = ix2 r (0 : Fin 1) := by idx2
  have ebeta : idx_main_v111 (ix2 r k) = ix2 (0 : Fin 1) k := by idx2
  have egam : idx_main_v108 (ix2 r k) = ix2 (0 : Fin 1) k := by idx2
  have ersB : idx_main_v105 (ix2 r k) = ix2 (0 : Fin 1) k := by idx2
  have ersRow : idx_main_v104 (ix2 (0 : Fin 1) k) = ix1 k := by idx1
  have emB : idx_main_v99 (ix2 r k) = ix2 (0 : Fin 1) k := by idx2
  have hrow : val_main_v98 (F := Ideal) x0 x1 x2 x3 x4 x5 x6 x9 x10 = val_main_v91 (F := Ideal) x0 x1 x2 x3 x4 x5 x6 x9 x10 := rfl
  rw [el, er, val_main_v126_apply, val_main_v125_apply, es, val_main_v113_apply, val_main_call5_v0_apply,
    val_main_call5_cst_apply, val_main_v112_apply, val_main_v111_apply, ebeta, val_main_v109_apply,
    val_main_v108_apply, egam, val_main_v106_apply, val_main_v105_apply, ersB, val_main_v104_apply, ersRow,
    val_main_v103_apply, val_main_v102_apply, val_main_v101_apply, val_main_cst_23_apply, var,
    val_main_v100_apply, val_main_v99_apply, emB, hrow, Spec.bnRelu_ix2]
  rfl

end Cert.ReferenceIdeal.Layer1

end
-- ==== Proof.RefLayer2.lean ====
/-
  The reference program's last layer: its output is the aggregated rows, each scaled by its node's incoming
  factor, plus the bias row, the specification's function of the last scatter-add.
-/
import proofs.«164148_j27101243638257_2_alg».proof.Proof.Gen.ReferenceIdeal.Read
import proofs.«164148_j27101243638257_2_alg».proof.Proof.Spec

noncomputable section

namespace Cert.ReferenceIdeal.Layer2

open Cert.ReferenceIdeal Cert.ReferenceIdeal.Read Idealize.ShloMosaic Idealize.ShloMosaic.ValueIdx

/-- Two rank-2 indices are equal when both coordinates are, each by computation. -/
local macro "idx2" : tactic =>
  `(tactic| exact funext fun a => Fin.ext (by match a with | ⟨0, _⟩ => rfl | ⟨1, _⟩ => rfl))
/-- Two rank-1 indices are equal when their coordinate is, by computation. -/
local macro "idx1" : tactic =>
  `(tactic| exact funext fun a => Fin.ext (by match a with | ⟨0, _⟩ => rfl))

variable (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal))
  (x9 x10 x11 x12 : (⟨S128, .f32⟩ : BufTy).Contents (Elt Ideal))

/-- The output: the aggregated rows, each scaled by its node's incoming factor, plus the bias row. -/
theorem out : val_main_v144 (F := Ideal) x0 x1 x2 x3 x4 x5 x6 x7 x8 x9 x10 x11 x12
    = Spec.biasScale (val_main_v137 (F := Ideal) x0 x1 x2 x3 x4 x5 x6 x7 x9 x10 x11 x12) (val_main_v139 (F := Ideal) x2) (val_main_v142 (F := Ideal) x8) := by
  funext i
  obtain ⟨r, j, rfl⟩ : ∃ (r : Fin 100000) (j : Fin 64), i = ix2 r j := ⟨i 0, i 1, eq_ix2 i⟩
  have es : idx_main_v140 (ix2 r j) = ix2 r (0 : Fin 1) := by idx2
  have eb : idx_main_v143 (ix2 r j) = ix2 (0 : Fin 1) j := by idx2
  rw [val_main_v144_apply, val_main_v141_apply, val_main_v140_apply, val_main_v143_apply, es, eb, Spec.biasScale_ix2]
  rfl

end Cert.ReferenceIdeal.Layer2

end
-- ==== Proof.lean ====
/-
  The claim for the three-layer graph network on 100000 nodes. The kernel program and its idealization run and leave
  their thirteen argument arrays unchanged (the generated frames); so does the reference program (its generated run
  with the result dropped); the idealization rewrote no operation; and on the extended reals the idealized kernel's
  result array equals the reference's result, element by element, whenever both start from the same arguments.

  The equality has three parts. Each of the kernel's eight regions leaves in its output arrays a layer function of the
  arrays it is entered with: the row-scaled features times a weight matrix, the row-scaled aggregate plus the bias row
  together with its column sums, the column sums of squared deviations from the mean row, or the normalized and
  rectified features, row-scaled, times the next weight matrix. The reference's stages are the same layer functions of
  its earlier stages. The chain of boundaries between the kernel's host stretches and its regions carries the final
  contents of the result buffer down to the arguments, where they are the reference's last stage of those arguments.
-/
import proofs.«164148_j27101243638257_2_alg».proof.Defs
import proofs.«164148_j27101243638257_2_alg».proof.Proof.Gen.Kernel
import proofs.«164148_j27101243638257_2_alg».proof.Proof.Gen.Kernel.Skeleton
import proofs.«164148_j27101243638257_2_alg».proof.Proof.Gen.Kernel.Launch
import proofs.«164148_j27101243638257_2_alg».proof.Proof.Gen.Kernel.Points
import proofs.«164148_j27101243638257_2_alg».proof.Proof.Gen.Kernel.Frame
import proofs.«164148_j27101243638257_2_alg».proof.Proof.Gen.KernelIdeal
import proofs.«164148_j27101243638257_2_alg».proof.Proof.Gen.KernelIdeal.Skeleton
import proofs.«164148_j27101243638257_2_alg».proof.Proof.Gen.KernelIdeal.Launch
import proofs.«164148_j27101243638257_2_alg».proof.Proof.Gen.KernelIdeal.Points
import proofs.«164148_j27101243638257_2_alg».proof.Proof.Gen.KernelIdeal.Frame
import proofs.«164148_j27101243638257_2_alg».proof.Proof.Gen.ReferenceIdeal
import proofs.«164148_j27101243638257_2_alg».proof.Proof.Gen.ReferenceIdeal.Run
import proofs.«164148_j27101243638257_2_alg».proof.Proof.Gen.ReferenceIdeal.Read
import proofs.«164148_j27101243638257_2_alg».proof.Proof.Gen.Pre_finite_inputs
import proofs.«164148_j27101243638257_2_alg».proof.Proof.KRun
import proofs.«164148_j27101243638257_2_alg».proof.Proof.Chain
import proofs.«164148_j27101243638257_2_alg».proof.Proof.KRegion0
import proofs.«164148_j27101243638257_2_alg».proof.Proof.KRegion1
import proofs.«164148_j27101243638257_2_alg».proof.Proof.KRegion2
import proofs.«164148_j27101243638257_2_alg».proof.Proof.KRegion3
import proofs.«164148_j27101243638257_2_alg».proof.Proof.KRegion4
import proofs.«164148_j27101243638257_2_alg».proof.Proof.KRegion5
import proofs.«164148_j27101243638257_2_alg».proof.Proof.KRegion6
import proofs.«164148_j27101243638257_2_alg».proof.Proof.KRegion7
import proofs.«164148_j27101243638257_2_alg».proof.Proof.RefLayer0
import proofs.«164148_j27101243638257_2_alg».proof.Proof.RefLayer1
import proofs.«164148_j27101243638257_2_alg».proof.Proof.RefLayer2
import Idealize.ShloMosaic.Adequacy
import Idealize.ShloMosaic.Init

noncomputable section

namespace Cert.Proof

open Idealize.ShloMosaic Idealize.SL.Sem

/-- What each of the eight regions leaves in its output arrays, as a layer function of the arrays it is entered with. -/
theorem regionFacts : Cert.KernelIdeal.Chain.RegionFacts :=
  ⟨fun V c => Cert.KernelIdeal.Region0.final3 V c,
   fun V c => Cert.KernelIdeal.Region1.final3 V c,
   fun V c => Cert.KernelIdeal.Region1.final4 V c,
   fun V c => Cert.KernelIdeal.Region2.final2 V c,
   fun V c => Cert.KernelIdeal.Region3.final7 V c,
   fun V c => Cert.KernelIdeal.Region4.final3 V c,
   fun V c => Cert.KernelIdeal.Region4.final4 V c,
   fun V c => Cert.KernelIdeal.Region5.final2 V c,
   fun V c => Cert.KernelIdeal.Region6.final7 V c,
   fun V c => Cert.KernelIdeal.Region7.final3 V c⟩

/-- The reference's layer stages as the same layer functions of its earlier stages. -/
theorem refFacts : Cert.KernelIdeal.Chain.RefFacts :=
  ⟨Cert.ReferenceIdeal.Layer0.hw, Cert.ReferenceIdeal.Layer0.hraw, Cert.ReferenceIdeal.Layer0.mean, Cert.ReferenceIdeal.Layer0.hw1,
   Cert.ReferenceIdeal.Layer1.hraw, Cert.ReferenceIdeal.Layer1.mean, Cert.ReferenceIdeal.Layer1.hw2, Cert.ReferenceIdeal.Layer2.out⟩

/-- The kernel program runs and leaves its arguments unchanged: the generated frame. -/
theorem frame_k : Cert.frame_Kernel := fun m ρ _ => Cert.Kernel.Gen.frame m ρ

/-- The idealized kernel program runs and leaves its arguments unchanged: the generated frame. -/
theorem frame_ki : Cert.frame_KernelIdeal := fun m ρ _ => Cert.KernelIdeal.Gen.frame m ρ

/-- The reference program runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel program. -/
theorem preserves : Cert.preserves_Kernel_KernelIdeal := trivial

/-- On the extended reals the kernel's result array and the reference's result are one function of the arguments:
    the kernel's run ends with the result buffer at the last boundary's contents, the chain of boundaries
    identifies those contents with the reference's last stage of the kernel's arguments, and the reference's run
    ends at that stage of its own arguments, which agree with the kernel's. -/
theorem algebraic : Cert.algebraic_KernelIdeal_ReferenceIdeal := by
  intro m ρ m' ρ' _ hagree
  refine ⟨fun c => Cert.KernelIdeal.Gen.W16 m ρ c (Proc.devRef .tc Cert.KernelIdeal.main_v77),
    Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v144_eq,
    (hagree c).1,
    (hagree c).2.1,
    (hagree c).2.2.1,
    (hagree c).2.2.2.1,
    (hagree c).2.2.2.2.1,
    (hagree c).2.2.2.2.2.1,
    (hagree c).2.2.2.2.2.2.1,
    (hagree c).2.2.2.2.2.2.2.1,
    (hagree c).2.2.2.2.2.2.2.2.1,
    (hagree c).2.2.2.2.2.2.2.2.2.1,
    (hagree c).2.2.2.2.2.2.2.2.2.2.1,
    (hagree c).2.2.2.2.2.2.2.2.2.2.2.1,
    (hagree c).2.2.2.2.2.2.2.2.2.2.2.2]
  exact (Cert.KernelIdeal.Chain.result (K := regionFacts) (R := refFacts) (m := m) (ρ := ρ) (c := c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
